-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S128 .f32) (main_arg9 : FVec F S128 .f32) (main_arg10 : FVec F S128 .f32) (main_arg11 : FVec F S128x1 .f32) (main_arg12 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg11
  let main_cst_18 : FVec F S_ .f32 := constant S_ .f32 0x7F800000#32
  let main_v50 : FVec F S128x1 .f32 := broadcastInDim S128x1 ![] bcast_S_S128x1 main_cst_18
  fn_part3 (F := F) main_arg12 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x1 .f32) (main_arg12 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x1 .f32) (main_arg12 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 149
  | .vmem => 45
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x1, .f32⟩
  | 12 => ⟨S1, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S100000, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S1700000, .f32⟩
  | 58 => ⟨S100000x128, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000x128, .f32⟩
  | 68 => ⟨S1700000x1, .f32⟩
  | 69 => ⟨S1700000x128, .f32⟩
  | 70 => ⟨S1700000x128, .f32⟩
  | 71 => ⟨S_, .f32⟩
  | 72 => ⟨S100000x128, .f32⟩
  | 73 => ⟨S1700000x1, .i32⟩
  | 74 => ⟨S100000x128, .f32⟩
  | 75 => ⟨S1x128, .f32⟩
  | 76 => ⟨S100000x128, .f32⟩
  | 77 => ⟨S1x128, .f32⟩
  | 78 => ⟨S1x128, .f32⟩
  | 79 => ⟨S128, .f32⟩
  | 80 => ⟨S_, .f32⟩
  | 81 => ⟨S128, .f32⟩
  | 82 => ⟨S128, .f32⟩
  | 83 => ⟨S128, .f32⟩
  | 84 => ⟨S_, .f32⟩
  | 85 => ⟨S128, .f32⟩
  | 86 => ⟨S128, .f32⟩
  | 87 => ⟨S128, .f32⟩
  | 88 => ⟨S128, .f32⟩
  | 89 => ⟨S1x128, .f32⟩
  | 90 => ⟨S1x128, .f32⟩
  | 91 => ⟨S1x128, .f32⟩
  | 92 => ⟨S1x128, .f32⟩
  | 93 => ⟨S100000x128, .f32⟩
  | 94 => ⟨S100000x128, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x128, .f32⟩
  | 104 => ⟨S1700000x1, .f32⟩
  | 105 => ⟨S1700000x128, .f32⟩
  | 106 => ⟨S1700000x128, .f32⟩
  | 107 => ⟨S_, .f32⟩
  | 108 => ⟨S100000x128, .f32⟩
  | 109 => ⟨S1700000x1, .i32⟩
  | 110 => ⟨S100000x128, .f32⟩
  | 111 => ⟨S1x128, .f32⟩
  | 112 => ⟨S100000x128, .f32⟩
  | 113 => ⟨S1x128, .f32⟩
  | 114 => ⟨S1x128, .f32⟩
  | 115 => ⟨S128, .f32⟩
  | 116 => ⟨S_, .f32⟩
  | 117 => ⟨S128, .f32⟩
  | 118 => ⟨S128, .f32⟩
  | 119 => ⟨S128, .f32⟩
  | 120 => ⟨S_, .f32⟩
  | 121 => ⟨S128, .f32⟩
  | 122 => ⟨S128, .f32⟩
  | 123 => ⟨S128, .f32⟩
  | 124 => ⟨S128, .f32⟩
  | 125 => ⟨S1x128, .f32⟩
  | 126 => ⟨S1x128, .f32⟩
  | 127 => ⟨S1x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x1, .f32⟩
  | 3 => ⟨S_, .i32⟩
  | 4 => ⟨S1700000, .i32⟩
  | 5 => ⟨S1700000, .i1⟩
  | 6 => ⟨S_, .i32⟩
  | 7 => ⟨S1700000, .i32⟩
  | 8 => ⟨S1700000, .i32⟩
  | 9 => ⟨S1700000, .i32⟩
  | 10 => ⟨S1700000x1, .i32⟩
  | 11 => ⟨S1700000x1, .f32⟩
  | 12 => ⟨S1700000x1, .f32⟩
  | 13 => ⟨S1700000x1, .f32⟩
  | 14 => ⟨S_, .f32⟩
  | 15 => ⟨S100000x1, .f32⟩
  | 16 => ⟨S1700000x1, .i32⟩
  | 17 => ⟨S100000x1, .f32⟩
  | 18 => ⟨S1x1, .f32⟩
  | 19 => ⟨S100000x1, .f32⟩
  | 20 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S1x128, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S1x128, .f32⟩
  | .local _ .vmem, ⟨28, _⟩ => ⟨S10000x128, .f32⟩
  | .local _ .vmem, ⟨29, _⟩ => ⟨S10000x128, .f32⟩
  | .local _ .vmem, ⟨30, _⟩ => ⟨S1x128, .f32⟩
  | .local _ .vmem, ⟨31, _⟩ => ⟨S1x128, .f32⟩
  | .local _ .vmem, ⟨32, _⟩ => ⟨S10000x128, .f32⟩
  | .local _ .vmem, ⟨33, _⟩ => ⟨S10000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S10000x128, .f32⟩
  | .local _ .vmem, ⟨39, _⟩ => ⟨S10000x128, .f32⟩
  | .local _ .vmem, ⟨40, _⟩ => ⟨S10000x128, .f32⟩
  | .local _ .vmem, ⟨41, _⟩ => ⟨S10000x128, .f32⟩
  | .local _ .vmem, ⟨42, _⟩ => ⟨S128x1, .f32⟩
  | .local _ .vmem, ⟨43, _⟩ => ⟨S10000x1, .f32⟩
  | .local _ .vmem, ⟨44, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_c_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49_0 : Ref sig .tc := ⟨.hbm, 76, rfl⟩
abbrev main_v49_1 : Ref sig .tc := ⟨.hbm, 77, rfl⟩
abbrev main_v49_2 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_11 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_12 : Ref sig .tc := ⟨.hbm, 95, rfl⟩
abbrev main_v64 : Ref sig .tc := ⟨.hbm, 96, rfl⟩
abbrev main_v65 : Ref sig .tc := ⟨.hbm, 97, rfl⟩
abbrev main_c_13 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_14 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78_0 : Ref sig .tc := ⟨.hbm, 112, rfl⟩
abbrev main_v78_1 : Ref sig .tc := ⟨.hbm, 113, rfl⟩
abbrev main_v78_2 : Ref sig .tc := ⟨.hbm, 114, rfl⟩
abbrev main_v79 : Ref sig .tc := ⟨.hbm, 115, rfl⟩
abbrev main_cst_15 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_16 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_c_17 : Ref sig .tc := ⟨.hbm, 131, rfl⟩
abbrev main_v93 : Ref sig .tc := ⟨.hbm, 132, rfl⟩
abbrev main_v94 : Ref sig .tc := ⟨.hbm, 133, rfl⟩
abbrev main_c_18 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_19 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg4_0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg5_0 : Ref sig .tc := ⟨.vmem, 38, rfl⟩
abbrev cc5_stg5_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg2_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc4_sem3_0 : DmaSem sig := 30
abbrev cc4_sem4_0 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem4_0 : DmaSem sig := 37
abbrev cc5_sem5_0 : DmaSem sig := 38
abbrev cc5_sem5_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem2_1 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S10000x128_S10000x128 : S10000x128.ShapeCasts S10000x128
  shapeCasts_S1x128_S1x128 : S1x128.ShapeCasts S1x128
  broadcasts_S1x128_S10000x128 : S1x128.Broadcasts S10000x128
  reduces_S10000x128_S128 : S10000x128.Reduces [0] S128
  shapeCasts_S1x128_S128 : S1x128.ShapeCasts S128
  bcast_S_S128 : S_.BroadcastsInDim S128 (![] : Fin 0 → Fin S128.rank)
  inb_S128x1_S128x1_0_0 : ∀ a, (![0, 0] : Fin 2 → Nat) a + S128x1.size a ≤ S128x1.size a
  h_S128x1 : 0 < S128x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x1_S10000x1_1_0_0_1_n_n_wf : DotDims.WF S10000x128 S128x1 S10000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .f32 = 32 ∨ (Rect.block (s := S100000x128) S10000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x128.size a ≤ S100000x128.size a
  hwx5_5 : ∀ i : grid5.Coords, EltTy.bits .f32 = 32 ∨ (Rect.block (s := S100000x128) S10000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x1.size a ≤ S128x1.size a
  hwx6_1 : ∀ i : grid6.Coords, EltTy.bits .f32 = 32 ∨ (Rect.block (s := S128x1) S128x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x1.size a ≤ S100000x1.size a
  hwx6_2 : ∀ i : grid6.Coords, EltTy.bits .f32 = 32 ∨ (Rect.block (s := S100000x1) S10000x1.size (cc6_transform_2 i) (hinb6_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49_0) S10000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49_1) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49_2) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v49_0) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v62) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v76) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v77) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78_0) S10000x128.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v78_1) S1x128.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v78_2) S1x128.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v78_0) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v87) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v88) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v89) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v90) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v91) S10000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v91) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S128x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v92) S10000x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 183
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x1, .f32⟩
  | 12 => ⟨S1, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S100000, .f32⟩
  | 22 => ⟨S1700000, .f32⟩
  | 23 => ⟨S_, .f32⟩
  | 24 => ⟨S100000, .f32⟩
  | 25 => ⟨S1700000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S1700000, .f32⟩
  | 58 => ⟨S100000x128, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000x128, .f32⟩
  | 68 => ⟨S1700000x1, .f32⟩
  | 69 => ⟨S1700000x128, .f32⟩
  | 70 => ⟨S1700000x128, .f32⟩
  | 71 => ⟨S_, .f32⟩
  | 72 => ⟨S100000x128, .f32⟩
  | 73 => ⟨S1700000x1, .i32⟩
  | 74 => ⟨S100000x128, .f32⟩
  | 75 => ⟨S1x128, .f32⟩
  | 76 => ⟨S100000x128, .f32⟩
  | 77 => ⟨S100000x128, .f32⟩
  | 78 => ⟨S_, .f32⟩
  | 79 => ⟨S128, .f32⟩
  | 80 => ⟨S_, .f32⟩
  | 81 => ⟨S128, .f32⟩
  | 82 => ⟨S128, .f32⟩
  | 83 => ⟨S1x128, .f32⟩
  | 84 => ⟨S100000x128, .f32⟩
  | 85 => ⟨S100000x128, .f32⟩
  | 86 => ⟨S100000x128, .f32⟩
  | 87 => ⟨S_, .f32⟩
  | 88 => ⟨S128, .f32⟩
  | 89 => ⟨S_, .f32⟩
  | 90 => ⟨S128, .f32⟩
  | 91 => ⟨S128, .f32⟩
  | 92 => ⟨S1x128, .f32⟩
  | 93 => ⟨S100000x128, .f32⟩
  | 94 => ⟨S100000x128, .f32⟩
  | 95 => ⟨S_, .f32⟩
  | 96 => ⟨S128, .f32⟩
  | 97 => ⟨S128, .f32⟩
  | 98 => ⟨S128, .f32⟩
  | 99 => ⟨S1x128, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S100000x128, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x128, .f32⟩
  | 121 => ⟨S1700000x1, .f32⟩
  | 122 => ⟨S1700000x128, .f32⟩
  | 123 => ⟨S1700000x128, .f32⟩
  | 124 => ⟨S_, .f32⟩
  | 125 => ⟨S100000x128, .f32⟩
  | 126 => ⟨S1700000x1, .i32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S128, .f32⟩
  | 5 => ⟨S_, .f32⟩
  | 6 => ⟨S128, .f32⟩
  | 7 => ⟨S128, .f32⟩
  | 8 => ⟨S1x128, .f32⟩
  | 9 => ⟨S100000x128, .f32⟩
  | 10 => ⟨S100000x128, .f32⟩
  | 11 => ⟨S100000x128, .f32⟩
  | 12 => ⟨S_, .f32⟩
  | 13 => ⟨S128, .f32⟩
  | 14 => ⟨S_, .f32⟩
  | 15 => ⟨S128, .f32⟩
  | 16 => ⟨S128, .f32⟩
  | 17 => ⟨S1x128, .f32⟩
  | 18 => ⟨S100000x128, .f32⟩
  | 19 => ⟨S100000x128, .f32⟩
  | 20 => ⟨S_, .f32⟩
  | 21 => ⟨S128, .f32⟩
  | 22 => ⟨S128, .f32⟩
  | 23 => ⟨S128, .f32⟩
  | 24 => ⟨S1x128, .f32⟩
  | 25 => ⟨S100000x128, .f32⟩
  | 26 => ⟨S100000x128, .f32⟩
  | 27 => ⟨S1x128, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S_, .f32⟩
  | 34 => ⟨S100000x128, .f32⟩
  | 35 => ⟨S100000x128, .f32⟩
  | 36 => ⟨S100000x1, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000x1, .f32⟩
  | 46 => ⟨S1700000x1, .f32⟩
  | 47 => ⟨S1700000x1, .f32⟩
  | 48 => ⟨S_, .f32⟩
  | 49 => ⟨S100000x1, .f32⟩
  | 50 => ⟨S1700000x1, .i32⟩
  | 51 => ⟨S100000x1, .f32⟩
  | 52 => ⟨S1x1, .f32⟩
  | 53 => ⟨S100000x1, .f32⟩
  | 54 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_c_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_cst_11 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_12 : Ref sig .tc := ⟨.hbm, 87, rfl⟩
abbrev main_v58 : Ref sig .tc := ⟨.hbm, 88, rfl⟩
abbrev main_cst_13 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_14 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_call1_cst : Ref sig .tc := ⟨.hbm, 108, rfl⟩
abbrev main_call1_v0 : Ref sig .tc := ⟨.hbm, 109, rfl⟩
abbrev main_v76 : Ref sig .tc := ⟨.hbm, 110, rfl⟩
abbrev main_v77 : Ref sig .tc := ⟨.hbm, 111, rfl⟩
abbrev main_c_15 : Ref sig .tc := ⟨.hbm, 112, rfl⟩
abbrev main_v78 : Ref sig .tc := ⟨.hbm, 113, rfl⟩
abbrev main_v79 : Ref sig .tc := ⟨.hbm, 114, rfl⟩
abbrev main_c_16 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_17 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_18 : Ref sig .tc := ⟨.hbm, 131, rfl⟩
abbrev main_v94 : Ref sig .tc := ⟨.hbm, 132, rfl⟩
abbrev main_cst_19 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_20 : Ref sig .tc := ⟨.hbm, 140, rfl⟩
abbrev main_v101 : Ref sig .tc := ⟨.hbm, 141, rfl⟩
abbrev main_cst_21 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_22 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_call2_cst : Ref sig .tc := ⟨.hbm, 161, rfl⟩
abbrev main_call2_v0 : Ref sig .tc := ⟨.hbm, 162, rfl⟩
abbrev main_v119 : Ref sig .tc := ⟨.hbm, 163, rfl⟩
abbrev main_v120 : Ref sig .tc := ⟨.hbm, 164, rfl⟩
abbrev main_c_23 : Ref sig .tc := ⟨.hbm, 165, rfl⟩
abbrev main_v121 : Ref sig .tc := ⟨.hbm, 166, rfl⟩
abbrev main_v122 : Ref sig .tc := ⟨.hbm, 167, rfl⟩
abbrev main_c_24 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_cst_25 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.Spec.lean ====
/-
  The function both programs compute, written once, stage by stage.

  A graph of N = 100000 nodes has E = 1600000 weighted edges (source row and target row of a 2 x E table) to which one
  self-loop of weight 1 per node is appended: 1700000 edges in all.  The degree of a node is the sum of the weights of
  the edges that end there; an edge's coefficient is dinv(source) * weight * dinv(target) with dinv = deg^(-1/2) where
  the degree is positive and 0 elsewhere.  A convolution multiplies the node features by a weight matrix, carries each
  source's row along its edge scaled by the edge's coefficient, and adds up what arrives at each target; a bias row is
  added.  The first two layers are followed by a normalisation of every column to mean 0 and variance 1 over the nodes
  (then scaled and shifted) and a positive part; the third layer has one output column.

  The stages in the first part are generic in the float instance and spelt with the host operations of the reference
  program; the second part, at the exact (extended real) instance, says what the tiled passes leave entry by entry.
-/
import proofs.«113069_j27908697489551_1_alg».proof.ReferenceIdeal
import proofs.«113069_j27908697489551_1_alg».proof.Proof.Gen.ReferenceIdeal
import Idealize.ShloMosaic.PureOps.Ideal
import Idealize.ShloMosaic.Lib.ValueIdx

noncomputable section

namespace Cert.Spec

open Cert.ReferenceIdeal Cert.ReferenceIdeal.Gen Idealize.ShloMosaic Idealize.ShloMosaic.ValueIdx

/-! ## Stages generic in the float instance -/

section Generic

variable {F : FTy → Type} [FloatOps F]

/-- Row `0` of the edge table (the sources), then the nodes themselves (the self-loops). -/
def src (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- Row `1` of the edge table (the targets), then the nodes themselves. -/
def dst (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- The edge weights, then weight one for every self-loop. -/
def wts (ea : FVec F S1600000 .f32) : FVec F S1700000 .f32 :=
  concatenate S1700000 0 [⟨S1600000, ea⟩, ⟨S100000, broadcastInDim S100000 ![] bcast_S_S100000 (constant S_ .f32 0x3F800000#32)⟩] concatenates_S1600000_S100000_S1700000_d0

/-- A node index counted from the end when negative. -/
def wrap (ix : IVec S1700000 32) : IVec S1700000 32 :=
  select (cmpi .slt ix (broadcastInDim S1700000 ![] bcast_S_S1700000 (constantI S_ 32 0#32)))
    (addi ix (broadcastInDim S1700000 ![] bcast_S_S1700000 (constantI S_ 32 100000#32))) ix

/-- The degree of every node: the weights of the edges that end there, added up. -/
def deg (ei : IVec S2x1600000 32) (ea : FVec F S1600000 .f32) : FVec F S100000 .f32 :=
  Host.scatterAdd scatter_S100000_S1700000x1_S1700000_n_0_0_1 (broadcastInDim S100000 ![] bcast_S_S100000 (constant S_ .f32 0x00000000#32))
    (broadcastInDim S1700000x1 ![0] bcast_S1700000_S1700000x1_0 (dst ei)) (wts ea)

/-- deg^(-1/2) where the degree is positive, 0 elsewhere. -/
def dinv (ei : IVec S2x1600000 32) (ea : FVec F S1600000 .f32) : FVec F S100000 .f32 :=
  select (cmpf .ogt (deg ei ea) (broadcastInDim S100000 ![] bcast_S_S100000 (constant S_ .f32 0x00000000#32)))
    (Host.rsqrt (maximumf (deg ei ea) (broadcastInDim S100000 ![] bcast_S_S100000 (constant S_ .f32 0x0DA24260#32))))
    (broadcastInDim S100000 ![] bcast_S_S100000 (constant S_ .f32 0x00000000#32))

/-- The coefficient of every edge: dinv(source) * weight * dinv(target). -/
def nrm (ei : IVec S2x1600000 32) (ea : FVec F S1600000 .f32) : FVec F S1700000 .f32 :=
  mulf (mulf (Host.gather gather_S100000_S1700000x1_S1700000_n_0_n_n_0_1_1 (dinv ei ea) (broadcastInDim S1700000x1 ![0] bcast_S1700000_S1700000x1_0 (wrap (src ei)))) (wts ea))
    (Host.gather gather_S100000_S1700000x1_S1700000_n_0_n_n_0_1_1 (dinv ei ea) (broadcastInDim S1700000x1 ![0] bcast_S1700000_S1700000x1_0 (wrap (dst ei))))

/-- Rows carried along the edges `s → d` with coefficients `n` and added up at the targets, 128 columns. -/
def agg (xw : FVec F S100000x128 .f32) (s d : IVec S1700000 32) (n : FVec F S1700000 .f32) : FVec F S100000x128 .f32 :=
  Host.scatterAdd scatter_S100000x128_S1700000x1_S1700000x128_1_0_0_1 (broadcastInDim S100000x128 ![] bcast_S_S100000x128 (constant S_ .f32 0x00000000#32))
    (broadcastInDim S1700000x1 ![0] bcast_S1700000_S1700000x1_0 d)
    (mulf (Host.gather gather_S100000x128_S1700000x1_S1700000x128_1_0_n_n_0_1_1128 xw (broadcastInDim S1700000x1 ![0] bcast_S1700000_S1700000x1_0 (wrap s)))
      (broadcastInDim S1700000x128 ![0, 1] bcast_S1700000x1_S1700000x128_0_1 (broadcastInDim S1700000x1 ![0] bcast_S1700000_S1700000x1_0 n)))

/-- The same with one column. -/
def agg1 (xw : FVec F S100000x1 .f32) (s d : IVec S1700000 32) (n : FVec F S1700000 .f32) : FVec F S100000x1 .f32 :=
  Host.scatterAdd scatter_S100000x1_S1700000x1_S1700000x1_1_0_0_1 (broadcastInDim S100000x1 ![] bcast_S_S100000x1 (constant S_ .f32 0x00000000#32))
    (broadcastInDim S1700000x1 ![0] bcast_S1700000_S1700000x1_0 d)
    (mulf (Host.gather gather_S100000x1_S1700000x1_S1700000x1_1_0_n_n_0_1_11 xw (broadcastInDim S1700000x1 ![0] bcast_S1700000_S1700000x1_0 (wrap s)))
      (broadcastInDim S1700000x1 ![0] bcast_S1700000_S1700000x1_0 n))

/-- Node features times a 128 x 128 weight matrix. -/
def mm (x : FVec F S100000x128 .f32) (w : FVec F S128x128 .f32) : FVec F S100000x128 .f32 :=
  Host.dotGeneral dot_S100000x128_S128x128_S100000x128_1_0_0_1_n_n none x w

/-- Node features times a 128 x 1 weight matrix. -/
def mm1 (x : FVec F S100000x128 .f32) (w : FVec F S128x1 .f32) : FVec F S100000x1 .f32 :=
  Host.dotGeneral dot_S100000x128_S128x1_S100000x1_1_0_0_1_n_n none x w

/-- A vector of 128 entries laid over every node's row. -/
def rows (v : FVec F S128 .f32) : FVec F S100000x128 .f32 :=
  broadcastInDim S100000x128 ![0, 1] bcast_S1x128_S100000x128_0_1 (broadcastInDim S1x128 ![1] bcast_S128_S1x128_1 v)

/-- Every column's mean over the nodes. -/
def mean (h : FVec F S100000x128 .f32) : FVec F S128 .f32 :=
  Host.divf (Host.reduceAdd h (constant S_ .f32 0x00000000#32) reducesTo_S100000x128_S128_d0 h_S_) (broadcastInDim S128 ![] bcast_S_S128 (constant S_ .f32 0x47C35000#32))

/-- Every column's variance: the mean of the squared distances to the column's mean. -/
def var (h : FVec F S100000x128 .f32) : FVec F S128 .f32 :=
  Host.divf (Host.reduceAdd (mulf (subf h (rows (mean h))) (subf h (rows (mean h)))) (constant S_ .f32 0x00000000#32) reducesTo_S100000x128_S128_d0 h_S_)
    (broadcastInDim S128 ![] bcast_S_S128 (constant S_ .f32 0x47C35000#32))

/-- Columns brought to mean 0 and variance 1 (a small constant added under the root), scaled by `γ`, shifted by `β`,
    and the positive part taken. -/
def normRelu (h : FVec F S100000x128 .f32) (γ β : FVec F S128 .f32) : FVec F S100000x128 .f32 :=
  maximumf
    (addf (mulf (mulf (subf h (rows (mean h)))
        (rows (Host.rsqrt (addf (var h) (broadcastInDim S128 ![] bcast_S_S128 (constant S_ .f32 0x3727C5AC#32))))))
      (rows γ)) (rows β))
    (broadcastInDim S100000x128 ![] bcast_S_S100000x128 (constant S_ .f32 0x00000000#32))

/-- One hidden layer: convolution, bias, normalisation, positive part. -/
def layer (x : FVec F S100000x128 .f32) (w : FVec F S128x128 .f32) (b γ β : FVec F S128 .f32)
    (ei : IVec S2x1600000 32) (ea : FVec F S1600000 .f32) : FVec F S100000x128 .f32 :=
  normRelu (addf (agg (mm x w) (src ei) (dst ei) (nrm ei ea)) (rows b)) γ β

/-- One column carried along the edges and added up at the targets, and a bias added to every node. -/
def fin (xw : FVec F S100000x1 .f32) (s d : IVec S1700000 32) (n : FVec F S1700000 .f32) (b : FVec F S1 .f32) : FVec F S100000x1 .f32 :=
  addf (agg1 xw s d n)
    (broadcastInDim S100000x1 ![0, 1] bcast_S1x1_S100000x1_0_1 (broadcastInDim S1x1 ![1] bcast_S1_S1x1_1 b))

/-- The last layer: convolution to one column, and its bias. -/
def last (x : FVec F S100000x128 .f32) (w : FVec F S128x1 .f32) (b : FVec F S1 .f32)
    (ei : IVec S2x1600000 32) (ea : FVec F S1600000 .f32) : FVec F S100000x1 .f32 :=
  fin (mm1 x w) (src ei) (dst ei) (nrm ei ea) b

/-- The whole network. -/
def out (x : FVec F S100000x128 .f32) (ei : IVec S2x1600000 32) (ea : FVec F S1600000 .f32)
    (w1 : FVec F S128x128 .f32) (b1 γ1 β1 : FVec F S128 .f32) (w2 : FVec F S128x128 .f32) (b2 γ2 β2 : FVec F S128 .f32)
    (w3 : FVec F S128x1 .f32) (b3 : FVec F S1 .f32) : FVec F S100000x1 .f32 :=
  last (layer (layer x w1 b1 γ1 β1 ei ea) w2 b2 γ2 β2 ei ea) w3 b3 ei ea

theorem casts_S128_S1x128 : S128.ShapeCasts S1x128 := by decide
theorem casts_S1x128_S128 : S1x128.ShapeCasts S128 := by decide

/-- A vector of 128 entries as a 1 x 128 row. -/
def asRow (v : FVec F S128 .f32) : FVec F S1x128 .f32 := shapeCast S1x128 v casts_S128_S1x128

/-- A 1 x 128 row as a vector. -/
def asVec (v : FVec F S1x128 .f32) : FVec F S128 .f32 := shapeCast S128 v casts_S1x128_S128

/-- A 1 x 128 row of column totals divided by the number of nodes. -/
def perNode (tot : FVec F S1x128 .f32) : FVec F S128 .f32 :=
  Host.divf (asVec tot) (broadcastInDim S128 ![] bcast_S_S128 (constant S_ .f32 0x47C35000#32))

/-- The mean of the squares less the square of the mean. -/
def varOfTotals (tot totSq : FVec F S1x128 .f32) : FVec F S128 .f32 :=
  subf (perNode totSq) (mulf (perNode tot) (perNode tot))

end Generic

/-! ## What the tiled passes leave, entry by entry, on the extended reals -/

/-- A 1 x 128 row added to every node's row. -/
def addRow (a : FVec Ideal S100000x128 .f32) (r : FVec Ideal S1x128 .f32) : FVec Ideal S100000x128 .f32 :=
  fun i => a i + r (ix2 (0 : Fin 1) (i 1))

/-- Every column's total over the nodes, as a 1 x 128 row. -/
def colTotal (h : FVec Ideal S100000x128 .f32) : FVec Ideal S1x128 .f32 :=
  fun j => ∑ r : Fin 100000, h (ix2 r (j 1))

/-- Every column's total of squares over the nodes, as a 1 x 128 row. -/
def colTotalSq (h : FVec Ideal S100000x128 .f32) : FVec Ideal S1x128 .f32 :=
  fun j => ∑ r : Fin 100000, h (ix2 r (j 1)) * h (ix2 r (j 1))

/-- Entry (p, q) of the normalised, scaled, shifted array, positive part: the column's mean `μ`, variance `v`, scale
    `γ` and shift `β` are 1 x 128 rows. -/
def normReluRows (h : FVec Ideal S100000x128 .f32) (μ v γ β : FVec Ideal S1x128 .f32) : FVec Ideal S100000x128 .f32 :=
  fun i => max ((h i - μ (ix2 (0 : Fin 1) (i 1))) * Ideal.rsqrt (v (ix2 (0 : Fin 1) (i 1)) + Ideal.ofBits .f32 0x3727C5AC#32)
      * γ (ix2 (0 : Fin 1) (i 1)) + β (ix2 (0 : Fin 1) (i 1))) (Ideal.ofBits .f32 0x00000000#32)

end Cert.Spec

end
-- ==== Proof.RefValue.lean ====
/-
  The reference program's run ends with its result at `Spec.out` of its arguments.

  The reference is a straight line of host operations; read back, its result buffer holds the operations' composed
  term of the arguments.  That term is, stage for stage, the network of `Spec`: the edge table's two rows with the
  self-loops appended, the degrees, the edge coefficients, then two hidden layers (weights, aggregation along the
  edges, bias, column normalisation, positive part) and the last layer to one column with its bias.  The two sides
  agree by unfolding the stages' definitions; nothing is computed.
-/
import proofs.«113069_j27908697489551_1_alg».proof.Proof.Spec
import proofs.«113069_j27908697489551_1_alg».proof.Proof.Gen.ReferenceIdeal
import proofs.«113069_j27908697489551_1_alg».proof.Proof.Gen.ReferenceIdeal.Run
import Idealize.ShloMosaic.Lib.StableHlo.Run
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem

set_option maxRecDepth 8192 in
set_option maxHeartbeats 4000000 in
/-- The composed term of the reference's operations is the network of `Spec`, read at the thirteen arguments in
    order: features, edge table, edge weights, then weights, bias, scale and shift of the two hidden layers, and
    weights and bias of the last. -/
theorem res_eq (m : (ℓ : Loc nD τ sig) → Buf (Elt Ideal) ℓ) (c : Dev nD) :
    Value.res_main_v135 (F := Ideal) m c
      = Spec.out (F := Ideal) (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12)) := by
  unfold Value.res_main_v135
  rfl

/-- On every device, from any memory with zero counters, every weakly fair execution of the reference terminates
    with its result at `Spec.out` of the arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v135)
        = Spec.out (F := Ideal) (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (defs (F := Ideal)) _ _).mono (fun _ h c => ⟨(h c).1.trans (res_eq m c), (h c).2⟩)
    (Value.run (F := Ideal) m ρ)

end Cert.ReferenceIdeal.RefValue

end
-- ==== Proof.KernelRun.lean ====
/-
  The idealized kernel's run, with its result named.

  The kernel's run is a chain of host stretches and tiled regions; the buffer contents at every boundary of the chain
  are a fold from the launch memory, and the last boundary's contents are `W15`.  The run's final state holds, at
  every unscoped buffer, the last boundary's contents: so the result buffer holds `W15` read at the result, and
  every argument buffer, read back through the fold, holds what it was launched with.
-/
import proofs.«113069_j27908697489551_1_alg».proof.Proof.Gen.KernelIdeal.Frame
import Idealize.ShloMosaic.PureOps.Ideal

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option backward.isDefEq.respectTransparency.types false in
/-- At the compiled mesh, from any memory with zero counters, every weakly fair execution of the kernel terminates;
    every final state has the result buffer at the last boundary's contents and the argument arrays as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v107) = W15 (F := Ideal) m ρ c (Proc.devRef .tc main_v107)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v107 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c)⟩)

end Cert.KernelIdeal.KernelRun

end
-- ==== Proof.LibRealEntries.lean ====
import Idealize.ShloMosaic.PureOps.Ideal
import Idealize.ShloMosaic.PureOps.Ideal.Laws
import Idealize.ShloMosaic.PureOps.Contract

/-!
Arrays of extended reals every entry of which is a real number, and the operations that keep them so.

At the ideal float values an array is a function into the extended reals `[-∞, +∞]`. The sum of two extended
reals, their product, their difference are the real operations only away from the infinities; an identity of
real algebra (the variance as a mean of squares less the square of the mean, say) therefore holds of a computed
array only where its entries are real. This module states the predicate "every entry is a real number"
(`IsRealV`) and proves it closed under the elementwise operations, the re-indexing operations (broadcast, slice,
reshape, gather: whatever the indices), the accumulating scatter, the matrix product and finite sums, and under
the reciprocal square root on positive entries.
-/

noncomputable section

namespace Cert.Lib.RealEntries

open Idealize.ShloMosaic
open scoped BigOperators

/-- An extended real that is a real number. -/
def IsReal (a : EReal) : Prop := ∃ r : ℝ, a = (r : EReal)

/-- A family of extended reals every member of which is a real number. -/
def IsRealV {ι : Type} (v : ι → EReal) : Prop := ∀ i, ∃ r : ℝ, v i = (r : EReal)

/-! ### Single values -/

/-- A real number is real. -/
theorem isReal_coe (r : ℝ) : IsReal (r : EReal) := ⟨r, rfl⟩

/-- Zero is real. -/
theorem isReal_zero : IsReal (0 : EReal) := ⟨0, rfl⟩

/-- The sum of two reals is real. -/
theorem isReal_add {a b : EReal} (ha : IsReal a) (hb : IsReal b) : IsReal (a + b) := by
  obtain ⟨r, rfl⟩ := ha
  obtain ⟨s, rfl⟩ := hb
  exact ⟨r + s, (EReal.coe_add r s).symm⟩

/-- The difference of two reals is real. -/
theorem isReal_sub {a b : EReal} (ha : IsReal a) (hb : IsReal b) : IsReal (a - b) := by
  obtain ⟨r, rfl⟩ := ha
  obtain ⟨s, rfl⟩ := hb
  exact ⟨r - s, (EReal.coe_sub r s).symm⟩

/-- The product of two reals is real. -/
theorem isReal_mul {a b : EReal} (ha : IsReal a) (hb : IsReal b) : IsReal (a * b) := by
  obtain ⟨r, rfl⟩ := ha
  obtain ⟨s, rfl⟩ := hb
  exact ⟨r * s, (EReal.coe_mul r s).symm⟩

/-- The opposite of a real is real. -/
theorem isReal_neg {a : EReal} (ha : IsReal a) : IsReal (-a) := by
  obtain ⟨r, rfl⟩ := ha
  exact ⟨-r, (EReal.coe_neg r).symm⟩

/-- The greater of two reals is real. -/
theorem isReal_max {a b : EReal} (ha : IsReal a) (hb : IsReal b) : IsReal (max a b) := by
  rcases max_choice a b with h | h <;> rw [h] <;> assumption

/-- A finite sum of reals is real. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-- The reciprocal square root of a positive real is real. -/
theorem isReal_rsqrt {a : EReal} (ha : IsReal a) (hpos : 0 < a) : IsReal (Ideal.rsqrt a) := by
  obtain ⟨r, rfl⟩ := ha
  have hr : 0 < r := by exact_mod_cast hpos
  rw [Ideal.rsqrt_coe, if_neg (not_lt.mpr hr.le), if_neg hr.ne']
  exact ⟨_, rfl⟩

/-! ### Arrays -/

variable {s t : Shape} {φ : FTy}

/-- Any re-indexing of an array of reals is an array of reals. -/
theorem isRealV_comp {ι κ : Type} {v : ι → EReal} (hv : IsRealV v) (g : κ → ι) : IsRealV fun j => v (g j) :=
  fun j => hv (g j)

/-- The splat of a bit pattern that denotes a real number. -/
theorem isRealV_constant (s : Shape) (φ : FTy) (w : BitVec φ.bits) {r : ℝ} (h : Ideal.ofBits φ w = (r : EReal)) :
    IsRealV (constant (F := Ideal) s φ w) :=
  fun _ => ⟨r, h⟩

/-- A broadcast splat read at an index is the value its pattern denotes. -/
theorem broadcastInDim_constant_apply (t : Shape) (dims : Fin s.rank → Fin t.rank) (h : s.BroadcastsInDim t dims)
    (φ : FTy) (w : BitVec φ.bits) (i : t.Idx) :
    broadcastInDim t dims h (constant (F := Ideal) s φ w) i = Ideal.ofBits φ w :=
  rfl

/-- A broadcast reads its operand at some index. -/
theorem isRealV_broadcastInDim (t : Shape) (dims : Fin s.rank → Fin t.rank) (h : s.BroadcastsInDim t dims)
    {x : s.Idx → EReal} (hx : IsRealV x) : IsRealV (broadcastInDim t dims h x) :=
  fun _ => hx _

/-- A reshape reads its operand at some index. -/
theorem isRealV_shapeCast (t : Shape) {x : s.Idx → EReal} (hx : IsRealV x) (h : s.ShapeCasts t) :
    IsRealV (shapeCast t x h) :=
  fun _ => hx _

/-- A slice reads its operand at some index. -/
theorem isRealV_extractStridedSlice (t : Shape) (off : Fin s.rank → Nat) {x : s.Idx → EReal} (hx : IsRealV x)
    (h : s.Slices off t) : IsRealV (extractStridedSlice t off x h) :=
  fun _ => hx _

/-- A gather reads its operand at some (clamped) index, whatever the start indices. -/
theorem isRealV_gather {si : Shape} {w : Nat} (d : GatherDims s si t) {x : s.Idx → EReal} (hx : IsRealV x)
    (idx : IVec si w) : IsRealV (Host.gather d x idx) :=
  fun _ => hx _

/-- A select answers one of its two operands' entries. -/
theorem isRealV_select (c : IVec s 1) {a b : s.Idx → EReal} (ha : IsRealV a) (hb : IsRealV b) :
    IsRealV (select c a b) := by
  intro i
  show ∃ r : ℝ, (if c i = 1 then a i else b i) = (r : EReal)
  split
  · exact ha i
  · exact hb i

/-- The elementwise sum. -/
theorem isRealV_addf {x y : FVec Ideal s φ} (hx : IsRealV x) (hy : IsRealV y) : IsRealV (addf x y) :=
  fun i => isReal_add (hx i) (hy i)

/-- The elementwise difference. -/
theorem isRealV_subf {x y : FVec Ideal s φ} (hx : IsRealV x) (hy : IsRealV y) : IsRealV (subf x y) :=
  fun i => isReal_sub (hx i) (hy i)

/-- The elementwise product. -/
theorem isRealV_mulf {x y : FVec Ideal s φ} (hx : IsRealV x) (hy : IsRealV y) : IsRealV (mulf x y) :=
  fun i => isReal_mul (hx i) (hy i)

/-- The elementwise opposite. -/
theorem isRealV_negf {x : FVec Ideal s φ} (hx : IsRealV x) : IsRealV (Host.negf x) :=
  fun i => isReal_neg (hx i)

/-- The elementwise maximum. -/
theorem isRealV_maximumf {x y : FVec Ideal s φ} (hx : IsRealV x) (hy : IsRealV y) : IsRealV (maximumf x y) :=
  fun i => isReal_max (hx i) (hy i)

/-- The elementwise maximum with a positive array is positive. -/
theorem maximumf_pos {x y : FVec Ideal s φ} (hy : ∀ i, 0 < y i) (i : s.Idx) : 0 < maximumf x y i :=
  lt_of_lt_of_le (hy i) (le_max_right (x i) (y i))

/-- The elementwise reciprocal square root of positive reals. -/
theorem isRealV_rsqrt {x : FVec Ideal s φ} (hx : IsRealV x) (hpos : ∀ i, 0 < x i) : IsRealV (Host.rsqrt x) :=
  fun i => isReal_rsqrt (hx i) (hpos i)

/-- An accumulating scatter of reals into reals: each entry is the operand's plus a finite sum of updates. -/
theorem isRealV_scatterAdd {si u : Shape} {w : Nat} (d : ScatterDims s si u) {x : FVec Ideal s φ} (hx : IsRealV x)
    (idx : IVec si w) {upd : FVec Ideal u φ} (hu : IsRealV upd) : IsRealV (Host.scatterAdd d x idx upd) := by
  intro i
  show IsReal (x i + ∑ j ∈ Finset.univ.filter (fun j => d.resultIdx? j idx = some i), upd j)
  exact isReal_add (hx i) (isReal_sum _ _ fun j _ => hu j)

/-- A matrix product of reals: each entry is a finite sum of products. -/
theorem isRealV_dotGeneral {sl sr so : Shape} {φ₁ φ₂ : FTy} (d : DotDims sl sr so) (prec : Option ContractPrecision)
    {lhs : FVec Ideal sl φ₁} {rhs : FVec Ideal sr φ₂} (hl : IsRealV lhs) (hr : IsRealV rhs) :
    IsRealV (Host.dotGeneral d prec lhs rhs) := by
  intro j
  show IsReal (FloatOps.dotGeneral d prec .single lhs rhs j)
  rw [Ideal.dotGeneral_apply]
  exact isReal_sum _ _ fun k _ => isReal_mul (hl _) (hr _)

/-! ### Four float patterns -/

/-- The pattern of `+0.0` denotes the real `0`. -/
theorem ofBits_zero : Ideal.ofBits .f32 0x00000000#32 = ((0 : ℝ) : EReal) := by
  simp [Ideal.ofBits, Ideal.ieee]

/-- The pattern of `1.0` denotes the real `1`. -/
theorem ofBits_one : Ideal.ofBits .f32 0x3F800000#32 = ((1 : ℝ) : EReal) := by
  simp [Ideal.ofBits, Ideal.ieee, -EReal.coe_mul] <;> norm_num

/-- The pattern of `2.0` denotes the real `2`. -/
theorem ofBits_two : Ideal.ofBits .f32 0x40000000#32 = ((2 : ℝ) : EReal) := by
  simp [Ideal.ofBits, Ideal.ieee, -EReal.coe_mul] <;> norm_num

/-- The pattern `0x2B8CBCCC` (the float nearest `1e-12`) denotes a positive real. -/
theorem ofBits_tiny : ∃ r : ℝ, 0 < r ∧ Ideal.ofBits .f32 0x2B8CBCCC#32 = (r : EReal) := by
  refine ⟨(9223372 : ℝ) * (2 : ℝ) ^ (-63 : ℤ), by positivity, ?_⟩
  simp [Ideal.ofBits, Ideal.ieee, -EReal.coe_mul] <;> norm_num

end Cert.Lib.RealEntries

end
-- ==== Proof.LibConsts.lean ====
/- The f32 words this proof evaluates at the ideal instance: the word 0x3727C5AC (the nearest f32 to 1e-5) denotes a
   positive real.  Stated once, so that no other module unfolds the decoding of a word. -/
import Idealize.ShloMosaic.PureOps.Ideal

noncomputable section

namespace Cert.LibConsts

open Idealize.ShloMosaic

/-- The f32 word 0x3727C5AC denotes the dyadic rational 10995116 / 2^40, a positive real. -/
theorem eps_word : Ideal.ofBits .f32 0x3727C5AC#32 = (((10995116 : ℝ) / 1099511627776 : ℝ) : EReal) := by
  simp [Ideal.ofBits, Ideal.ieee, -EReal.coe_mul]; norm_num

theorem eps_pos : ∃ e : ℝ, 0 < e ∧ Ideal.ofBits .f32 0x3727C5AC#32 = (e : EReal) :=
  ⟨(10995116 : ℝ) / 1099511627776, by norm_num, eps_word⟩

end Cert.LibConsts

end
-- ==== Proof.LibVariance.lean ====
/-
  The variance of finitely many real numbers, two ways, and the coercion of a finite real sum to the extended reals.

  For real numbers f i indexed by a finite type with n elements (n not zero), the mean of the squares less the square
  of the mean equals the mean of the squared distances to the mean: expand the square and use that the sum is n times
  the mean.  A program that keeps only the totals of the values and of their squares therefore finds the same variance
  as one that subtracts the mean first — for real entries; on the extended reals the identity can fail at an infinite
  entry, which is why it is stated over the reals, to be reached through `coe_sum`.
-/
import Mathlib.Algebra.BigOperators.Field
import Mathlib.Data.EReal.Operations
import Mathlib.Tactic.Ring
import Mathlib.Tactic.FieldSimp

open scoped BigOperators

namespace Cert.Lib.Variance

/-- The coercion of a finite sum of reals is the sum of the coercions. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The mean of the squares less the square of the mean is the mean of the squared distances to the mean. -/
theorem variance_two_ways {ι : Type} [Fintype ι] (f : ι → ℝ) (n : ℝ) (hn : n = (Fintype.card ι : ℝ)) (h0 : n ≠ 0) :
    (∑ i, f i * f i) / n - (∑ i, f i) / n * ((∑ i, f i) / n)
      = (∑ i, (f i - (∑ j, f j) / n) * (f i - (∑ j, f j) / n)) / n := by
  have e : ∑ i, (f i - (∑ j, f j) / n) * (f i - (∑ j, f j) / n)
      = (∑ i, f i * f i) - 2 * ((∑ j, f j) / n) * (∑ i, f i) + n * ((∑ j, f j) / n * ((∑ j, f j) / n)) := by
    have : ∀ i, (f i - (∑ j, f j) / n) * (f i - (∑ j, f j) / n)
        = f i * f i - 2 * ((∑ j, f j) / n) * f i + (∑ j, f j) / n * ((∑ j, f j) / n) := fun i => by ring
    simp only [this, Finset.sum_add_distrib, Finset.sum_sub_distrib, ← Finset.mul_sum, Finset.sum_const, Finset.card_univ,
      nsmul_eq_mul, ← hn]
    ring
  rw [e]
  field_simp
  ring

end Cert.Lib.Variance
-- ==== Proof.Algebra.lean ====
/-
  The normalisation of a column, two ways.

  With n = 100000 nodes, a column h(.,q) of real numbers has mean μ = (Σ h)/n.  One program takes the variance as the
  mean of the squared distances to μ; the other keeps only the two totals Σ h and Σ h² and takes (Σ h²)/n − μ².  For
  real entries these agree (expand the square and use Σ h = n μ); at an infinite entry they need not, so the entries'
  being real is a hypothesis.  Read at an entry, both programs then compute
  max (((h − μ) · (σ² + ε)^(-1/2)) · γ + β, 0).
-/
import proofs.«113069_j27908697489551_1_alg».proof.Proof.Spec
import proofs.«113069_j27908697489551_1_alg».proof.Proof.LibRealEntries
import proofs.«113069_j27908697489551_1_alg».proof.Proof.LibConsts
import proofs.«113069_j27908697489551_1_alg».proof.Proof.LibVariance
import Idealize.ShloMosaic.PureOps.Ideal.Laws
import Idealize.ShloMosaic.Lib.ValueIdx
import Idealize.ShloMosaic.Lib.Pipeline.Value

noncomputable section

open scoped BigOperators

namespace Cert.Spec

open Cert.ReferenceIdeal Cert.ReferenceIdeal.Gen Idealize.ShloMosaic Idealize.ShloMosaic.ValueIdx Cert.Lib.RealEntries

/-! ## The two float words -/

/-- The word of 100000.0 denotes the real 100000. -/
theorem count_word : Ideal.ofBits .f32 0x47C35000#32 = ((100000 : ℝ) : EReal) := by
  simp [Ideal.ofBits, Ideal.ieee, -EReal.coe_mul] <;> norm_num

/-- The word of +0.0 denotes 0. -/
theorem zero_word : Ideal.ofBits .f32 0x00000000#32 = (0 : EReal) := by
  simp [Ideal.ofBits, Ideal.ieee]

/-! ## Rows and vectors read at an entry -/

theorem rows_apply (v : FVec Ideal S128 .f32) (p : Fin 100000) (q : Fin 128) :
    rows (F := Ideal) v (ix2 p q) = v (ix1 q) := by
  unfold rows
  rw [broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  exact broadcastInDim_apply _ bcast_S128_S1x128_1 v (ix2 (0 : Fin 1) q) (ix1 q) (fun a => match a with
    | ⟨0, _⟩ => by show q.val = if (128 : Nat) = 1 then 0 else q.val; rw [if_neg (by decide)])

theorem asRow_apply (v : FVec Ideal S128 .f32) (q : Fin 128) : asRow (F := Ideal) v (ix2 (0 : Fin 1) q) = v (ix1 q) := by
  unfold asRow
  exact shapeCast_apply v casts_S128_S1x128 (ix2 (0 : Fin 1) q) (ix1 q) (by
    rw [Shape.rowMajor_val_one, Shape.rowMajor_val_two]; show q.val = 0 * 128 + q.val; omega)

theorem asVec_apply (w : FVec Ideal S1x128 .f32) (q : Fin 128) : asVec (F := Ideal) w (ix1 q) = w (ix2 (0 : Fin 1) q) := by
  unfold asVec
  exact shapeCast_apply w casts_S1x128_S128 (ix1 q) (ix2 (0 : Fin 1) q) (by
    rw [Shape.rowMajor_val_one, Shape.rowMajor_val_two]; show 0 * 128 + q.val = q.val; omega)

/-- A column's total over the nodes, from the host's reduction. -/
theorem reduce_apply (h : FVec Ideal S100000x128 .f32) (q : Fin 128) :
    Host.reduceAdd (F := Ideal) h (constant S_ .f32 0x00000000#32) reducesTo_S100000x128_S128_d0 h_S_ (ix1 q)
      = ∑ r : Fin 100000, h (ix2 r q) := by
  simp only [Host.reduceAdd, Ideal.hostReduceAdd_def]
  rw [Ideal.hostReduceAdd_single reducesTo_S100000x128_S128_d0 (by decide)]
  show Ideal.ofBits .f32 0x00000000#32 + _ = _
  rw [zero_word, zero_add]
  refine Finset.sum_congr rfl fun k _ => ?_
  exact congrArg h (funext fun a => Fin.ext (by match a with | ⟨0, _⟩ => rfl | ⟨1, _⟩ => rfl))

theorem mean_apply (h : FVec Ideal S100000x128 .f32) (q : Fin 128) :
    mean (F := Ideal) h (ix1 q) = Ideal.div (∑ r : Fin 100000, h (ix2 r q)) ((100000 : ℝ) : EReal) := by
  unfold mean
  show Ideal.div (Host.reduceAdd (F := Ideal) h (constant S_ .f32 0x00000000#32) reducesTo_S100000x128_S128_d0 h_S_ (ix1 q))
    (Ideal.ofBits .f32 0x47C35000#32) = _
  rw [reduce_apply, count_word]

theorem var_apply (h : FVec Ideal S100000x128 .f32) (q : Fin 128) :
    var (F := Ideal) h (ix1 q)
      = Ideal.div (∑ r : Fin 100000, (h (ix2 r q) - mean (F := Ideal) h (ix1 q)) * (h (ix2 r q) - mean (F := Ideal) h (ix1 q)))
          ((100000 : ℝ) : EReal) := by
  unfold var
  show Ideal.div (Host.reduceAdd (F := Ideal) _ (constant S_ .f32 0x00000000#32) reducesTo_S100000x128_S128_d0 h_S_ (ix1 q))
    (Ideal.ofBits .f32 0x47C35000#32) = _
  have e : ∀ r : Fin 100000, mulf (subf h (rows (F := Ideal) (mean (F := Ideal) h))) (subf h (rows (F := Ideal) (mean (F := Ideal) h))) (ix2 r q)
      = (h (ix2 r q) - mean (F := Ideal) h (ix1 q)) * (h (ix2 r q) - mean (F := Ideal) h (ix1 q)) := fun r => by
    show (h (ix2 r q) - rows (F := Ideal) (mean (F := Ideal) h) (ix2 r q)) * (h (ix2 r q) - rows (F := Ideal) (mean (F := Ideal) h) (ix2 r q)) = _
    rw [rows_apply]
  rw [reduce_apply, count_word]
  simp only [e]

theorem normRelu_apply (h : FVec Ideal S100000x128 .f32) (γ β : FVec Ideal S128 .f32) (p : Fin 100000) (q : Fin 128) :
    normRelu (F := Ideal) h γ β (ix2 p q)
      = max ((h (ix2 p q) - mean (F := Ideal) h (ix1 q)) * Ideal.rsqrt (var (F := Ideal) h (ix1 q) + Ideal.ofBits .f32 0x3727C5AC#32)
          * γ (ix1 q) + β (ix1 q)) (Ideal.ofBits .f32 0x00000000#32) := by
  unfold normRelu
  show max ((h (ix2 p q) - rows (F := Ideal) (mean (F := Ideal) h) (ix2 p q))
      * rows (F := Ideal) (Host.rsqrt (addf (var (F := Ideal) h) (broadcastInDim S128 ![] bcast_S_S128 (constant S_ .f32 0x3727C5AC#32)))) (ix2 p q)
      * rows (F := Ideal) γ (ix2 p q) + rows (F := Ideal) β (ix2 p q)) (Ideal.ofBits .f32 0x00000000#32) = _
  rw [rows_apply, rows_apply, rows_apply, rows_apply]
  rfl

theorem perNode_apply (tot : FVec Ideal S1x128 .f32) (q : Fin 128) :
    perNode (F := Ideal) tot (ix1 q) = Ideal.div (tot (ix2 (0 : Fin 1) q)) ((100000 : ℝ) : EReal) := by
  unfold perNode
  show Ideal.div (asVec (F := Ideal) tot (ix1 q)) (Ideal.ofBits .f32 0x47C35000#32) = _
  rw [asVec_apply, count_word]

theorem varOfTotals_apply (tot sq : FVec Ideal S1x128 .f32) (q : Fin 128) :
    varOfTotals (F := Ideal) tot sq (ix1 q)
      = Ideal.div (sq (ix2 (0 : Fin 1) q)) ((100000 : ℝ) : EReal)
        - Ideal.div (tot (ix2 (0 : Fin 1) q)) ((100000 : ℝ) : EReal) * Ideal.div (tot (ix2 (0 : Fin 1) q)) ((100000 : ℝ) : EReal) := by
  unfold varOfTotals
  show perNode (F := Ideal) sq (ix1 q) - perNode (F := Ideal) tot (ix1 q) * perNode (F := Ideal) tot (ix1 q) = _
  rw [perNode_apply, perNode_apply]

/-! ## The bias row, two ways -/

theorem addRow_asRow (a : FVec Ideal S100000x128 .f32) (b : FVec Ideal S128 .f32) :
    addRow a (asRow (F := Ideal) b) = addf a (rows (F := Ideal) b) := by
  funext i
  obtain ⟨p, q, rfl⟩ : ∃ (p : Fin 100000) (q : Fin 128), i = ix2 p q := ⟨i 0, i 1, eq_ix2 i⟩
  show a (ix2 p q) + asRow (F := Ideal) b (ix2 (0 : Fin 1) q) = a (ix2 p q) + rows (F := Ideal) b (ix2 p q)
  rw [asRow_apply, rows_apply]

end Cert.Spec

end
-- ==== Proof.NormBridge.lean ====
/-
  The tiled normalisation pass against the reference's, for columns of real numbers.

  The tiled program hands its normalisation pass four rows: the column means (Σ h)/n, the variances taken as
  (Σ h²)/n − mean², the scale and the shift.  For real entries this is the reference's normalisation, entry by entry;
  and what comes out is again an array of real numbers, since the variance is a non-negative real and the constant
  added under the root is positive.
-/
import proofs.«113069_j27908697489551_1_alg».proof.Proof.Algebra

noncomputable section

open scoped BigOperators

namespace Cert.Spec

open Cert.ReferenceIdeal Cert.ReferenceIdeal.Gen Idealize.ShloMosaic Idealize.ShloMosaic.ValueIdx Cert.Lib.RealEntries Cert.Lib.Variance

theorem count_ne : (100000 : ℝ) ≠ 0 := by norm_num

/-- The mean from the column total is the reference's mean (no hypothesis: 0 + x = x on the extended reals). -/
theorem perNode_colTotal (h : FVec Ideal S100000x128 .f32) (q : Fin 128) :
    perNode (F := Ideal) (colTotal h) (ix1 q) = mean (F := Ideal) h (ix1 q) := by
  rw [perNode_apply, mean_apply]
  rfl

/-- A real column's mean is a real number. -/
theorem real_mean {h : FVec Ideal S100000x128 .f32} (hh : IsRealV h) (q : Fin 128) :
    ∃ μ : ℝ, mean (F := Ideal) h (ix1 q) = (μ : EReal) := by
  choose f hf using fun r : Fin 100000 => hh (ix2 r q)
  refine ⟨(∑ r, f r) * (1 / 100000), ?_⟩
  rw [mean_apply, Ideal.div_coe count_ne]
  simp only [hf, coe_sum, ← EReal.coe_mul]

/-- A real column's variance is a non-negative real number. -/
theorem real_var {h : FVec Ideal S100000x128 .f32} (hh : IsRealV h) (q : Fin 128) :
    ∃ v : ℝ, 0 ≤ v ∧ var (F := Ideal) h (ix1 q) = (v : EReal) := by
  choose f hf using fun r : Fin 100000 => hh (ix2 r q)
  obtain ⟨μ, hμ⟩ := real_mean hh q
  refine ⟨(∑ r, (f r - μ) * (f r - μ)) * (1 / 100000), ?_, ?_⟩
  · exact mul_nonneg (Finset.sum_nonneg fun r _ => mul_self_nonneg _) (by norm_num)
  · rw [var_apply, Ideal.div_coe count_ne, hμ]
    simp only [hf, ← EReal.coe_sub, ← EReal.coe_mul, coe_sum]

/-- For a real column, the variance from the two totals is the reference's variance. -/
theorem varOfTotals_eq_var {h : FVec Ideal S100000x128 .f32} (hh : IsRealV h) (q : Fin 128) :
    varOfTotals (F := Ideal) (colTotal h) (colTotalSq h) (ix1 q) = var (F := Ideal) h (ix1 q) := by
  choose f hf using fun r : Fin 100000 => hh (ix2 r q)
  rw [varOfTotals_apply, var_apply, mean_apply]
  show Ideal.div (∑ r : Fin 100000, h (ix2 r q) * h (ix2 r q)) _ - Ideal.div (∑ r : Fin 100000, h (ix2 r q)) _ * Ideal.div (∑ r : Fin 100000, h (ix2 r q)) _ = _
  simp only [hf, Ideal.div_coe count_ne, ← EReal.coe_mul, coe_sum, ← EReal.coe_sub]
  refine congrArg (fun x : ℝ => (x : EReal)) ?_
  have key := variance_two_ways f 100000 (by simp) count_ne
  simp only [div_eq_mul_one_div (∑ i, f i * f i), div_eq_mul_one_div (∑ i, f i),
    div_eq_mul_one_div (∑ i, (f i - (∑ j, f j) * (1 / 100000)) * (f i - (∑ j, f j) * (1 / 100000)))] at key
  exact key

/-- The tiled pass's entries are the reference's normalisation, for real columns. -/
theorem normReluRows_eq {h : FVec Ideal S100000x128 .f32} (hh : IsRealV h) (γ β : FVec Ideal S128 .f32) :
    normReluRows h (asRow (F := Ideal) (perNode (F := Ideal) (colTotal h)))
        (asRow (F := Ideal) (varOfTotals (F := Ideal) (colTotal h) (colTotalSq h))) (asRow (F := Ideal) γ) (asRow (F := Ideal) β)
      = normRelu (F := Ideal) h γ β := by
  funext i
  obtain ⟨p, q, rfl⟩ : ∃ (p : Fin 100000) (q : Fin 128), i = ix2 p q := ⟨i 0, i 1, eq_ix2 i⟩
  rw [normRelu_apply]
  show max ((h (ix2 p q) - asRow (F := Ideal) (perNode (F := Ideal) (colTotal h)) (ix2 (0 : Fin 1) q))
      * Ideal.rsqrt (asRow (F := Ideal) (varOfTotals (F := Ideal) (colTotal h) (colTotalSq h)) (ix2 (0 : Fin 1) q) + Ideal.ofBits .f32 0x3727C5AC#32)
      * asRow (F := Ideal) γ (ix2 (0 : Fin 1) q) + asRow (F := Ideal) β (ix2 (0 : Fin 1) q)) (Ideal.ofBits .f32 0x00000000#32) = _
  rw [asRow_apply, asRow_apply, asRow_apply, asRow_apply, perNode_colTotal, varOfTotals_eq_var hh]

/-- The normalised array of a real array, with real scale and shift, is real. -/
theorem real_normRelu {h : FVec Ideal S100000x128 .f32} (hh : IsRealV h) {γ β : FVec Ideal S128 .f32} (hγ : IsRealV γ) (hβ : IsRealV β) :
    IsRealV (normRelu (F := Ideal) h γ β) := by
  intro i
  obtain ⟨p, q, rfl⟩ : ∃ (p : Fin 100000) (q : Fin 128), i = ix2 p q := ⟨i 0, i 1, eq_ix2 i⟩
  rw [normRelu_apply]
  obtain ⟨μ, hμ⟩ := real_mean hh q
  obtain ⟨v, hv0, hv⟩ := real_var hh q
  obtain ⟨e, he0, he⟩ := Cert.LibConsts.eps_pos
  have hroot : IsReal (Ideal.rsqrt (var (F := Ideal) h (ix1 q) + Ideal.ofBits .f32 0x3727C5AC#32)) := by
    rw [hv, he, ← EReal.coe_add]
    exact isReal_rsqrt (isReal_coe _) (by exact_mod_cast add_pos_of_nonneg_of_pos hv0 he0)
  rw [zero_word]
  exact isReal_max (isReal_add (isReal_mul (isReal_mul (isReal_sub (hh _) ⟨μ, hμ⟩) hroot) (hγ _)) (hβ _)) isReal_zero

end Cert.Spec

end
-- ==== Proof.RealStages.lean ====
import proofs.«113069_j27908697489551_1_alg».proof.Proof.Spec
import proofs.«113069_j27908697489551_1_alg».proof.Proof.LibRealEntries
import proofs.«113069_j27908697489551_1_alg».proof.Proof.LibConsts

/-!
The stages of the network keep real entries real.

At the exact values an entry is an extended real. Every stage up to the normalisation is built from operations under
which "every entry is a real number" is closed: re-indexings (broadcast, gather, concatenation), elementwise sums and
products, accumulating scatters into zeros, matrix products. The one step that needs more is the inverse square root
of the degrees: it is taken of the degree raised to a positive floor, hence of a positive real.
-/

noncomputable section

namespace Cert.Spec.Real

open Cert.Spec Cert.Lib.RealEntries Idealize.ShloMosaic
open Cert.ReferenceIdeal Cert.ReferenceIdeal.Gen

/-- A concatenation answers, at every index, an entry of one of its pieces. -/
theorem isRealV_concatenate (t : Shape) (a : Fin t.rank) (xs : List ((s : Shape) × (s.Idx → EReal)))
    (h : Shape.Concatenates (xs.map (·.1)) t a) (hx : ∀ p ∈ xs, IsRealV p.2) : IsRealV (concatenate t a xs h) := by
  intro j
  exact hx _ (List.getElem_mem _) _

/-- The pattern `0x0DA24260` (the float nearest `1e-30`) denotes a positive real. -/
theorem ofBits_floor : ∃ r : ℝ, 0 < r ∧ Ideal.ofBits .f32 0x0DA24260#32 = (r : EReal) := by
  refine ⟨(10633824 : ℝ) * (2 : ℝ) ^ (-123 : ℤ), by positivity, ?_⟩
  simp [Ideal.ofBits, Ideal.ieee, -EReal.coe_mul] <;> norm_num

/-- The weights with a one appended for every self-loop. -/
theorem real_wts {ea : FVec Ideal S1600000 .f32} (h : IsRealV ea) : IsRealV (Spec.wts (F := Ideal) ea) := by
  unfold Spec.wts
  refine isRealV_concatenate _ _ _ _ ?_
  intro p hp
  simp only [List.mem_cons, List.not_mem_nil, or_false] at hp
  rcases hp with rfl | rfl
  · exact h
  · exact isRealV_broadcastInDim S100000 ![] bcast_S_S100000 (isRealV_constant S_ .f32 _ ofBits_one)

/-- The degrees: real weights added up into zeros. -/
theorem real_deg (ei : IVec S2x1600000 32) {ea : FVec Ideal S1600000 .f32} (h : IsRealV ea) :
    IsRealV (Spec.deg (F := Ideal) ei ea) := by
  unfold Spec.deg
  exact isRealV_scatterAdd _ (isRealV_broadcastInDim _ _ _ (isRealV_constant _ _ _ ofBits_zero)) _ (real_wts h)

/-- The inverse square roots of the degrees: where chosen, the root is taken of a degree raised to a positive floor. -/
theorem real_dinv (ei : IVec S2x1600000 32) {ea : FVec Ideal S1600000 .f32} (h : IsRealV ea) :
    IsRealV (Spec.dinv (F := Ideal) ei ea) := by
  unfold Spec.dinv
  obtain ⟨r, hr, er⟩ := ofBits_floor
  refine isRealV_select _ (isRealV_rsqrt (isRealV_maximumf (real_deg ei h)
      (isRealV_broadcastInDim _ _ _ (isRealV_constant _ _ _ er))) ?_)
    (isRealV_broadcastInDim _ _ _ (isRealV_constant _ _ _ ofBits_zero))
  intro i
  refine maximumf_pos (fun k => ?_) i
  show (0 : EReal) < Ideal.ofBits .f32 0x0DA24260#32
  rw [er]
  exact_mod_cast hr

/-- The edge coefficients: products of gathered inverse roots and weights. -/
theorem real_nrm (ei : IVec S2x1600000 32) {ea : FVec Ideal S1600000 .f32} (h : IsRealV ea) :
    IsRealV (Spec.nrm (F := Ideal) ei ea) := by
  unfold Spec.nrm
  exact isRealV_mulf (isRealV_mulf (isRealV_gather _ (real_dinv ei h) _) (real_wts h)) (isRealV_gather _ (real_dinv ei h) _)

/-- Rows carried along the edges, scaled, and added up into zeros. -/
theorem real_agg {xw : FVec Ideal S100000x128 .f32} {s d : IVec S1700000 32} {n : FVec Ideal S1700000 .f32}
    (hx : IsRealV xw) (hn : IsRealV n) : IsRealV (Spec.agg (F := Ideal) xw s d n) := by
  unfold Spec.agg
  exact isRealV_scatterAdd _ (isRealV_broadcastInDim _ _ _ (isRealV_constant _ _ _ ofBits_zero)) _
    (isRealV_mulf (isRealV_gather _ hx _) (isRealV_broadcastInDim _ _ _ (isRealV_broadcastInDim _ _ _ hn)))

/-- The same with one column. -/
theorem real_agg1 {xw : FVec Ideal S100000x1 .f32} {s d : IVec S1700000 32} {n : FVec Ideal S1700000 .f32}
    (hx : IsRealV xw) (hn : IsRealV n) : IsRealV (Spec.agg1 (F := Ideal) xw s d n) := by
  unfold Spec.agg1
  exact isRealV_scatterAdd _ (isRealV_broadcastInDim _ _ _ (isRealV_constant _ _ _ ofBits_zero)) _
    (isRealV_mulf (isRealV_gather _ hx _) (isRealV_broadcastInDim _ _ _ hn))

/-- Node features times a square weight matrix. -/
theorem real_mm {x : FVec Ideal S100000x128 .f32} {w : FVec Ideal S128x128 .f32} (hx : IsRealV x) (hw : IsRealV w) :
    IsRealV (Spec.mm (F := Ideal) x w) := by
  unfold Spec.mm
  exact isRealV_dotGeneral _ _ hx hw

/-- Node features times a one-column weight matrix. -/
theorem real_mm1 {x : FVec Ideal S100000x128 .f32} {w : FVec Ideal S128x1 .f32} (hx : IsRealV x) (hw : IsRealV w) :
    IsRealV (Spec.mm1 (F := Ideal) x w) := by
  unfold Spec.mm1
  exact isRealV_dotGeneral _ _ hx hw

/-- A vector laid over every node's row. -/
theorem real_rows {v : FVec Ideal S128 .f32} (h : IsRealV v) : IsRealV (Spec.rows (F := Ideal) v) := by
  unfold Spec.rows
  exact isRealV_broadcastInDim _ _ _ (isRealV_broadcastInDim _ _ _ h)

end Cert.Spec.Real

end
-- ==== Proof.Tiled.lean ====
/-
  The network as the tiled program computes it, and its agreement with the reference's form on real inputs.

  The tiled program adds the bias as a 1 x 128 row, keeps the two column totals of each hidden layer's pre-activation
  and normalises with the variance taken from them.  Layer by layer this is the reference's layer once the
  pre-activation is an array of real numbers — which it is when the inputs are: every stage before it (products, edge
  coefficients, gathers, accumulating scatters, the bias) keeps real entries real.
-/
import proofs.«113069_j27908697489551_1_alg».proof.Proof.NormBridge
import proofs.«113069_j27908697489551_1_alg».proof.Proof.RealStages

noncomputable section

namespace Cert.Spec

open Cert.ReferenceIdeal Cert.ReferenceIdeal.Gen Idealize.ShloMosaic Idealize.ShloMosaic.ValueIdx Cert.Lib.RealEntries Cert.Spec.Real

/-- A hidden layer's pre-activation, the bias added as a row. -/
def preT (x : FVec Ideal S100000x128 .f32) (w : FVec Ideal S128x128 .f32) (b : FVec Ideal S128 .f32)
    (ei : IVec S2x1600000 32) (ea : FVec Ideal S1600000 .f32) : FVec Ideal S100000x128 .f32 :=
  addRow (agg (F := Ideal) (mm (F := Ideal) x w) (src ei) (dst ei) (nrm (F := Ideal) ei ea)) (asRow (F := Ideal) b)

/-- A hidden layer, normalised from the two column totals of its pre-activation. -/
def layerT (x : FVec Ideal S100000x128 .f32) (w : FVec Ideal S128x128 .f32) (b γ β : FVec Ideal S128 .f32)
    (ei : IVec S2x1600000 32) (ea : FVec Ideal S1600000 .f32) : FVec Ideal S100000x128 .f32 :=
  normReluRows (preT x w b ei ea) (asRow (F := Ideal) (perNode (F := Ideal) (colTotal (preT x w b ei ea))))
    (asRow (F := Ideal) (varOfTotals (F := Ideal) (colTotal (preT x w b ei ea)) (colTotalSq (preT x w b ei ea))))
    (asRow (F := Ideal) γ) (asRow (F := Ideal) β)

/-- The whole network in that form. -/
def outT (x : FVec Ideal S100000x128 .f32) (ei : IVec S2x1600000 32) (ea : FVec Ideal S1600000 .f32)
    (w1 : FVec Ideal S128x128 .f32) (b1 γ1 β1 : FVec Ideal S128 .f32) (w2 : FVec Ideal S128x128 .f32) (b2 γ2 β2 : FVec Ideal S128 .f32)
    (w3 : FVec Ideal S128x1 .f32) (b3 : FVec Ideal S1 .f32) : FVec Ideal S100000x1 .f32 :=
  last (F := Ideal) (layerT (layerT x w1 b1 γ1 β1 ei ea) w2 b2 γ2 β2 ei ea) w3 b3 ei ea

variable {x : FVec Ideal S100000x128 .f32} {w : FVec Ideal S128x128 .f32} {b γ β : FVec Ideal S128 .f32}
  {ei : IVec S2x1600000 32} {ea : FVec Ideal S1600000 .f32}

theorem preT_eq (x : FVec Ideal S100000x128 .f32) (w : FVec Ideal S128x128 .f32) (b : FVec Ideal S128 .f32)
    (ei : IVec S2x1600000 32) (ea : FVec Ideal S1600000 .f32) :
    preT x w b ei ea = addf (agg (F := Ideal) (mm (F := Ideal) x w) (src ei) (dst ei) (nrm (F := Ideal) ei ea)) (rows (F := Ideal) b) :=
  addRow_asRow _ _

/-- The pre-activation of real inputs is real. -/
theorem real_pre (hx : IsRealV x) (hw : IsRealV w) (hb : IsRealV b) (hea : IsRealV ea) :
    IsRealV (addf (agg (F := Ideal) (mm (F := Ideal) x w) (src ei) (dst ei) (nrm (F := Ideal) ei ea)) (rows (F := Ideal) b)) :=
  isRealV_addf (real_agg (real_mm hx hw) (real_nrm ei hea)) (real_rows hb)

/-- On real inputs the layer from the two totals is the reference's layer. -/
theorem layerT_eq (hx : IsRealV x) (hw : IsRealV w) (hb : IsRealV b) (hea : IsRealV ea) (γ β : FVec Ideal S128 .f32) :
    layerT x w b γ β ei ea = layer (F := Ideal) x w b γ β ei ea := by
  unfold layerT layer
  rw [preT_eq]
  exact normReluRows_eq (real_pre hx hw hb hea) γ β

/-- A layer of real inputs is real. -/
theorem real_layer (hx : IsRealV x) (hw : IsRealV w) (hb : IsRealV b) (hγ : IsRealV γ) (hβ : IsRealV β) (hea : IsRealV ea) :
    IsRealV (layer (F := Ideal) x w b γ β ei ea) :=
  real_normRelu (real_pre hx hw hb hea) hγ hβ

/-- On real inputs the two forms of the network agree. -/
theorem outT_eq {w1 w2 : FVec Ideal S128x128 .f32} {b1 γ1 β1 b2 γ2 β2 : FVec Ideal S128 .f32}
    (hx : IsRealV x) (hea : IsRealV ea) (hw1 : IsRealV w1) (hb1 : IsRealV b1) (hγ1 : IsRealV γ1) (hβ1 : IsRealV β1)
    (hw2 : IsRealV w2) (hb2 : IsRealV b2) (w3 : FVec Ideal S128x1 .f32) (b3 : FVec Ideal S1 .f32) :
    outT x ei ea w1 b1 γ1 β1 w2 b2 γ2 β2 w3 b3 = out (F := Ideal) x ei ea w1 b1 γ1 β1 w2 b2 γ2 β2 w3 b3 := by
  unfold outT out
  rw [layerT_eq hx hw1 hb1 hea, layerT_eq (real_layer hx hw1 hb1 hγ1 hβ1 hea) hw2 hb2 hea]

end Cert.Spec

end
-- ==== Proof.LibMatmulRows.lean ====
/-
  A matrix product accumulated into zero, read one entry at a time.

  For the plain dimension numbers "rows by contraction, times contraction by columns" (`DotDims.plain M K N`: the left
  operand is [M, K], the right one [K, N], the result [M, N], no batch axis) the entry (p, q) of a `tpu.matmul` whose
  accumulator is the zero splat is, at the ideal values, the sum over the contraction position k of left (p, k) times
  right (k, q). So entry (p, q) depends on row p of the left operand and on column q of the right operand and on nothing
  else: a product computed on a block of rows is the block of rows of the product. The host's `dot_general` with the same
  dimension numbers reads the same way (it has no accumulator). Nothing of real arithmetic is used beyond 0 + x = x, so
  the statements hold at the infinities too.
-/
import Idealize.ShloMosaic.Lib.ValueIdx
import Idealize.ShloMosaic.PureOps.Ideal.Laws

noncomputable section

open scoped BigOperators

namespace Cert.Bridge

open Idealize.ShloMosaic Idealize.ShloMosaic.ValueIdx

/-- The left operand's row coordinate at output index `j` is `j`'s row, whatever the contraction position. -/
theorem plain_lhsIdx_row (M K N : Nat) (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate at output index `j` is `j`'s column, whatever the contraction position. -/
theorem plain_rhsIdx_col (M K N : Nat) (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index of a plain product, re-indexed by the contraction coordinate:
    the left factor is read at (p, k), the right one at (k, q). -/
theorem plain_contr_sum (M K N : Nat) (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhsIdx_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact plain_rhsIdx_col M K N _ _)
  rw [el, er]

/-- A plain `tpu.matmul` into the zero splat, read at (p, q): row p of the left operand against column q of the right. -/
theorem matmul_plain_zero_apply {φ₁ φ₂ : FTy} (M K N : Nat) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contr_sum M K N lhs rhs p q)

/-- The host's plain `dot_general`, read at (p, q): the same sum. -/
theorem dotGeneral_plain_apply {φ₁ φ₂ : FTy} (M K N : Nat) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q) = ∑ k : Fin K, lhs (ix2 p k) * rhs (ix2 k q) :=
  (Ideal.dotGeneral_apply (DotDims.plain M K N) prec sched lhs rhs (ix2 p q)).trans (plain_contr_sum M K N lhs rhs p q)

end Cert.Bridge

end
-- ==== Proof.Matmul.lean ====
/-
  The three dense passes that multiply the node features by a weight matrix.

  Each pass walks the 100000 rows in ten blocks of 10000. At a block it forms the product of the block (its entries
  narrowed, which changes nothing on the extended reals) with the whole weight matrix, accumulated from zero, and writes
  the product over the same rows of the output. Entry (p, q) of a product is the sum over k of left (p, k) * right (k, q):
  it depends on row p of the left operand only, so the product of a block of rows is that block of rows of the product
  of the whole array. Row r of the output lies in the block r / 10000, so the ten blocks fill the output and the array the
  pass leaves is the whole product. The first two passes have 128 output columns, the third has one.
-/
import proofs.«113069_j27908697489551_1_alg».proof.Proof.Spec
import proofs.«113069_j27908697489551_1_alg».proof.Proof.LibMatmulRows
import proofs.«113069_j27908697489551_1_alg».proof.Proof.Gen.KernelIdeal.Frame
import Idealize.ShloMosaic.Lib.Pipeline.Value
import Idealize.ShloMosaic.Lib.ValueIdx
import Idealize.ShloMosaic.PureOps.Ideal
import Idealize.ShloMosaic.PureOps.Ideal.Laws

noncomputable section

open scoped BigOperators

namespace Cert.KernelIdeal.Regions

open Cert.KernelIdeal Cert.KernelIdeal.Gen Idealize.ShloMosaic Idealize.ShloMosaic.ValueIdx
open Idealize.ShloMosaic.TcCoe Idealize.SL.Sem
open Idealize.ShloMosaic.Pipeline (Dat)

/-- The offsets of a whole-block access are all zero. -/
theorem offsets_zero : (![0, 0] : Fin 2 → Nat) = fun _ => 0 := funext fun a => by fin_cases a <;> rfl

/-- Entry (r, q) of the whole product with 128 columns: row r of the features against column q of the weights. -/
theorem mm_apply (X : FVec Ideal S100000x128 .f32) (W : FVec Ideal S128x128 .f32) (r : Fin 100000) (q : Fin 128) :
    Spec.mm (F := Ideal) X W (ix2 r q) = ∑ k : Fin 128, X (ix2 r k) * W (ix2 k q) := by
  unfold Spec.mm
  exact Cert.Bridge.dotGeneral_plain_apply 100000 128 128 none .single X W r q

/-- The same with one column. -/
theorem mm1_apply (X : FVec Ideal S100000x128 .f32) (W : FVec Ideal S128x1 .f32) (r : Fin 100000) (q : Fin 1) :
    Spec.mm1 (F := Ideal) X W (ix2 r q) = ∑ k : Fin 128, X (ix2 r k) * W (ix2 k q) := by
  unfold Spec.mm1
  exact Cert.Bridge.dotGeneral_plain_apply 100000 128 1 none .single X W r q

variable (V : (c : Dev nD) → (b : Ref sig .tc) → Buf (Elt Ideal) ((c : Thread nD τ).loc b)) (c : Dev nD)

/-! ## Region 0 -/

/-- Entry (p, q) of the product of a block of 10000 rows with the weights: row p of the block against column q of the
    weights (narrowing the operands is the identity on the extended reals). -/
theorem blockProduct0_apply (x : Vec Ideal S10000x128 .f32) (w : Vec Ideal S128x128 .f32) (p : Fin 10000) (q : Fin 128) :
    k0_pay1 (F := Ideal) x w (ix2 p q) = ∑ k : Fin 128, x (ix2 p k) * w (ix2 k q) := by
  unfold k0_pay1
  exact Cert.Bridge.matmul_plain_zero_apply 10000 128 128 none _ _ p q

/-- The product on a block is the block of the product: entry j of the block's product is entry i of the whole product
    as soon as row (j 0) of the block is row (i 0) of the features, the weights are the weights, and the columns agree. -/
theorem blockProduct0_eq (x : Vec Ideal S10000x128 .f32) (w : Vec Ideal S128x128 .f32)
    (X : FVec Ideal S100000x128 .f32) (W : FVec Ideal S128x128 .f32) (j : S10000x128.Idx) (i : S100000x128.Idx)
    (hx : ∀ k : Fin 128, x (ix2 (n0 := 10000) (j 0) k) = X (ix2 (n0 := 100000) (i 0) k)) (hw : w = W)
    (hq : (j 1).val = (i 1).val) :
    k0_pay1 (F := Ideal) x w j = Spec.mm (F := Ideal) X W i := by
  obtain ⟨p, q, rfl⟩ : ∃ (p : Fin 10000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q = q' := Fin.ext hq
  rw [blockProduct0_apply, mm_apply, hw]
  exact Finset.sum_congr rfl fun k _ => congrArg (fun z => z * W (ix2 k q)) (hx k)

/-- Where each window's block sits at point t: the activations' and the output's blocks are rows 10000 t onwards, the
    weights' block is the whole matrix. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed0 (t : Fin cfg0.N) :
    (dat0 (F := Ideal) V c).flushed 2 t
      = ((cfg0.win 2).blk t).view.read (Elt Ideal) (Spec.mm (F := Ideal) (V c main_arg0) (V c main_arg3)) := by
  show (cfg0.win 2).cut (grid0.coords t) ((dat0 V c).after 2 t) = _
  rw [after0_2]
  unfold out0_2
  rw [View.canon_unit_zero offsets_zero]
  simp only [View.ld_unit_zero (S := S10000x128) offsets_zero, View.ld_unit_zero (S := S128x128) offsets_zero]
  obtain ⟨a0, a1, w0, w1, o0, o1⟩ := index_facts0 t
  funext j
  show k0_pay1 (iblk0 V c 0 t) (iblk0 V c 1 t) j
      = Spec.mm (F := Ideal) (V c main_arg0) (V c main_arg3) (((cfg0.win 2).blk t).view.emb j)
  refine blockProduct0_eq (iblk0 V c 0 t) (iblk0 V c 1 t) (V c main_arg0) (V c main_arg3) j (((cfg0.win 2).blk t).view.emb j) (fun k => ?_) ?_ ?_
  · show V c main_arg0 (((cfg0.win 0).blk t).view.emb (ix2 (n0 := 10000) (j 0) k))
        = V c main_arg0 (ix2 (n0 := 100000) ((((cfg0.win 2).blk t).view.emb j) 0) k)
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · funext y
    show V c main_arg3 (((cfg0.win 1).blk t).view.emb y) = V c main_arg3 y
    refine congrArg (V c main_arg3) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · show (j 1).val = win0_2.index t (1 : Fin 2) * 128 + 1 * (j 1).val
    omega

/-- Row r of the output is in the block of point r / 10000. -/
theorem covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨a0, a1, w0, w1, o0, o1⟩ := index_facts0 t
  refine ⟨t, flush0_2 t, ?_⟩
  show i ∈ ((View.whole main_v34).slice (win0_2.rect t)).set
  rw [View.set_slice_whole, Rect.mem_set_unit]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array of region 0 after its ten points is the features times the weights. -/
theorem mm0 : (dat0 (F := Ideal) V c).arrAt 2 cfg0.N = Spec.mm (F := Ideal) (V c main_arg0) (V c main_arg3) :=
  (dat0 (F := Ideal) V c).arrAt_eq_of_cover 2 (Spec.mm (F := Ideal) (V c main_arg0) (V c main_arg3))
    (fun t _ => flushed0 V c t) (covered0)

/-! ## Region 3 -/

/-- Entry (p, q) of the product of a block of 10000 rows with the weights: row p of the block against column q of the
    weights (narrowing the operands is the identity on the extended reals). -/
theorem blockProduct3_apply (x : Vec Ideal S10000x128 .f32) (w : Vec Ideal S128x128 .f32) (p : Fin 10000) (q : Fin 128) :
    k3_pay1 (F := Ideal) x w (ix2 p q) = ∑ k : Fin 128, x (ix2 p k) * w (ix2 k q) := by
  unfold k3_pay1
  refine (Cert.Bridge.matmul_plain_zero_apply 10000 128 128 none _ _ p q).trans ?_
  refine Finset.sum_congr rfl fun k _ => ?_
  show shapeCast S10000x128 x shapeCasts_S10000x128_S10000x128 (ix2 p k) * w (ix2 k q) = x (ix2 p k) * w (ix2 k q)
  rw [shapeCast_self]

/-- The product on a block is the block of the product: entry j of the block's product is entry i of the whole product
    as soon as row (j 0) of the block is row (i 0) of the features, the weights are the weights, and the columns agree. -/
theorem blockProduct3_eq (x : Vec Ideal S10000x128 .f32) (w : Vec Ideal S128x128 .f32)
    (X : FVec Ideal S100000x128 .f32) (W : FVec Ideal S128x128 .f32) (j : S10000x128.Idx) (i : S100000x128.Idx)
    (hx : ∀ k : Fin 128, x (ix2 (n0 := 10000) (j 0) k) = X (ix2 (n0 := 100000) (i 0) k)) (hw : w = W)
    (hq : (j 1).val = (i 1).val) :
    k3_pay1 (F := Ideal) x w j = Spec.mm (F := Ideal) X W i := by
  obtain ⟨p, q, rfl⟩ : ∃ (p : Fin 10000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q = q' := Fin.ext hq
  rw [blockProduct3_apply, mm_apply, hw]
  exact Finset.sum_congr rfl fun k _ => congrArg (fun z => z * W (ix2 k q)) (hx k)

/-- Where each window's block sits at point t: the activations' and the output's blocks are rows 10000 t onwards, the
    weights' block is the whole matrix. -/
theorem index_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole product. -/
theorem flushed3 (t : Fin cfg3.N) :
    (dat3 (F := Ideal) V c).flushed 2 t
      = ((cfg3.win 2).blk t).view.read (Elt Ideal) (Spec.mm (F := Ideal) (V c main_v62) (V c main_arg7)) := by
  show (cfg3.win 2).cut (grid3.coords t) ((dat3 V c).after 2 t) = _
  rw [after3_2]
  unfold out3_2
  rw [View.canon_unit_zero offsets_zero]
  simp only [View.ld_unit_zero (S := S10000x128) offsets_zero, View.ld_unit_zero (S := S128x128) offsets_zero]
  obtain ⟨a0, a1, w0, w1, o0, o1⟩ := index_facts3 t
  funext j
  show k3_pay1 (iblk3 V c 0 t) (iblk3 V c 1 t) j
      = Spec.mm (F := Ideal) (V c main_v62) (V c main_arg7) (((cfg3.win 2).blk t).view.emb j)
  refine blockProduct3_eq (iblk3 V c 0 t) (iblk3 V c 1 t) (V c main_v62) (V c main_arg7) j (((cfg3.win 2).blk t).view.emb j) (fun k => ?_) ?_ ?_
  · show V c main_v62 (((cfg3.win 0).blk t).view.emb (ix2 (n0 := 10000) (j 0) k))
        = V c main_v62 (ix2 (n0 := 100000) ((((cfg3.win 2).blk t).view.emb j) 0) k)
    refine congrArg (V c main_v62) (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 128 + 1 * k.val = k.val; omega
  · funext y
    show V c main_arg7 (((cfg3.win 1).blk t).view.emb y) = V c main_arg7 y
    refine congrArg (V c main_arg7) (funext fun a => Fin.ext ?_)
    match a with
    | ⟨0, _⟩ => show win3_1.index t (0 : Fin 2) * 128 + 1 * (y 0).val = (y 0).val; omega
    | ⟨1, _⟩ => show win3_1.index t (1 : Fin 2) * 128 + 1 * (y 1).val = (y 1).val; omega
  · show (j 1).val = win3_2.index t (1 : Fin 2) * 128 + 1 * (j 1).val
    omega

/-- Row r of the output is in the block of point r / 10000. -/
theorem covered3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 10 := N_3
  obtain ⟨t, ht⟩ : ∃ t : Fin cfg3.N, t.val = (i 0).val / 10000 := ⟨⟨(i 0).val / 10000, by rw [hN]; omega⟩, rfl⟩
  obtain ⟨a0, a1, w0, w1, o0, o1⟩ := index_facts3 t
  refine ⟨t, flush3_2 t, ?_⟩
  show i ∈ ((View.whole main_v63).slice (win3_2.rect t)).set
  rw [View.set_slice_whole, Rect.mem_set_unit]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- The output array of region 3 after its ten points is the features times the weights. -/
theorem mm3 : (dat3 (F := Ideal) V c).arrAt 2 cfg3.N = Spec.mm (F := Ideal) (V c main_v62) (V c main_arg7) :=
  (dat3 (F := Ideal) V c).arrAt_eq_of_cover 2 (Spec.mm (F := Ideal) (V c main_v62) (V c main_arg7))
    (fun t _ => flushed3 V c t) (covered3)

/-! ## Region 6 -/

/-- Entry (p, q) of the product of a block of 10000 rows with the weights: row p of the block against column q of the
    weights (narrowing the operands is the identity on the extended reals). -/
theorem blockProduct6_apply (x : Vec Ideal S10000x128 .f32) (w : Vec Ideal S128x1 .f32) (p : Fin 10000) (q : Fin 1) :
    k6_pay1 (F := Ideal) x w (ix2 p q) = ∑ k : Fin 128, x (ix2 p k) * w (ix2 k q) := by
  unfold k6_pay1
  refine (Cert.Bridge.matmul_plain_zero_apply 10000 128 1 none _ _ p q).trans ?_
  refine Finset.sum_congr rfl fun k _ => ?_
  show shapeCast S10000x128 x shapeCasts_S10000x128_S10000x128 (ix2 p k) * w (ix2 k q) = x (ix2 p k) * w (ix2 k q)
  rw [shapeCast_self]

/-- The product on a block is the block of the product: entry j of the block's product is entry i of the whole product
    as soon as row (j 0) of the block is row (i 0) of the features, the weights are the weights, and the columns agree. -/
theorem blockProduct6_eq (x : Vec Ideal S10000x128 .f32) (w : Vec Ideal S128x1 .f32)
    (X : FVec Ideal S100000x128 .f32) (W : FVec Ideal S128x1 .f32) (j : S10000x1.Idx) (i : S100000x1.Idx)
    (hx : ∀ k : Fin 128, x (ix2 (n0 := 10000) (j 0) k) = X (ix2 (n0 := 100000) (i 0) k)) (hw : w = W)
    (hq : (j 1).val = (i 1).val) :
    k6_pay1 (F := Ideal) x w j = Spec.mm1 (F := Ideal) X W i := by
  obtain ⟨p, q, rfl⟩ : ∃ (p : Fin 10000) (q : Fin 1), j = ix2 p q := ⟨j 0, j 1, eq_ix2 j⟩
  obtain ⟨r, q', rfl⟩ : ∃ (r : Fin 100000) (q' : Fin 1), i = ix2 r q' := ⟨i 0, i 1, eq_ix2 i⟩
  obtain rfl : q = q' := Fin.ext hq
  rw [blockProduct6_apply, mm1_apply, hw]
  exact Finset.sum_congr rfl fun k _ => congrArg (fun z => z * W (ix2 k q)) (hx k)

/-- Where each window's block sits at point t: the activations' and the output's blocks are rows 10000 t onwards, the
    weights' block is the whole matrix. -/
theorem index_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the whole product. -/
theorem flushed6 (t : Fin cfg6.N) :
    (dat6 (F := Ideal) V c).flushed 2 t
      = ((cfg6.win 2).blk t).view.read (Elt Ideal) (Spec.mm1 (F := Ideal) (V c main_v91) (V c main_arg11)) := by
  show (cfg6.win 2).cut (grid6.coords t) ((dat6 V c).after 2 t) = _
  rw [after6_2]
  unfold out6_2
  rw [View.canon_unit_zero offsets_zero]
  simp only [View.ld_unit_zero (S := S10000x128) offsets_zero, View.ld_unit_zero (S := S128x1) offsets_zero]
  obtain ⟨a0, a1, w0, w1, o0, o1⟩ := index_facts6 t
  funext j
  show k6_pay1 (iblk6 V c 0 t) (iblk6 V c 1 t) j
      = Spec.mm1 (F := Ideal) (V c main_v91) (V c main_arg11) (((cfg6.win 2).blk t).view.emb j)
  refine blockProduct6_eq (iblk6 V c 0 t) (iblk6 V c 1 t) (V c main_v91) (V c main_arg11) j (((cfg6.win 2).blk t).view.emb j) (fun k => ?_) ?_ ?_
  · show V c main_v91 (((cfg6.win 0).blk t).view.emb (ix2 (n0 := 10000) (j 0) k))
        = V c main_v91 (ix2 (n0 := 100000) ((((cfg6.win 2).blk t).view.emb j) 0) k)
    refine congrArg (V c main_v91) (funext fun a => Fin.ext ?_)
    match a with
    | ⟨0, _⟩ => show win6_0.index t (0 : Fin 2) * 10000 + 1 * (j 0).val = win6_2.index t (0 : Fin 2) * 10000 + 1 * (j 0).val; omega
    | ⟨1, _⟩ => show win6_0.index t (1 : Fin 2) * 128 + 1 * k.val = k.val; omega
  · funext y
    show V c main_arg11 (((cfg6.win 1).blk t).view.emb y) = V c main_arg11 y
    refine congrArg (V c main_arg11) (funext fun a => Fin.ext ?_)
    match a with
    | ⟨0, _⟩ => show win6_1.index t (0 : Fin 2) * 128 + 1 * (y 0).val = (y 0).val; omega
    | ⟨1, _⟩ => show win6_1.index t (1 : Fin 2) * 1 + 1 * (y 1).val = (y 1).val; omega
  · show (j 1).val = win6_2.index t (1 : Fin 2) * 1 + 1 * (j 1).val
    omega

/-- Row r of the output is in the block of point r / 10000. -/
theorem covered6 (i : S100000x1.Idx) :
    ∃ t : Fin cfg6.N, (cfg6.win 2).flush t = true ∧ i ∈ ((cfg6.win 2).blk t).view.set := by
  have hi0 : (i 0).val < 100000 := (i 0).isLt
  have hi1 : (i 1).val < 1 := (i 1).isLt
  have hN : cfg6.N = 10 := N_6
  obtain ⟨t, ht⟩ : ∃ t : Fin cfg6.N, t.val = (i 0).val / 10000 := ⟨⟨(i 0).val / 10000, by rw [hN]; omega⟩, rfl⟩
  obtain ⟨a0, a1, w0, w1, o0, o1⟩ := index_facts6 t
  refine ⟨t, flush6_2 t, ?_⟩
  show i ∈ ((View.whole main_v92).slice (win6_2.rect t)).set
  rw [View.set_slice_whole, Rect.mem_set_unit]
  intro a
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 1 ≤ (i 1).val ∧ (i 1).val < win6_2.index t (1 : Fin 2) * 1 + 1; omega

/-- The output array of region 6 after its ten points is the features times the weights. -/
theorem mm6 : (dat6 (F := Ideal) V c).arrAt 2 cfg6.N = Spec.mm1 (F := Ideal) (V c main_v91) (V c main_arg11) :=
  (dat6 (F := Ideal) V c).arrAt_eq_of_cover 2 (Spec.mm1 (F := Ideal) (V c main_v91) (V c main_arg11))
    (fun t _ => flushed6 V c t) (covered6)

end Cert.KernelIdeal.Regions

end
-- ==== Proof.NormPass.lean ====
import proofs.«113069_j27908697489551_1_alg».proof.Proof.Spec
import proofs.«113069_j27908697489551_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

/-!
The two normalisation passes of the kernel, read off the pipeline's proof data.

Each pass runs over the 100000 x 128 activations by blocks of 10000 rows. At every block the body holds the block and
four 1 x 128 rows — per column: the mean, the variance, a scale, a shift — and stores, entry by entry, the entry less
the column's mean, times the inverse root of the column's variance plus a small constant, times the scale, plus the
shift, and then the positive part. The rows are the same whole rows at every block; block t of the result is rows
10000 t … 10000 t + 9999; the ten blocks tile the array. So the array the pass leaves is that function of the
activations and the four rows, index by index.
-/

noncomputable section

namespace Cert.KernelIdeal.Regions

open Cert.KernelIdeal Cert.KernelIdeal.Gen Idealize.ShloMosaic Idealize.ShloMosaic.ValueIdx
open Idealize.ShloMosaic.TcCoe Idealize.SL.Sem
open Idealize.ShloMosaic.Pipeline (Dat)

/-- The zero offsets of a whole-buffer access. -/
theorem zero_offsets : (![0, 0] : Fin 2 → Nat) = fun _ => 0 := funext fun a => by fin_cases a <;> rfl

/-! ## Region 2: normalise, scale, shift, positive part -/

/-- Entry (p, q) of the pass's result on a block of 10000 rows, from the block and the four rows of per-column
    numbers (the variance row is loaded before the mean row): the entry less the column's mean, times the inverse
    root of the column's variance plus a small constant, times the column's scale, plus the column's shift; then
    the positive part. -/
theorem pay2_apply (x0 : Vec Ideal S10000x128 .f32) (xv xm xg xb : Vec Ideal S1x128 .f32) (p : Fin 10000) (q : Fin 128) :
    k2_pay1 (F := Ideal) x0 xv xm xg xb (ix2 p q)
      = max ((x0 (ix2 p q) - xm (ix2 (0 : Fin 1) q)) * Ideal.rsqrt (xv (ix2 (0 : Fin 1) q) + Ideal.ofBits .f32 0x3727C5AC#32)
          * xg (ix2 (0 : Fin 1) q) + xb (ix2 (0 : Fin 1) q)) (Ideal.ofBits .f32 0x00000000#32) := by
  unfold k2_pay1
  simp only [shapeCast_self]
  have e1 := broadcastTo_1b_ab_apply (a := 10000) xm broadcasts_S1x128_S10000x128 p q
  have e2 := broadcastTo_1b_ab_apply (a := 10000) (rsqrt (addf xv (broadcast S1x128 (Scalar.ofBits (F := Ideal) .f32 0x3727C5AC#32)))) broadcasts_S1x128_S10000x128 p q
  have e3 := broadcastTo_1b_ab_apply (a := 10000) xg broadcasts_S1x128_S10000x128 p q
  have e4 := broadcastTo_1b_ab_apply (a := 10000) xb broadcasts_S1x128_S10000x128 p q
  show max ((x0 (ix2 p q) - _) * _ * _ + _) _ = _
  rw [e1, e2, e3, e4]
  rfl

/-- The block indices over the grid: at point t the activations' and the result's block is block t of rows (and the one
    block of columns); the four rows' block is the one block. -/
theorem blocks2 : ∀ t : Fin cfg2.N, win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

section
variable (V : (c : Dev nD) → (b : Ref sig .tc) → Buf (Elt Ideal) ((c : Thread nD τ).loc b)) (c : Dev nD)

/-- The activations' block at point t is rows 10000 t … 10000 t + 9999 of the array. -/
theorem acts2_apply (t : Fin cfg2.N) (x : S10000x128.Idx) (k : S100000x128.Idx)
    (hk0 : (k 0).val = 10000 * t.val + (x 0).val) (hk1 : (k 1).val = (x 1).val) :
    (iblk2 (F := Ideal) V c 0 t : Vec Ideal S10000x128 .f32) x = (V c main_v49_0 : S100000x128.Idx → Elt Ideal .f32) k := by
  obtain ⟨e0, e1, -⟩ := blocks2 t
  unfold iblk2
  rw [View.read_apply]
  show V c main_v49_0 _ = V c main_v49_0 _
  congr 1
  funext a
  apply Fin.ext
  match a with
  | ⟨0, _⟩ => show win2_0.index t 0 * 10000 + 1 * (x 0).val = (k 0).val; rw [e0, hk0]; omega
  | ⟨1, _⟩ => show win2_0.index t 1 * 128 + 1 * (x 1).val = (k 1).val; rw [e1, hk1]; omega

/-- The mean row's block at every point is the whole row. -/
theorem row2_1_apply (t : Fin cfg2.N) (x : S1x128.Idx) :
    (iblk2 (F := Ideal) V c 1 t : Vec Ideal S1x128 .f32) x = (V c main_v58 : S1x128.Idx → Elt Ideal .f32) x := by
  obtain ⟨-, -, -, -, e0, e1, -⟩ := blocks2 t
  unfold iblk2
  rw [View.read_apply]
  show V c main_v58 _ = V c main_v58 _
  congr 1
  funext a
  apply Fin.ext
  match a with
  | ⟨0, _⟩ => show win2_1.index t 0 * 1 + 1 * (x 0).val = (x 0).val; rw [e0]; omega
  | ⟨1, _⟩ => show win2_1.index t 1 * 128 + 1 * (x 1).val = (x 1).val; rw [e1]; omega

/-- The variance row's block at every point is the whole row. -/
theorem row2_2_apply (t : Fin cfg2.N) (x : S1x128.Idx) :
    (iblk2 (F := Ideal) V c 2 t : Vec Ideal S1x128 .f32) x = (V c main_v59 : S1x128.Idx → Elt Ideal .f32) x := by
  obtain ⟨-, -, -, -, -, -, e0, e1, -⟩ := blocks2 t
  unfold iblk2
  rw [View.read_apply]
  show V c main_v59 _ = V c main_v59 _
  congr 1
  funext a
  apply Fin.ext
  match a with
  | ⟨0, _⟩ => show win2_2.index t 0 * 1 + 1 * (x 0).val = (x 0).val; rw [e0]; omega
  | ⟨1, _⟩ => show win2_2.index t 1 * 128 + 1 * (x 1).val = (x 1).val; rw [e1]; omega

/-- The scale row's block at every point is the whole row. -/
theorem row2_3_apply (t : Fin cfg2.N) (x : S1x128.Idx) :
    (iblk2 (F := Ideal) V c 3 t : Vec Ideal S1x128 .f32) x = (V c main_v60 : S1x128.Idx → Elt Ideal .f32) x := by
  obtain ⟨-, -, -, -, -, -, -, -, e0, e1, -⟩ := blocks2 t
  unfold iblk2
  rw [View.read_apply]
  show V c main_v60 _ = V c main_v60 _
  congr 1
  funext a
  apply Fin.ext
  match a with
  | ⟨0, _⟩ => show win2_3.index t 0 * 1 + 1 * (x 0).val = (x 0).val; rw [e0]; omega
  | ⟨1, _⟩ => show win2_3.index t 1 * 128 + 1 * (x 1).val = (x 1).val; rw [e1]; omega

/-- The shift row's block at every point is the whole row. -/
theorem row2_4_apply (t : Fin cfg2.N) (x : S1x128.Idx) :
    (iblk2 (F := Ideal) V c 4 t : Vec Ideal S1x128 .f32) x = (V c main_v61 : S1x128.Idx → Elt Ideal .f32) x := by
  obtain ⟨-, -, -, -, -, -, -, -, -, -, e0, e1⟩ := blocks2 t
  unfold iblk2
  rw [View.read_apply]
  show V c main_v61 _ = V c main_v61 _
  congr 1
  funext a
  apply Fin.ext
  match a with
  | ⟨0, _⟩ => show win2_4.index t 0 * 1 + 1 * (x 0).val = (x 0).val; rw [e0]; omega
  | ⟨1, _⟩ => show win2_4.index t 1 * 128 + 1 * (x 1).val = (x 1).val; rw [e1]; omega

/-- What point t writes back is block t (rows 10000 t … 10000 t + 9999) of the normalised array. -/
theorem flushed2_eq (t : Fin cfg2.N) :
    (dat2 (F := Ideal) V c).flushed 5 t = ((cfg2.win 5).blk t).view.read (Elt Ideal)
      (Spec.normReluRows (V c main_v49_0) (V c main_v58) (V c main_v59) (V c main_v60) (V c main_v61)) := by
  show (cfg2.win 5).cut (grid2.coords t) ((dat2 V c).after 5 t) = _
  rw [after2_5]
  unfold out2_5
  rw [View.canon_unit_zero zero_offsets]
  simp only [View.ld_unit_zero (S := S10000x128) zero_offsets, View.ld_unit_zero (S := S1x128) zero_offsets]
  funext j
  obtain ⟨p, q, rfl⟩ : ∃ (p : Fin 10000) (q : Fin 128), j = ix2 p q := ⟨j 0, j 1, eq_ix2 j⟩
  refine (pay2_apply (iblk2 V c 0 t) (iblk2 V c 2 t) (iblk2 V c 1 t) (iblk2 V c 3 t) (iblk2 V c 4 t) p q).trans ?_
  rw [View.read_apply]
  obtain ⟨-, -, e0, e1, -⟩ := blocks2 t
  have hk0 : ((((cfg2.win 5).blk t).view.emb (ix2 p q)) 0).val = 10000 * t.val + p.val := by
    show win2_5.index t 0 * 10000 + 1 * p.val = _
    rw [e0]; omega
  have hk1 : ((((cfg2.win 5).blk t).view.emb (ix2 p q)) 1).val = q.val := by
    show win2_5.index t 1 * 128 + 1 * q.val = _
    rw [e1]; omega
  have hq : (((cfg2.win 5).blk t).view.emb (ix2 p q)) 1 = q := Fin.ext hk1
  rw [acts2_apply V c t (ix2 p q) (((cfg2.win 5).blk t).view.emb (ix2 p q)) hk0 hk1,
    row2_1_apply V c t (ix2 (0 : Fin 1) q), row2_2_apply V c t (ix2 (0 : Fin 1) q),
    row2_3_apply V c t (ix2 (0 : Fin 1) q), row2_4_apply V c t (ix2 (0 : Fin 1) q)]
  unfold Spec.normReluRows
  simp only [hq]
  rfl

/-- An index of the array is in point t's block iff each coordinate is in the block's range on its axis. -/
theorem mem_blk2 (t : Fin cfg2.N) (i : S100000x128.Idx) :
    i ∈ ((cfg2.win 5).blk t).view.set ↔ ∀ a : Fin 2, win2_5.index t a * S10000x128.size a ≤ (i a).val
      ∧ (i a).val < win2_5.index t a * S10000x128.size a + S10000x128.size a := by
  show i ∈ ((View.whole main_v62).slice (win2_5.rect t)).set ↔ _
  rw [View.set_slice_whole, Rect.mem_set_unit]
  exact Iff.rfl

/-- Row r of the array is in the block of point r / 10000. -/
theorem cover2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 10 := N_2
  have ht : (i 0).val / 10000 < cfg2.N := by rw [hN]; omega
  refine ⟨⟨(i 0).val / 10000, ht⟩, flush2_5 _, ?_⟩
  rw [mem_blk2]
  obtain ⟨-, -, e0, e1, -⟩ := blocks2 ⟨(i 0).val / 10000, ht⟩
  intro a
  match a with
  | ⟨0, _⟩ =>
    show win2_5.index ⟨(i 0).val / 10000, ht⟩ 0 * 10000 ≤ (i 0).val ∧ (i 0).val < win2_5.index ⟨(i 0).val / 10000, ht⟩ 0 * 10000 + 10000
    rw [e0]
    show (i 0).val / 10000 * 10000 ≤ (i 0).val ∧ (i 0).val < (i 0).val / 10000 * 10000 + 10000
    omega
  | ⟨1, _⟩ =>
    show win2_5.index ⟨(i 0).val / 10000, ht⟩ 1 * 128 ≤ (i 1).val ∧ (i 1).val < win2_5.index ⟨(i 0).val / 10000, ht⟩ 1 * 128 + 128
    rw [e1]
    omega

/-- REGION 2 leaves in its output array the input normalised column by column, scaled, shifted, positive part. -/
theorem norm2 : (dat2 (F := Ideal) V c).arrAt 5 cfg2.N
    = Spec.normReluRows (V c main_v49_0) (V c main_v58) (V c main_v59) (V c main_v60) (V c main_v61) :=
  (dat2 (F := Ideal) V c).arrAt_eq_of_cover 5 _ (fun t _ => flushed2_eq V c t) (cover2)

end

/-! ## Region 5: normalise, scale, shift, positive part -/

/-- Entry (p, q) of the pass's result on a block of 10000 rows, from the block and the four rows of per-column
    numbers (the variance row is loaded before the mean row): the entry less the column's mean, times the inverse
    root of the column's variance plus a small constant, times the column's scale, plus the column's shift; then
    the positive part. -/
theorem pay5_apply (x0 : Vec Ideal S10000x128 .f32) (xv xm xg xb : Vec Ideal S1x128 .f32) (p : Fin 10000) (q : Fin 128) :
    k5_pay1 (F := Ideal) x0 xv xm xg xb (ix2 p q)
      = max ((x0 (ix2 p q) - xm (ix2 (0 : Fin 1) q)) * Ideal.rsqrt (xv (ix2 (0 : Fin 1) q) + Ideal.ofBits .f32 0x3727C5AC#32)
          * xg (ix2 (0 : Fin 1) q) + xb (ix2 (0 : Fin 1) q)) (Ideal.ofBits .f32 0x00000000#32) := by
  unfold k5_pay1
  simp only [shapeCast_self]
  have e1 := broadcastTo_1b_ab_apply (a := 10000) xm broadcasts_S1x128_S10000x128 p q
  have e2 := broadcastTo_1b_ab_apply (a := 10000) (rsqrt (addf xv (broadcast S1x128 (Scalar.ofBits (F := Ideal) .f32 0x3727C5AC#32)))) broadcasts_S1x128_S10000x128 p q
  have e3 := broadcastTo_1b_ab_apply (a := 10000) xg broadcasts_S1x128_S10000x128 p q
  have e4 := broadcastTo_1b_ab_apply (a := 10000) xb broadcasts_S1x128_S10000x128 p q
  show max ((x0 (ix2 p q) - _) * _ * _ + _) _ = _
  rw [e1, e2, e3, e4]
  rfl

/-- The block indices over the grid: at point t the activations' and the result's block is block t of rows (and the one
    block of columns); the four rows' block is the one block. -/
theorem blocks5 : ∀ t : Fin cfg5.N, win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

section
variable (V : (c : Dev nD) → (b : Ref sig .tc) → Buf (Elt Ideal) ((c : Thread nD τ).loc b)) (c : Dev nD)

/-- The activations' block at point t is rows 10000 t … 10000 t + 9999 of the array. -/
theorem acts5_apply (t : Fin cfg5.N) (x : S10000x128.Idx) (k : S100000x128.Idx)
    (hk0 : (k 0).val = 10000 * t.val + (x 0).val) (hk1 : (k 1).val = (x 1).val) :
    (iblk5 (F := Ideal) V c 0 t : Vec Ideal S10000x128 .f32) x = (V c main_v78_0 : S100000x128.Idx → Elt Ideal .f32) k := by
  obtain ⟨e0, e1, -⟩ := blocks5 t
  unfold iblk5
  rw [View.read_apply]
  show V c main_v78_0 _ = V c main_v78_0 _
  congr 1
  funext a
  apply Fin.ext
  match a with
  | ⟨0, _⟩ => show win5_0.index t 0 * 10000 + 1 * (x 0).val = (k 0).val; rw [e0, hk0]; omega
  | ⟨1, _⟩ => show win5_0.index t 1 * 128 + 1 * (x 1).val = (k 1).val; rw [e1, hk1]; omega

/-- The mean row's block at every point is the whole row. -/
theorem row5_1_apply (t : Fin cfg5.N) (x : S1x128.Idx) :
    (iblk5 (F := Ideal) V c 1 t : Vec Ideal S1x128 .f32) x = (V c main_v87 : S1x128.Idx → Elt Ideal .f32) x := by
  obtain ⟨-, -, -, -, e0, e1, -⟩ := blocks5 t
  unfold iblk5
  rw [View.read_apply]
  show V c main_v87 _ = V c main_v87 _
  congr 1
  funext a
  apply Fin.ext
  match a with
  | ⟨0, _⟩ => show win5_1.index t 0 * 1 + 1 * (x 0).val = (x 0).val; rw [e0]; omega
  | ⟨1, _⟩ => show win5_1.index t 1 * 128 + 1 * (x 1).val = (x 1).val; rw [e1]; omega

/-- The variance row's block at every point is the whole row. -/
theorem row5_2_apply (t : Fin cfg5.N) (x : S1x128.Idx) :
    (iblk5 (F := Ideal) V c 2 t : Vec Ideal S1x128 .f32) x = (V c main_v88 : S1x128.Idx → Elt Ideal .f32) x := by
  obtain ⟨-, -, -, -, -, -, e0, e1, -⟩ := blocks5 t
  unfold iblk5
  rw [View.read_apply]
  show V c main_v88 _ = V c main_v88 _
  congr 1
  funext a
  apply Fin.ext
  match a with
  | ⟨0, _⟩ => show win5_2.index t 0 * 1 + 1 * (x 0).val = (x 0).val; rw [e0]; omega
  | ⟨1, _⟩ => show win5_2.index t 1 * 128 + 1 * (x 1).val = (x 1).val; rw [e1]; omega

/-- The scale row's block at every point is the whole row. -/
theorem row5_3_apply (t : Fin cfg5.N) (x : S1x128.Idx) :
    (iblk5 (F := Ideal) V c 3 t : Vec Ideal S1x128 .f32) x = (V c main_v89 : S1x128.Idx → Elt Ideal .f32) x := by
  obtain ⟨-, -, -, -, -, -, -, -, e0, e1, -⟩ := blocks5 t
  unfold iblk5
  rw [View.read_apply]
  show V c main_v89 _ = V c main_v89 _
  congr 1
  funext a
  apply Fin.ext
  match a with
  | ⟨0, _⟩ => show win5_3.index t 0 * 1 + 1 * (x 0).val = (x 0).val; rw [e0]; omega
  | ⟨1, _⟩ => show win5_3.index t 1 * 128 + 1 * (x 1).val = (x 1).val; rw [e1]; omega

/-- The shift row's block at every point is the whole row. -/
theorem row5_4_apply (t : Fin cfg5.N) (x : S1x128.Idx) :
    (iblk5 (F := Ideal) V c 4 t : Vec Ideal S1x128 .f32) x = (V c main_v90 : S1x128.Idx → Elt Ideal .f32) x := by
  obtain ⟨-, -, -, -, -, -, -, -, -, -, e0, e1⟩ := blocks5 t
  unfold iblk5
  rw [View.read_apply]
  show V c main_v90 _ = V c main_v90 _
  congr 1
  funext a
  apply Fin.ext
  match a with
  | ⟨0, _⟩ => show win5_4.index t 0 * 1 + 1 * (x 0).val = (x 0).val; rw [e0]; omega
  | ⟨1, _⟩ => show win5_4.index t 1 * 128 + 1 * (x 1).val = (x 1).val; rw [e1]; omega

/-- What point t writes back is block t (rows 10000 t … 10000 t + 9999) of the normalised array. -/
theorem flushed5_eq (t : Fin cfg5.N) :
    (dat5 (F := Ideal) V c).flushed 5 t = ((cfg5.win 5).blk t).view.read (Elt Ideal)
      (Spec.normReluRows (V c main_v78_0) (V c main_v87) (V c main_v88) (V c main_v89) (V c main_v90)) := by
  show (cfg5.win 5).cut (grid5.coords t) ((dat5 V c).after 5 t) = _
  rw [after5_5]
  unfold out5_5
  rw [View.canon_unit_zero zero_offsets]
  simp only [View.ld_unit_zero (S := S10000x128) zero_offsets, View.ld_unit_zero (S := S1x128) zero_offsets]
  funext j
  obtain ⟨p, q, rfl⟩ : ∃ (p : Fin 10000) (q : Fin 128), j = ix2 p q := ⟨j 0, j 1, eq_ix2 j⟩
  refine (pay5_apply (iblk5 V c 0 t) (iblk5 V c 2 t) (iblk5 V c 1 t) (iblk5 V c 3 t) (iblk5 V c 4 t) p q).trans ?_
  rw [View.read_apply]
  obtain ⟨-, -, e0, e1, -⟩ := blocks5 t
  have hk0 : ((((cfg5.win 5).blk t).view.emb (ix2 p q)) 0).val = 10000 * t.val + p.val := by
    show win5_5.index t 0 * 10000 + 1 * p.val = _
    rw [e0]; omega
  have hk1 : ((((cfg5.win 5).blk t).view.emb (ix2 p q)) 1).val = q.val := by
    show win5_5.index t 1 * 128 + 1 * q.val = _
    rw [e1]; omega
  have hq : (((cfg5.win 5).blk t).view.emb (ix2 p q)) 1 = q := Fin.ext hk1
  rw [acts5_apply V c t (ix2 p q) (((cfg5.win 5).blk t).view.emb (ix2 p q)) hk0 hk1,
    row5_1_apply V c t (ix2 (0 : Fin 1) q), row5_2_apply V c t (ix2 (0 : Fin 1) q),
    row5_3_apply V c t (ix2 (0 : Fin 1) q), row5_4_apply V c t (ix2 (0 : Fin 1) q)]
  unfold Spec.normReluRows
  simp only [hq]
  rfl

/-- An index of the array is in point t's block iff each coordinate is in the block's range on its axis. -/
theorem mem_blk5 (t : Fin cfg5.N) (i : S100000x128.Idx) :
    i ∈ ((cfg5.win 5).blk t).view.set ↔ ∀ a : Fin 2, win5_5.index t a * S10000x128.size a ≤ (i a).val
      ∧ (i a).val < win5_5.index t a * S10000x128.size a + S10000x128.size a := by
  show i ∈ ((View.whole main_v91).slice (win5_5.rect t)).set ↔ _
  rw [View.set_slice_whole, Rect.mem_set_unit]
  exact Iff.rfl

/-- Row r of the array is in the block of point r / 10000. -/
theorem cover5 (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 10 := N_5
  have ht : (i 0).val / 10000 < cfg5.N := by rw [hN]; omega
  refine ⟨⟨(i 0).val / 10000, ht⟩, flush5_5 _, ?_⟩
  rw [mem_blk5]
  obtain ⟨-, -, e0, e1, -⟩ := blocks5 ⟨(i 0).val / 10000, ht⟩
  intro a
  match a with
  | ⟨0, _⟩ =>
    show win5_5.index ⟨(i 0).val / 10000, ht⟩ 0 * 10000 ≤ (i 0).val ∧ (i 0).val < win5_5.index ⟨(i 0).val / 10000, ht⟩ 0 * 10000 + 10000
    rw [e0]
    show (i 0).val / 10000 * 10000 ≤ (i 0).val ∧ (i 0).val < (i 0).val / 10000 * 10000 + 10000
    omega
  | ⟨1, _⟩ =>
    show win5_5.index ⟨(i 0).val / 10000, ht⟩ 1 * 128 ≤ (i 1).val ∧ (i 1).val < win5_5.index ⟨(i 0).val / 10000, ht⟩ 1 * 128 + 128
    rw [e1]
    omega

/-- REGION 5 leaves in its output array the input normalised column by column, scaled, shifted, positive part. -/
theorem norm5 : (dat5 (F := Ideal) V c).arrAt 5 cfg5.N
    = Spec.normReluRows (V c main_v78_0) (V c main_v87) (V c main_v88) (V c main_v89) (V c main_v90) :=
  (dat5 (F := Ideal) V c).arrAt_eq_of_cover 5 _ (fun t _ => flushed5_eq V c t) (cover5)

end

end Cert.KernelIdeal.Regions

end
-- ==== Proof.LibTileSum.lean ====
/-
  A sum over `m * n` consecutive indices, taken tile by tile.

  The indices `0, …, m * n - 1` fall into `m` tiles of `n` consecutive ones: index `s` is entry `s % n` of tile
  `s / n`, and entry `q` of tile `k` is index `n * k + q`. In a commutative additive monoid the sum over all indices is
  the sum, over the tiles, of each tile's sum.
-/
import Mathlib.Algebra.BigOperators.Fin
import Mathlib.Data.Fintype.BigOperators
import Mathlib.Logic.Equiv.Fin.Basic

namespace Cert.TileSum

/-- Entry `q` of tile `k` lies below `m * n`. -/
theorem tile_lt {m n N : ℕ} (h : m * n = N) (k : Fin m) (q : Fin n) : n * k.val + q.val < N := by
  subst h
  calc n * k.val + q.val < n * k.val + n := Nat.add_lt_add_left q.isLt _
    _ = n * (k.val + 1) := (Nat.mul_succ _ _).symm
    _ ≤ n * m := Nat.mul_le_mul_left _ k.isLt
    _ = m * n := Nat.mul_comm _ _

/-- A sum over `N = m * n` indices is the sum over the `m` tiles of each tile's `n` terms, entry `q` of tile `k`
    being index `n * k + q`. -/
theorem sum_tiles {M : Type*} [AddCommMonoid M] {m n N : ℕ} (h : m * n = N) (f : Fin N → M) :
    ∑ k : Fin m, ∑ q : Fin n, f ⟨n * k.val + q.val, tile_lt h k q⟩ = ∑ s : Fin N, f s := by
  subst h
  rw [← Equiv.sum_comp finProdFinEquiv f, Fintype.sum_prod_type]
  refine Finset.sum_congr rfl fun k _ => Finset.sum_congr rfl fun q _ => congrArg f (Fin.ext ?_)
  show n * k.val + q.val = q.val + n * k.val
  exact Nat.add_comm _ _

end Cert.TileSum
-- ==== Proof.Totals.lean ====
/-
  The two passes that add a bias row and take column statistics, on the extended reals.

  Each pass walks the 100000 x 128 node features in ten tiles of 10000 rows.  At tile t it adds a 1 x 128 row b to every
  row of the tile x_t, stores h_t = x_t + b as tile t of its first result, and keeps two 1 x 128 rows of running totals:
  the column totals of h and the column totals of h * h.  Both rows are set to zero before the first tile is added and
  are written out once, after the last tile.

  On the extended reals addition is commutative and associative with no side condition, so after tile n the running
  total of column q is the sum over tiles 0 … n of the sum over the tile's rows p of h (10000 k + p, q); after tile 9
  that is the sum over all 100000 rows.  The same holds with h * h.  The statements at the end say this for both passes:
  the arrays of totals are the column totals, and the column totals of squares, of the features with the row added.
-/
import proofs.«113069_j27908697489551_1_alg».proof.Proof.Spec
import proofs.«113069_j27908697489551_1_alg».proof.Proof.LibTileSum
import proofs.«113069_j27908697489551_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws
import Idealize.ShloMosaic.Lib.Tactic

noncomputable section

namespace Cert.KernelIdeal.Regions

open Cert.KernelIdeal Cert.KernelIdeal.Gen Idealize.ShloMosaic Idealize.ShloMosaic.ValueIdx
open Idealize.ShloMosaic.TcCoe Idealize.SL.Sem
open Idealize.ShloMosaic.Pipeline (Dat)

namespace Totals

/-- Both offsets of a whole block are zero. -/
theorem offsets_zero : (![0, 0] : Fin 2 → Nat) = fun _ => 0 := funext fun a => by fin_cases a <;> rfl

section AtIdealCommon

/-- A vector of 128 entries seen as a 1 x 128 row, at entry (0, q). -/
theorem vec_as_row_entry (v : FVec Ideal S128 .f32) (q : Fin 128) :
    shapeCast S1x128 v shapeCasts_S128_S1x128 (ix2 (0 : Fin 1) q) = v (ix1 q) :=
  shapeCast_apply v _ (ix2 (0 : Fin 1) q) (ix1 q) (by
    rw [Shape.rowMajor_val_one, Shape.rowMajor_val_two]; show q.val = 0 * _ + q.val; omega)

/-- The column totals of a 10000 x 128 block, at column q. -/
theorem column_total_entry (h : FVec Ideal S10000x128 .f32) (q : Fin 128) :
    multiReduction (F := Ideal) .add [0] S128 h 0x00000000#32 reduces_S10000x128_S128 (.inl rfl) rfl (ix1 q)
      = ∑ p : Fin 10000, h (ix2 p q) := by
  refine (Ideal.multiReduction_add_single h _ reduces_S10000x128_S128 (.inl rfl) rfl (ix1 q)).trans ?_
  refine Finset.sum_congr rfl fun p _ => congrArg h ?_
  funext a
  fin_cases a <;> rfl

end AtIdealCommon

section Pieces1
variable {F : FTy → Type} [FloatOps F]

/-- At the first point the first output's buffer is left holding the block with the row added. -/
theorem rows1_first (c : Dev nD) (i : grid1.Coords) (a1 : Memref sig .tc .vmem S10000x128 .f32) (h1 : a1.IsWhole)
    (a2 : Memref sig .tc .vmem S1x128 .f32) (h2 : a2.IsWhole) (a3 : Memref sig .tc .vmem S10000x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S10000x128 .f32) (x1 : Vec F S1x128 .f32) :
    out1_A_2 c i a1 h1 a2 h2 a3 h3 a4 h4 a5 h5 hc x0 x1 = k1_pay3 x0 x1 := by
  unfold out1_A_2
  rw [View.read_writes_eq_canon _ _ _ (cover1_A_2 c i a1 h1 a2 h2 a3 h3 a4 h4 a5 h5 hc x0 x1)]
  unfold kernelRun1_A
  dsimp only
  rw [View.canon_unit_zero (S := S10000x128) offsets_zero]
  simp only [View.readAt_eq_ld, h1.read_unread, h2.read_unread, View.ld_unit_zero (S := S10000x128) offsets_zero,
    View.ld_unit_zero (S := S1x128) offsets_zero]

/-- At the first point the totals' buffer is set to zero, read back, and left holding zero plus the block's column totals. -/
theorem totals1_first (c : Dev nD) (i : grid1.Coords) (a1 : Memref sig .tc .vmem S10000x128 .f32) (h1 : a1.IsWhole)
    (a2 : Memref sig .tc .vmem S1x128 .f32) (h2 : a2.IsWhole) (a3 : Memref sig .tc .vmem S10000x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S10000x128 .f32) (x1 : Vec F S1x128 .f32) :
    out1_A_3 c i a1 h1 a2 h2 a3 h3 a4 h4 a5 h5 hc x0 x1 = k1_pay4 x0 x1 k1_pay1 := by
  unfold out1_A_3
  rw [View.read_writes_eq_canon _ _ _ (cover1_A_3 c i a1 h1 a2 h2 a3 h3 a4 h4 a5 h5 hc x0 x1)]
  unfold kernelRun1_A
  dsimp only
  sl_unfold_words
  rw [View.canon_cons_unit_zero (S := S1x128) offsets_zero, View.readCov_unit_zero (S := S1x128) _ offsets_zero]
  simp only [View.readAt_eq_ld, h1.read_unread, h2.read_unread, View.ld_unit_zero (S := S10000x128) offsets_zero,
    View.ld_unit_zero (S := S1x128) offsets_zero]

/-- At the first point the buffer of totals of squares likewise: zero plus the block's column totals of squares. -/
theorem squares1_first (c : Dev nD) (i : grid1.Coords) (a1 : Memref sig .tc .vmem S10000x128 .f32) (h1 : a1.IsWhole)
    (a2 : Memref sig .tc .vmem S1x128 .f32) (h2 : a2.IsWhole) (a3 : Memref sig .tc .vmem S10000x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S10000x128 .f32) (x1 : Vec F S1x128 .f32) :
    out1_A_4 c i a1 h1 a2 h2 a3 h3 a4 h4 a5 h5 hc x0 x1 = k1_pay5 x0 x1 k1_pay2 := by
  unfold out1_A_4
  rw [View.read_writes_eq_canon _ _ _ (cover1_A_4 c i a1 h1 a2 h2 a3 h3 a4 h4 a5 h5 hc x0 x1)]
  unfold kernelRun1_A
  dsimp only
  sl_unfold_words
  rw [View.canon_cons_unit_zero (S := S1x128) offsets_zero, View.readCov_unit_zero (S := S1x128) _ offsets_zero]
  simp only [View.readAt_eq_ld, h1.read_unread, h2.read_unread, View.ld_unit_zero (S := S10000x128) offsets_zero,
    View.ld_unit_zero (S := S1x128) offsets_zero]

/-- At a later point the first output's buffer is again the block with the row added. -/
theorem rows1_later (c : Dev nD) (i : grid1.Coords) (a1 : Memref sig .tc .vmem S10000x128 .f32) (h1 : a1.IsWhole)
    (a2 : Memref sig .tc .vmem S1x128 .f32) (h2 : a2.IsWhole) (a3 : Memref sig .tc .vmem S10000x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S10000x128 .f32) (x1 : Vec F S1x128 .f32) (xo3 xo4 : Vec F S1x128 .f32) :
    out1_B_2 c i a1 h1 a2 h2 a3 h3 a4 h4 a5 h5 hc x0 x1 xo3 xo4 = k1_pay3 x0 x1 := by
  unfold out1_B_2
  rw [View.read_writes_eq_canon _ _ _ (cover1_B_2 c i a1 h1 a2 h2 a3 h3 a4 h4 a5 h5 hc x0 x1 xo3 xo4)]
  unfold kernelRun1_B
  dsimp only
  rw [View.canon_unit_zero (S := S10000x128) offsets_zero]
  simp only [View.readAt_eq_ld, h1.read_unread, h2.read_unread, View.ld_unit_zero (S := S10000x128) offsets_zero,
    View.ld_unit_zero (S := S1x128) offsets_zero]

/-- At a later point the totals' buffer holds what it held plus the block's column totals. -/
theorem totals1_later (c : Dev nD) (i : grid1.Coords) (a1 : Memref sig .tc .vmem S10000x128 .f32) (h1 : a1.IsWhole)
    (a2 : Memref sig .tc .vmem S1x128 .f32) (h2 : a2.IsWhole) (a3 : Memref sig .tc .vmem S10000x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S10000x128 .f32) (x1 : Vec F S1x128 .f32) (xo3 xo4 : Vec F S1x128 .f32) :
    out1_B_3 c i a1 h1 a2 h2 a3 h3 a4 h4 a5 h5 hc x0 x1 xo3 xo4 = k1_pay4 x0 x1 xo3 := by
  unfold out1_B_3
  rw [View.read_writes_eq_canon _ _ _ (cover1_B_3 c i a1 h1 a2 h2 a3 h3 a4 h4 a5 h5 hc x0 x1 xo3 xo4)]
  unfold kernelRun1_B
  dsimp only
  rw [View.canon_unit_zero (S := S1x128) offsets_zero]
  simp only [View.readAt_eq_ld, h1.read_unread, h2.read_unread, h4.read_unread, View.ld_unit_zero (S := S10000x128) offsets_zero,
    View.ld_unit_zero (S := S1x128) offsets_zero]

/-- At a later point the buffer of totals of squares holds what it held plus the block's column totals of squares. -/
theorem squares1_later (c : Dev nD) (i : grid1.Coords) (a1 : Memref sig .tc .vmem S10000x128 .f32) (h1 : a1.IsWhole)
    (a2 : Memref sig .tc .vmem S1x128 .f32) (h2 : a2.IsWhole) (a3 : Memref sig .tc .vmem S10000x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S10000x128 .f32) (x1 : Vec F S1x128 .f32) (xo3 xo4 : Vec F S1x128 .f32) :
    out1_B_4 c i a1 h1 a2 h2 a3 h3 a4 h4 a5 h5 hc x0 x1 xo3 xo4 = k1_pay5 x0 x1 xo4 := by
  unfold out1_B_4
  rw [View.read_writes_eq_canon _ _ _ (cover1_B_4 c i a1 h1 a2 h2 a3 h3 a4 h4 a5 h5 hc x0 x1 xo3 xo4)]
  unfold kernelRun1_B
  dsimp only
  rw [View.canon_unit_zero (S := S1x128) offsets_zero]
  simp only [View.readAt_eq_ld, h1.read_unread, h2.read_unread, h5.read_unread, View.ld_unit_zero (S := S10000x128) offsets_zero,
    View.ld_unit_zero (S := S1x128) offsets_zero]

end Pieces1

section AtIdeal1

/-- The zero row. -/
theorem zeroTotals1_entry (j : S1x128.Idx) : k1_pay1 (F := Ideal) j = 0 := by
  unfold k1_pay1
  exact Ideal.ofBits_zero_f32

/-- The zero row of the totals of squares. -/
theorem zeroSquares1_entry (j : S1x128.Idx) : k1_pay2 (F := Ideal) j = 0 := by
  unfold k1_pay2
  exact Ideal.ofBits_zero_f32

/-- Entry (p, q) of the block with the row added: the block's entry plus the row's entry q. -/
theorem addedRow1_entry (x0 : Vec Ideal S10000x128 .f32) (x1 : Vec Ideal S1x128 .f32) (p : Fin 10000) (q : Fin 128) :
    k1_pay3 (F := Ideal) x0 x1 (ix2 p q) = x0 (ix2 p q) + x1 (ix2 (0 : Fin 1) q) := by
  unfold k1_pay3
  show shapeCast S10000x128 x0 _ (ix2 p q) + broadcastTo S10000x128 (shapeCast S1x128 x1 _) _ (ix2 p q) = _
  rw [shapeCast_self, shapeCast_self]
  exact congrArg (x0 (ix2 p q) + ·)
    (broadcastTo_apply x1 _ (ix2 p q) (ix2 (0 : Fin 1) q) (fun a => by fin_cases a <;> rfl))

/-- Entry q of the updated totals: the old entry plus the sum over the block's rows of the entries in column q. -/
theorem addTotals1_entry (x0 : Vec Ideal S10000x128 .f32) (x1 acc : Vec Ideal S1x128 .f32) (q : Fin 128) :
    k1_pay4 (F := Ideal) x0 x1 acc (ix2 (0 : Fin 1) q)
      = acc (ix2 (0 : Fin 1) q) + ∑ p : Fin 10000, (x0 (ix2 p q) + x1 (ix2 (0 : Fin 1) q)) := by
  unfold k1_pay4
  show shapeCast S1x128 acc _ (ix2 (0 : Fin 1) q) + shapeCast S1x128 _ shapeCasts_S128_S1x128 (ix2 (0 : Fin 1) q) = _
  rw [shapeCast_self]
  refine congrArg (acc (ix2 (0 : Fin 1) q) + ·) ?_
  refine (vec_as_row_entry _ q).trans ?_
  refine (column_total_entry _ q).trans ?_
  exact Finset.sum_congr rfl fun p _ => addedRow1_entry x0 x1 p q

/-- Entry q of the updated totals of squares: the old entry plus the sum over the block's rows of the squares in column q. -/
theorem addSquares1_entry (x0 : Vec Ideal S10000x128 .f32) (x1 acc : Vec Ideal S1x128 .f32) (q : Fin 128) :
    k1_pay5 (F := Ideal) x0 x1 acc (ix2 (0 : Fin 1) q)
      = acc (ix2 (0 : Fin 1) q)
        + ∑ p : Fin 10000, (x0 (ix2 p q) + x1 (ix2 (0 : Fin 1) q)) * (x0 (ix2 p q) + x1 (ix2 (0 : Fin 1) q)) := by
  unfold k1_pay5
  show shapeCast S1x128 acc _ (ix2 (0 : Fin 1) q) + shapeCast S1x128 _ shapeCasts_S128_S1x128 (ix2 (0 : Fin 1) q) = _
  rw [shapeCast_self]
  refine congrArg (acc (ix2 (0 : Fin 1) q) + ·) ?_
  refine (vec_as_row_entry _ q).trans ?_
  refine (column_total_entry _ q).trans ?_
  refine Finset.sum_congr rfl fun p _ => ?_
  show k1_pay3 (F := Ideal) x0 x1 (ix2 p q) * k1_pay3 (F := Ideal) x0 x1 (ix2 p q) = _
  rw [addedRow1_entry]

end AtIdeal1

section Region1

variable (V : (c : Dev nD) → (b : Ref sig .tc) → Buf (Elt Ideal) ((c : Thread nD τ).loc b)) (c : Dev nD)

/-- Where the windows sit at each grid point: the node features and the first output move one block of 10000 rows per
    point, the row and the two rows of totals stay. -/
theorem block_positions1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Entry (p, q) of the block of node features at point t is row 10000 t + p of the array. -/
theorem features1_block_entry (t : Fin cfg1.N) (p : Fin 10000) (q : Fin 128) (hlt : 10000 * t.val + p.val < 100000) :
    iblk1 V c 0 t (ix2 p q) = V c main_v47 (ix2 ⟨10000 * t.val + p.val, hlt⟩ q) := by
  obtain ⟨e0, e1, -⟩ := block_positions1 t
  unfold iblk1
  rw [View.read_apply]
  show V c main_v47 (((cfg1.win 0).blk t).view.emb (ix2 p q)) = _
  refine congrArg (V c main_v47) (funext fun a => Fin.ext ?_)
  match a with
  | ⟨0, _⟩ => show win1_0.index t (0 : Fin 2) * 10000 + 1 * p.val = 10000 * t.val + p.val; omega
  | ⟨1, _⟩ => show win1_0.index t (1 : Fin 2) * 128 + 1 * q.val = q.val; omega

/-- The row's block is the row itself at every point. -/
theorem row1_block_entry (t : Fin cfg1.N) (q : Fin 128) :
    iblk1 V c 1 t (ix2 (0 : Fin 1) q) = V c main_v48 (ix2 (0 : Fin 1) q) := by
  obtain ⟨-, -, e2, e3, -⟩ := block_positions1 t
  unfold iblk1
  rw [View.read_apply]
  show V c main_v48 (((cfg1.win 1).blk t).view.emb (ix2 (0 : Fin 1) q)) = _
  refine congrArg (V c main_v48) (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

/-! ### The first output: each point stores its block with the row added -/

/-- After every point the first output's buffer holds that point's block with the row added. -/
theorem rows1_at_point (t : Fin cfg1.N) :
    (outsAt1 V c t.val t.isLt).1 = k1_pay3 (iblk1 V c 0 t) (iblk1 V c 1 t) := by
  by_cases h0 : t.val % 10 = 0
  · rw [outsAt1_A V c t h0]
    dsimp only
    exact rows1_first (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)
  · rw [outsAt1_B V c t h0]
    dsimp only
    exact rows1_later (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2

/-- What point t writes back to the first output is block t of the array with the row added. -/
theorem rows1_written_back (t : Fin cfg1.N) :
    (dat1 V c).flushed 2 t
      = ((cfg1.win 2).blk t).view.read (Elt Ideal) (Spec.addRow (V c main_v47) (V c main_v48)) := by
  have hN : t.val < 10 := lt_of_lt_of_eq t.isLt (show cfg1.N = 10 from N_1)
  obtain ⟨-, -, -, -, e4, e5, -⟩ := block_positions1 t
  show (cfg1.win 2).cut (grid1.coords t) ((dat1 V c).after 2 t) = _
  rw [after1_2, rows1_at_point]
  funext j
  obtain ⟨p, q, rfl⟩ : ∃ (p : Fin 10000) (q : Fin 128), j = ix2 p q := ⟨j 0, j 1, eq_ix2 j⟩
  have hlt : 10000 * t.val + p.val < 100000 := by have := p.isLt; omega
  refine (addedRow1_entry (iblk1 V c 0 t) (iblk1 V c 1 t) p q).trans ?_
  rw [features1_block_entry V c t p q hlt, row1_block_entry V c t q, View.read_apply]
  have he : ((cfg1.win 2).blk t).view.emb (ix2 p q) = ix2 (⟨10000 * t.val + p.val, hlt⟩ : Fin 100000) q := by
    funext a; apply Fin.ext
    match a with
    | ⟨0, _⟩ => show win1_2.index t (0 : Fin 2) * 10000 + 1 * p.val = 10000 * t.val + p.val; omega
    | ⟨1, _⟩ => show win1_2.index t (1 : Fin 2) * 128 + 1 * q.val = q.val; omega
  rw [he]
  rfl

/-- A position of the 100000 x 128 array is in point t's block when each coordinate is in the block's range. -/
theorem mem_rows1_block (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v49_0).slice (win1_2.rect t)).set ↔ _
  rw [View.set_slice_whole, Rect.mem_set_unit]
  exact Iff.rfl

/-- The array of the first output after the run: the node features with the row added to every node's row. -/
theorem rows1_eq : (dat1 (F := Ideal) V c).arrAt 2 cfg1.N = Spec.addRow (V c main_v47) (V c main_v48) :=
  (dat1 V c).arrAt_eq_of_cover 2 (Spec.addRow (V c main_v47) (V c main_v48)) (fun t _ => rows1_written_back V c t) fun i => by
    have hi0 : (i 0).val < 100000 := (i 0).isLt
    have hi1 : (i 1).val < 128 := (i 1).isLt
    have hN : cfg1.N = 10 := N_1
    let t : Fin cfg1.N := ⟨(i 0).val / 10000, by rw [hN]; omega⟩
    obtain ⟨-, -, -, -, e4, e5, -⟩ := block_positions1 t
    have e4' : win1_2.index t (0 : Fin 2) = (i 0).val / 10000 := e4
    refine ⟨t, flush1_2 t, ?_⟩
    rw [mem_rows1_block]
    intro a
    match a with
    | ⟨0, _⟩ => show win1_2.index t (0 : Fin 2) * 10000 ≤ (i 0).val ∧ (i 0).val < win1_2.index t (0 : Fin 2) * 10000 + 10000; omega
    | ⟨1, _⟩ => show win1_2.index t (1 : Fin 2) * 128 ≤ (i 1).val ∧ (i 1).val < win1_2.index t (1 : Fin 2) * 128 + 128; omega

end Region1

section Pieces4
variable {F : FTy → Type} [FloatOps F]

/-- At the first point the first output's buffer is left holding the block with the row added. -/
theorem rows4_first (c : Dev nD) (i : grid4.Coords) (a1 : Memref sig .tc .vmem S10000x128 .f32) (h1 : a1.IsWhole)
    (a2 : Memref sig .tc .vmem S1x128 .f32) (h2 : a2.IsWhole) (a3 : Memref sig .tc .vmem S10000x128 .f32) (h3 : a3.IsWhole)
    (a4 : Memref sig .tc .vmem S1x128 .f32) (h4 : a4.IsWhole) (a5 : Memref sig .tc .vmem S1x128 .f32) (h5 : a5.IsWhole)
    (hc : cond4_0 i) (x0 : Vec F S10000x128 .f32) (x1 : Vec F S1x128 .f32) :
    out4_A_2 c i a1 h1 a2 h2 a3 h3 a4 h4 a5 h5 hc x0 x1 = k4_pay3 x0 x1 := by
  unfold out4_A_2
  rw [View.read_writes_eq_canon _ _ _ (cover4_A_2 c i a1 h1 a2 h2 a3 h3 a4 h4 a5 h5 hc x0 x1)]
  unfold kernelRun4_A
  dsimp only
  rw [View.canon_unit_zero (S := S10000x128) offsets_zero]
  simp only [View.readAt_eq_ld, h1.read_unread, h2.read_unread, View.ld_unit_zero (S := S10000x128) offsets_zero,
    View.ld_unit_zero (S := S1x128) offsets_zero]

/-- At the first point the totals' buffer is set to zero, read back, and left holding zero plus the block's column totals. -/
theorem totals4_first (c : Dev nD) (i : grid4.Coords) (a1 : Memref sig .tc .vmem S10000x128 .f32) (h1 : a1.IsWhole)
    (a2 : Memref sig .tc .vmem S1x128 .f32) (h2 : a2.IsWhole) (a3 : Memref sig .tc .vmem S10000x128 .f32) (h3 : a3.IsWhole)
    (a4 : Memref sig .tc .vmem S1x128 .f32) (h4 : a4.IsWhole) (a5 : Memref sig .tc .vmem S1x128 .f32) (h5 : a5.IsWhole)
    (hc : cond4_0 i) (x0 : Vec F S10000x128 .f32) (x1 : Vec F S1x128 .f32) :
    out4_A_3 c i a1 h1 a2 h2 a3 h3 a4 h4 a5 h5 hc x0 x1 = k4_pay4 x0 x1 k4_pay1 := by
  unfold out4_A_3
  rw [View.read_writes_eq_canon _ _ _ (cover4_A_3 c i a1 h1 a2 h2 a3 h3 a4 h4 a5 h5 hc x0 x1)]
  unfold kernelRun4_A
  dsimp only
  sl_unfold_words
  rw [View.canon_cons_unit_zero (S := S1x128) offsets_zero, View.readCov_unit_zero (S := S1x128) _ offsets_zero]
  simp only [View.readAt_eq_ld, h1.read_unread, h2.read_unread, View.ld_unit_zero (S := S10000x128) offsets_zero,
    View.ld_unit_zero (S := S1x128) offsets_zero]

/-- At the first point the buffer of totals of squares likewise: zero plus the block's column totals of squares. -/
theorem squares4_first (c : Dev nD) (i : grid4.Coords) (a1 : Memref sig .tc .vmem S10000x128 .f32) (h1 : a1.IsWhole)
    (a2 : Memref sig .tc .vmem S1x128 .f32) (h2 : a2.IsWhole) (a3 : Memref sig .tc .vmem S10000x128 .f32) (h3 : a3.IsWhole)
    (a4 : Memref sig .tc .vmem S1x128 .f32) (h4 : a4.IsWhole) (a5 : Memref sig .tc .vmem S1x128 .f32) (h5 : a5.IsWhole)
    (hc : cond4_0 i) (x0 : Vec F S10000x128 .f32) (x1 : Vec F S1x128 .f32) :
    out4_A_4 c i a1 h1 a2 h2 a3 h3 a4 h4 a5 h5 hc x0 x1 = k4_pay5 x0 x1 k4_pay2 := by
  unfold out4_A_4
  rw [View.read_writes_eq_canon _ _ _ (cover4_A_4 c i a1 h1 a2 h2 a3 h3 a4 h4 a5 h5 hc x0 x1)]
  unfold kernelRun4_A
  dsimp only
  sl_unfold_words
  rw [View.canon_cons_unit_zero (S := S1x128) offsets_zero, View.readCov_unit_zero (S := S1x128) _ offsets_zero]
  simp only [View.readAt_eq_ld, h1.read_unread, h2.read_unread, View.ld_unit_zero (S := S10000x128) offsets_zero,
    View.ld_unit_zero (S := S1x128) offsets_zero]

/-- At a later point the first output's buffer is again the block with the row added. -/
theorem rows4_later (c : Dev nD) (i : grid4.Coords) (a1 : Memref sig .tc .vmem S10000x128 .f32) (h1 : a1.IsWhole)
    (a2 : Memref sig .tc .vmem S1x128 .f32) (h2 : a2.IsWhole) (a3 : Memref sig .tc .vmem S10000x128 .f32) (h3 : a3.IsWhole)
    (a4 : Memref sig .tc .vmem S1x128 .f32) (h4 : a4.IsWhole) (a5 : Memref sig .tc .vmem S1x128 .f32) (h5 : a5.IsWhole)
    (hc : ¬cond4_0 i) (x0 : Vec F S10000x128 .f32) (x1 : Vec F S1x128 .f32) (xo3 xo4 : Vec F S1x128 .f32) :
    out4_B_2 c i a1 h1 a2 h2 a3 h3 a4 h4 a5 h5 hc x0 x1 xo3 xo4 = k4_pay3 x0 x1 := by
  unfold out4_B_2
  rw [View.read_writes_eq_canon _ _ _ (cover4_B_2 c i a1 h1 a2 h2 a3 h3 a4 h4 a5 h5 hc x0 x1 xo3 xo4)]
  unfold kernelRun4_B
  dsimp only
  rw [View.canon_unit_zero (S := S10000x128) offsets_zero]
  simp only [View.readAt_eq_ld, h1.read_unread, h2.read_unread, View.ld_unit_zero (S := S10000x128) offsets_zero,
    View.ld_unit_zero (S := S1x128) offsets_zero]

/-- At a later point the totals' buffer holds what it held plus the block's column totals. -/
theorem totals4_later (c : Dev nD) (i : grid4.Coords) (a1 : Memref sig .tc .vmem S10000x128 .f32) (h1 : a1.IsWhole)
    (a2 : Memref sig .tc .vmem S1x128 .f32) (h2 : a2.IsWhole) (a3 : Memref sig .tc .vmem S10000x128 .f32) (h3 : a3.IsWhole)
    (a4 : Memref sig .tc .vmem S1x128 .f32) (h4 : a4.IsWhole) (a5 : Memref sig .tc .vmem S1x128 .f32) (h5 : a5.IsWhole)
    (hc : ¬cond4_0 i) (x0 : Vec F S10000x128 .f32) (x1 : Vec F S1x128 .f32) (xo3 xo4 : Vec F S1x128 .f32) :
    out4_B_3 c i a1 h1 a2 h2 a3 h3 a4 h4 a5 h5 hc x0 x1 xo3 xo4 = k4_pay4 x0 x1 xo3 := by
  unfold out4_B_3
  rw [View.read_writes_eq_canon _ _ _ (cover4_B_3 c i a1 h1 a2 h2 a3 h3 a4 h4 a5 h5 hc x0 x1 xo3 xo4)]
  unfold kernelRun4_B
  dsimp only
  rw [View.canon_unit_zero (S := S1x128) offsets_zero]
  simp only [View.readAt_eq_ld, h1.read_unread, h2.read_unread, h4.read_unread, View.ld_unit_zero (S := S10000x128) offsets_zero,
    View.ld_unit_zero (S := S1x128) offsets_zero]

/-- At a later point the buffer of totals of squares holds what it held plus the block's column totals of squares. -/
theorem squares4_later (c : Dev nD) (i : grid4.Coords) (a1 : Memref sig .tc .vmem S10000x128 .f32) (h1 : a1.IsWhole)
    (a2 : Memref sig .tc .vmem S1x128 .f32) (h2 : a2.IsWhole) (a3 : Memref sig .tc .vmem S10000x128 .f32) (h3 : a3.IsWhole)
    (a4 : Memref sig .tc .vmem S1x128 .f32) (h4 : a4.IsWhole) (a5 : Memref sig .tc .vmem S1x128 .f32) (h5 : a5.IsWhole)
    (hc : ¬cond4_0 i) (x0 : Vec F S10000x128 .f32) (x1 : Vec F S1x128 .f32) (xo3 xo4 : Vec F S1x128 .f32) :
    out4_B_4 c i a1 h1 a2 h2 a3 h3 a4 h4 a5 h5 hc x0 x1 xo3 xo4 = k4_pay5 x0 x1 xo4 := by
  unfold out4_B_4
  rw [View.read_writes_eq_canon _ _ _ (cover4_B_4 c i a1 h1 a2 h2 a3 h3 a4 h4 a5 h5 hc x0 x1 xo3 xo4)]
  unfold kernelRun4_B
  dsimp only
  rw [View.canon_unit_zero (S := S1x128) offsets_zero]
  simp only [View.readAt_eq_ld, h1.read_unread, h2.read_unread, h5.read_unread, View.ld_unit_zero (S := S10000x128) offsets_zero,
    View.ld_unit_zero (S := S1x128) offsets_zero]

end Pieces4

section AtIdeal4

/-- The zero row. -/
theorem zeroTotals4_entry (j : S1x128.Idx) : k4_pay1 (F := Ideal) j = 0 := by
  unfold k4_pay1
  exact Ideal.ofBits_zero_f32

/-- The zero row of the totals of squares. -/
theorem zeroSquares4_entry (j : S1x128.Idx) : k4_pay2 (F := Ideal) j = 0 := by
  unfold k4_pay2
  exact Ideal.ofBits_zero_f32

/-- Entry (p, q) of the block with the row added: the block's entry plus the row's entry q. -/
theorem addedRow4_entry (x0 : Vec Ideal S10000x128 .f32) (x1 : Vec Ideal S1x128 .f32) (p : Fin 10000) (q : Fin 128) :
    k4_pay3 (F := Ideal) x0 x1 (ix2 p q) = x0 (ix2 p q) + x1 (ix2 (0 : Fin 1) q) := by
  unfold k4_pay3
  show shapeCast S10000x128 x0 _ (ix2 p q) + broadcastTo S10000x128 (shapeCast S1x128 x1 _) _ (ix2 p q) = _
  rw [shapeCast_self, shapeCast_self]
  exact congrArg (x0 (ix2 p q) + ·)
    (broadcastTo_apply x1 _ (ix2 p q) (ix2 (0 : Fin 1) q) (fun a => by fin_cases a <;> rfl))

/-- Entry q of the updated totals: the old entry plus the sum over the block's rows of the entries in column q. -/
theorem addTotals4_entry (x0 : Vec Ideal S10000x128 .f32) (x1 acc : Vec Ideal S1x128 .f32) (q : Fin 128) :
    k4_pay4 (F := Ideal) x0 x1 acc (ix2 (0 : Fin 1) q)
      = acc (ix2 (0 : Fin 1) q) + ∑ p : Fin 10000, (x0 (ix2 p q) + x1 (ix2 (0 : Fin 1) q)) := by
  unfold k4_pay4
  show shapeCast S1x128 acc _ (ix2 (0 : Fin 1) q) + shapeCast S1x128 _ shapeCasts_S128_S1x128 (ix2 (0 : Fin 1) q) = _
  rw [shapeCast_self]
  refine congrArg (acc (ix2 (0 : Fin 1) q) + ·) ?_
  refine (vec_as_row_entry _ q).trans ?_
  refine (column_total_entry _ q).trans ?_
  exact Finset.sum_congr rfl fun p _ => addedRow4_entry x0 x1 p q

/-- Entry q of the updated totals of squares: the old entry plus the sum over the block's rows of the squares in column q. -/
theorem addSquares4_entry (x0 : Vec Ideal S10000x128 .f32) (x1 acc : Vec Ideal S1x128 .f32) (q : Fin 128) :
    k4_pay5 (F := Ideal) x0 x1 acc (ix2 (0 : Fin 1) q)
      = acc (ix2 (0 : Fin 1) q)
        + ∑ p : Fin 10000, (x0 (ix2 p q) + x1 (ix2 (0 : Fin 1) q)) * (x0 (ix2 p q) + x1 (ix2 (0 : Fin 1) q)) := by
  unfold k4_pay5
  show shapeCast S1x128 acc _ (ix2 (0 : Fin 1) q) + shapeCast S1x128 _ shapeCasts_S128_S1x128 (ix2 (0 : Fin 1) q) = _
  rw [shapeCast_self]
  refine congrArg (acc (ix2 (0 : Fin 1) q) + ·) ?_
  refine (vec_as_row_entry _ q).trans ?_
  refine (column_total_entry _ q).trans ?_
  refine Finset.sum_congr rfl fun p _ => ?_
  show k4_pay3 (F := Ideal) x0 x1 (ix2 p q) * k4_pay3 (F := Ideal) x0 x1 (ix2 p q) = _
  rw [addedRow4_entry]

end AtIdeal4

section Region4

variable (V : (c : Dev nD) → (b : Ref sig .tc) → Buf (Elt Ideal) ((c : Thread nD τ).loc b)) (c : Dev nD)

/-- Where the windows sit at each grid point: the node features and the first output move one block of 10000 rows per
    point, the row and the two rows of totals stay. -/
theorem block_positions4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- Entry (p, q) of the block of node features at point t is row 10000 t + p of the array. -/
theorem features4_block_entry (t : Fin cfg4.N) (p : Fin 10000) (q : Fin 128) (hlt : 10000 * t.val + p.val < 100000) :
    iblk4 V c 0 t (ix2 p q) = V c main_v76 (ix2 ⟨10000 * t.val + p.val, hlt⟩ q) := by
  obtain ⟨e0, e1, -⟩ := block_positions4 t
  unfold iblk4
  rw [View.read_apply]
  show V c main_v76 (((cfg4.win 0).blk t).view.emb (ix2 p q)) = _
  refine congrArg (V c main_v76) (funext fun a => Fin.ext ?_)
  match a with
  | ⟨0, _⟩ => show win4_0.index t (0 : Fin 2) * 10000 + 1 * p.val = 10000 * t.val + p.val; omega
  | ⟨1, _⟩ => show win4_0.index t (1 : Fin 2) * 128 + 1 * q.val = q.val; omega

/-- The row's block is the row itself at every point. -/
theorem row4_block_entry (t : Fin cfg4.N) (q : Fin 128) :
    iblk4 V c 1 t (ix2 (0 : Fin 1) q) = V c main_v77 (ix2 (0 : Fin 1) q) := by
  obtain ⟨-, -, e2, e3, -⟩ := block_positions4 t
  unfold iblk4
  rw [View.read_apply]
  show V c main_v77 (((cfg4.win 1).blk t).view.emb (ix2 (0 : Fin 1) q)) = _
  refine congrArg (V c main_v77) (funext fun a => Fin.ext ?_)
  match a with
  | ⟨0, _⟩ => show win4_1.index t (0 : Fin 2) * 1 + 1 * 0 = 0; omega
  | ⟨1, _⟩ => show win4_1.index t (1 : Fin 2) * 128 + 1 * q.val = q.val; omega

/-! ### The first output: each point stores its block with the row added -/

/-- After every point the first output's buffer holds that point's block with the row added. -/
theorem rows4_at_point (t : Fin cfg4.N) :
    (outsAt4 V c t.val t.isLt).1 = k4_pay3 (iblk4 V c 0 t) (iblk4 V c 1 t) := by
  by_cases h0 : t.val % 10 = 0
  · rw [outsAt4_A V c t h0]
    dsimp only
    exact rows4_first (F := Ideal) c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t)
  · rw [outsAt4_B V c t h0]
    dsimp only
    exact rows4_later (F := Ideal) c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2

/-- What point t writes back to the first output is block t of the array with the row added. -/
theorem rows4_written_back (t : Fin cfg4.N) :
    (dat4 V c).flushed 2 t
      = ((cfg4.win 2).blk t).view.read (Elt Ideal) (Spec.addRow (V c main_v76) (V c main_v77)) := by
  have hN : t.val < 10 := lt_of_lt_of_eq t.isLt (show cfg4.N = 10 from N_4)
  obtain ⟨-, -, -, -, e4, e5, -⟩ := block_positions4 t
  show (cfg4.win 2).cut (grid4.coords t) ((dat4 V c).after 2 t) = _
  rw [after4_2, rows4_at_point]
  funext j
  obtain ⟨p, q, rfl⟩ : ∃ (p : Fin 10000) (q : Fin 128), j = ix2 p q := ⟨j 0, j 1, eq_ix2 j⟩
  have hlt : 10000 * t.val + p.val < 100000 := by have := p.isLt; omega
  refine (addedRow4_entry (iblk4 V c 0 t) (iblk4 V c 1 t) p q).trans ?_
  rw [features4_block_entry V c t p q hlt, row4_block_entry V c t q, View.read_apply]
  have he : ((cfg4.win 2).blk t).view.emb (ix2 p q) = ix2 (⟨10000 * t.val + p.val, hlt⟩ : Fin 100000) q := by
    funext a; apply Fin.ext
    match a with
    | ⟨0, _⟩ => show win4_2.index t (0 : Fin 2) * 10000 + 1 * p.val = 10000 * t.val + p.val; omega
    | ⟨1, _⟩ => show win4_2.index t (1 : Fin 2) * 128 + 1 * q.val = q.val; omega
  rw [he]
  rfl

/-- A position of the 100000 x 128 array is in point t's block when each coordinate is in the block's range. -/
theorem mem_rows4_block (t : Fin cfg4.N) (i : S100000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v78_0).slice (win4_2.rect t)).set ↔ _
  rw [View.set_slice_whole, Rect.mem_set_unit]
  exact Iff.rfl

/-- The array of the first output after the run: the node features with the row added to every node's row. -/
theorem rows4_eq : (dat4 (F := Ideal) V c).arrAt 2 cfg4.N = Spec.addRow (V c main_v76) (V c main_v77) :=
  (dat4 V c).arrAt_eq_of_cover 2 (Spec.addRow (V c main_v76) (V c main_v77)) (fun t _ => rows4_written_back V c t) fun i => by
    have hi0 : (i 0).val < 100000 := (i 0).isLt
    have hi1 : (i 1).val < 128 := (i 1).isLt
    have hN : cfg4.N = 10 := N_4
    let t : Fin cfg4.N := ⟨(i 0).val / 10000, by rw [hN]; omega⟩
    obtain ⟨-, -, -, -, e4, e5, -⟩ := block_positions4 t
    have e4' : win4_2.index t (0 : Fin 2) = (i 0).val / 10000 := e4
    refine ⟨t, flush4_2 t, ?_⟩
    rw [mem_rows4_block]
    intro a
    match a with
    | ⟨0, _⟩ => show win4_2.index t (0 : Fin 2) * 10000 ≤ (i 0).val ∧ (i 0).val < win4_2.index t (0 : Fin 2) * 10000 + 10000; omega
    | ⟨1, _⟩ => show win4_2.index t (1 : Fin 2) * 128 ≤ (i 1).val ∧ (i 1).val < win4_2.index t (1 : Fin 2) * 128 + 128; omega

end Region4

section Tiles

/-- Entry (s, q) of a 100000 x 128 array for any natural s: zero past the last row. -/
def rowOrZero (H : FVec Ideal S100000x128 .f32) (q : Fin 128) (s : ℕ) : EReal :=
  if h : s < 100000 then H (ix2 (⟨s, h⟩ : Fin 100000) q) else 0

/-- Below the last row it is the array's entry. -/
theorem rowOrZero_lt (H : FVec Ideal S100000x128 .f32) (q : Fin 128) (s : Fin 100000) :
    rowOrZero H q s.val = H (ix2 s q) := dif_pos s.isLt

/-- An entry of the array plus the row's entry in its column is the entry of the array with the row added. -/
theorem entry_of_parts (A : FVec Ideal S100000x128 .f32) (B : FVec Ideal S1x128 .f32) (q : Fin 128) (s : ℕ)
    (hlt : s < 100000) {x y : EReal} (hx : x = A (ix2 (⟨s, hlt⟩ : Fin 100000) q)) (hy : y = B (ix2 (0 : Fin 1) q)) :
    x + y = rowOrZero (Spec.addRow A B) q s := by
  subst hx hy
  unfold rowOrZero
  rw [dif_pos hlt]
  rfl

/-- Ten tiles of 10000 consecutive rows are all 100000 rows. -/
theorem ten_tiles (g : ℕ → EReal) :
    ∑ k ∈ Finset.range 10, ∑ p : Fin 10000, g (10000 * k + p.val) = ∑ s : Fin 100000, g s.val := by
  rw [← Fin.sum_univ_eq_sum_range (fun k => ∑ p : Fin 10000, g (10000 * k + p.val)) 10]
  exact Cert.TileSum.sum_tiles (m := 10) (n := 10000) (N := 100000) (by norm_num) (fun s => g s.val)

end Tiles

section Acc1

variable (V : (c : Dev nD) → (b : Ref sig .tc) → Buf (Elt Ideal) ((c : Thread nD τ).loc b)) (c : Dev nD)

/-! ### Output 3 -/

/-- After the first point the totals are those of the first tile of rows. -/
theorem totals1_at_first (t : Fin cfg1.N) (h0 : t.val % 10 = 0) (q : Fin 128) :
    (outsAt1 V c t.val t.isLt).2.1 (ix2 (0 : Fin 1) q)
      = ∑ p : Fin 10000, rowOrZero (Spec.addRow (V c main_v47) (V c main_v48)) q (10000 * t.val + p.val) := by
  have hN : t.val < 10 := lt_of_lt_of_eq t.isLt (show cfg1.N = 10 from N_1)
  rw [outsAt1_A V c t h0]
  dsimp only
  refine (congrFun (totals1_first (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)) (ix2 (0 : Fin 1) q)).trans ?_
  refine (addTotals1_entry (iblk1 V c 0 t) (iblk1 V c 1 t) (k1_pay1 (F := Ideal)) q).trans ?_
  rw [zeroTotals1_entry, zero_add]
  refine Finset.sum_congr rfl fun p _ => ?_
  have hlt : 10000 * t.val + p.val < 100000 := by have := p.isLt; omega
  exact (entry_of_parts (V c main_v47) (V c main_v48) q (10000 * t.val + p.val) hlt (features1_block_entry V c t p q hlt) (row1_block_entry V c t q))

/-- Each later point adds its tile's totals to what the point before left. -/
theorem totals1_step (t : Fin cfg1.N) (h0 : ¬t.val % 10 = 0) (q : Fin 128) :
    (outsAt1 V c t.val t.isLt).2.1 (ix2 (0 : Fin 1) q)
      = (outsAt1 V c (t.val - 1) (Nat.lt_of_le_of_lt (Nat.sub_le _ _) t.isLt)).2.1 (ix2 (0 : Fin 1) q) + ∑ p : Fin 10000, rowOrZero (Spec.addRow (V c main_v47) (V c main_v48)) q (10000 * t.val + p.val) := by
  have hN : t.val < 10 := lt_of_lt_of_eq t.isLt (show cfg1.N = 10 from N_1)
  rw [outsAt1_B V c t h0]
  dsimp only
  refine (congrFun (totals1_later (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2) (ix2 (0 : Fin 1) q)).trans ?_
  refine (addTotals1_entry (iblk1 V c 0 t) (iblk1 V c 1 t) (outsAt1 V c (t.val - 1) (Nat.lt_of_le_of_lt (Nat.sub_le _ _) t.isLt)).2.1 q).trans ?_
  refine congrArg ((outsAt1 V c (t.val - 1) (Nat.lt_of_le_of_lt (Nat.sub_le _ _) t.isLt)).2.1 (ix2 (0 : Fin 1) q) + ·) (Finset.sum_congr rfl fun p _ => ?_)
  have hlt : 10000 * t.val + p.val < 100000 := by have := p.isLt; omega
  exact (entry_of_parts (V c main_v47) (V c main_v48) q (10000 * t.val + p.val) hlt (features1_block_entry V c t p q hlt) (row1_block_entry V c t q))

/-- After point n the accumulator holds the total over the first n + 1 tiles of rows. -/
theorem totals1_upto (q : Fin 128) : ∀ (n : ℕ) (hn : n < cfg1.N),
    (outsAt1 V c n hn).2.1 (ix2 (0 : Fin 1) q)
      = ∑ k ∈ Finset.range (n + 1), ∑ p : Fin 10000, rowOrZero (Spec.addRow (V c main_v47) (V c main_v48)) q (10000 * k + p.val)
  | 0, hn => by
    rw [Finset.sum_range_one]
    exact totals1_at_first V c ⟨0, hn⟩ rfl q
  | n + 1, hn => by
    have hN : cfg1.N = 10 := N_1
    have hB : ¬(⟨n + 1, hn⟩ : Fin cfg1.N).val % 10 = 0 := by dsimp only; omega
    rw [Finset.sum_range_succ _ (n + 1)]
    refine (totals1_step V c ⟨n + 1, hn⟩ hB q).trans ?_
    show (outsAt1 V c n _).2.1 (ix2 (0 : Fin 1) q) + _ = _
    rw [totals1_upto q n (Nat.lt_of_succ_lt hn)]

/-- What a point writes back to output 3 is its accumulator, whatever row G that is entry by entry: the window's one
    block is the whole 1 x 128 array. -/
theorem totals1_written_back_of (G : FVec Ideal S1x128 .f32) (t : Fin cfg1.N)
    (hG : ∀ q : Fin 128, (outsAt1 V c t.val t.isLt).2.1 (ix2 (0 : Fin 1) q) = G (ix2 (0 : Fin 1) q)) :
    (dat1 V c).flushed 3 t = ((cfg1.win 3).blk t).view.read (Elt Ideal) G := by
  obtain ⟨-, -, -, -, -, -, e6, e7, e8, e9⟩ := block_positions1 t
  show (cfg1.win 3).cut (grid1.coords t) ((dat1 V c).after 3 t) = _
  rw [after1_3]
  funext j
  obtain ⟨z, q, rfl⟩ : ∃ (z : Fin 1) (q : Fin 128), j = ix2 z q := ⟨j 0, j 1, eq_ix2 j⟩
  obtain rfl : z = 0 := Subsingleton.elim _ _
  have he : ((cfg1.win 3).blk t).view.emb (ix2 (0 : Fin 1) q) = ix2 (0 : Fin 1) q := by
    funext a; apply Fin.ext
    match a with
    | ⟨0, _⟩ => show win1_3.index t (0 : Fin 2) * 1 + 1 * 0 = 0; omega
    | ⟨1, _⟩ => show win1_3.index t (1 : Fin 2) * 128 + 1 * q.val = q.val; omega
  rw [View.read_apply, he]
  exact hG q

/-- What the last point writes back: the totals over all rows. -/
theorem totals1_written_back (t : Fin cfg1.N) (hf : (cfg1.win 3).flush t = true) :
    (dat1 V c).flushed 3 t = ((cfg1.win 3).blk t).view.read (Elt Ideal) (Spec.colTotal (Spec.addRow (V c main_v47) (V c main_v48))) := by
  have hN : cfg1.N = 10 := N_1
  have h9 : t.val = 9 := by have := (flush1_3 t).mp hf; have := t.isLt; omega
  refine totals1_written_back_of V c (Spec.colTotal (Spec.addRow (V c main_v47) (V c main_v48))) t fun q => ?_
  unfold Spec.colTotal
  rw [totals1_upto V c q t.val t.isLt, h9, show (9 : ℕ) + 1 = 10 from rfl]
  have e := ten_tiles (fun s => rowOrZero (Spec.addRow (V c main_v47) (V c main_v48)) q s)
  beta_reduce at e
  refine e.trans (Finset.sum_congr rfl fun s _ => ?_)
  rw [rowOrZero_lt]

/-! ### Output 4 -/

/-- After the first point the totals of squares are those of the first tile of rows. -/
theorem squares1_at_first (t : Fin cfg1.N) (h0 : t.val % 10 = 0) (q : Fin 128) :
    (outsAt1 V c t.val t.isLt).2.2 (ix2 (0 : Fin 1) q)
      = ∑ p : Fin 10000, rowOrZero (Spec.addRow (V c main_v47) (V c main_v48)) q (10000 * t.val + p.val) * rowOrZero (Spec.addRow (V c main_v47) (V c main_v48)) q (10000 * t.val + p.val) := by
  have hN : t.val < 10 := lt_of_lt_of_eq t.isLt (show cfg1.N = 10 from N_1)
  rw [outsAt1_A V c t h0]
  dsimp only
  refine (congrFun (squares1_first (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)) (ix2 (0 : Fin 1) q)).trans ?_
  refine (addSquares1_entry (iblk1 V c 0 t) (iblk1 V c 1 t) (k1_pay2 (F := Ideal)) q).trans ?_
  rw [zeroSquares1_entry, zero_add]
  refine Finset.sum_congr rfl fun p _ => ?_
  have hlt : 10000 * t.val + p.val < 100000 := by have := p.isLt; omega
  exact congrArg₂ (· * ·) (entry_of_parts (V c main_v47) (V c main_v48) q (10000 * t.val + p.val) hlt (features1_block_entry V c t p q hlt) (row1_block_entry V c t q)) (entry_of_parts (V c main_v47) (V c main_v48) q (10000 * t.val + p.val) hlt (features1_block_entry V c t p q hlt) (row1_block_entry V c t q))

/-- Each later point adds its tile's totals of squares to what the point before left. -/
theorem squares1_step (t : Fin cfg1.N) (h0 : ¬t.val % 10 = 0) (q : Fin 128) :
    (outsAt1 V c t.val t.isLt).2.2 (ix2 (0 : Fin 1) q)
      = (outsAt1 V c (t.val - 1) (Nat.lt_of_le_of_lt (Nat.sub_le _ _) t.isLt)).2.2 (ix2 (0 : Fin 1) q) + ∑ p : Fin 10000, rowOrZero (Spec.addRow (V c main_v47) (V c main_v48)) q (10000 * t.val + p.val) * rowOrZero (Spec.addRow (V c main_v47) (V c main_v48)) q (10000 * t.val + p.val) := by
  have hN : t.val < 10 := lt_of_lt_of_eq t.isLt (show cfg1.N = 10 from N_1)
  rw [outsAt1_B V c t h0]
  dsimp only
  refine (congrFun (squares1_later (F := Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2) (ix2 (0 : Fin 1) q)).trans ?_
  refine (addSquares1_entry (iblk1 V c 0 t) (iblk1 V c 1 t) (outsAt1 V c (t.val - 1) (Nat.lt_of_le_of_lt (Nat.sub_le _ _) t.isLt)).2.2 q).trans ?_
  refine congrArg ((outsAt1 V c (t.val - 1) (Nat.lt_of_le_of_lt (Nat.sub_le _ _) t.isLt)).2.2 (ix2 (0 : Fin 1) q) + ·) (Finset.sum_congr rfl fun p _ => ?_)
  have hlt : 10000 * t.val + p.val < 100000 := by have := p.isLt; omega
  exact congrArg₂ (· * ·) (entry_of_parts (V c main_v47) (V c main_v48) q (10000 * t.val + p.val) hlt (features1_block_entry V c t p q hlt) (row1_block_entry V c t q)) (entry_of_parts (V c main_v47) (V c main_v48) q (10000 * t.val + p.val) hlt (features1_block_entry V c t p q hlt) (row1_block_entry V c t q))

/-- After point n the accumulator holds the total over the first n + 1 tiles of rows. -/
theorem squares1_upto (q : Fin 128) : ∀ (n : ℕ) (hn : n < cfg1.N),
    (outsAt1 V c n hn).2.2 (ix2 (0 : Fin 1) q)
      = ∑ k ∈ Finset.range (n + 1), ∑ p : Fin 10000, rowOrZero (Spec.addRow (V c main_v47) (V c main_v48)) q (10000 * k + p.val) * rowOrZero (Spec.addRow (V c main_v47) (V c main_v48)) q (10000 * k + p.val)
  | 0, hn => by
    rw [Finset.sum_range_one]
    exact squares1_at_first V c ⟨0, hn⟩ rfl q
  | n + 1, hn => by
    have hN : cfg1.N = 10 := N_1
    have hB : ¬(⟨n + 1, hn⟩ : Fin cfg1.N).val % 10 = 0 := by dsimp only; omega
    rw [Finset.sum_range_succ _ (n + 1)]
    refine (squares1_step V c ⟨n + 1, hn⟩ hB q).trans ?_
    show (outsAt1 V c n _).2.2 (ix2 (0 : Fin 1) q) + _ = _
    rw [squares1_upto q n (Nat.lt_of_succ_lt hn)]

/-- What a point writes back to output 4 is its accumulator, whatever row G that is entry by entry: the window's one
    block is the whole 1 x 128 array. -/
theorem squares1_written_back_of (G : FVec Ideal S1x128 .f32) (t : Fin cfg1.N)
    (hG : ∀ q : Fin 128, (outsAt1 V c t.val t.isLt).2.2 (ix2 (0 : Fin 1) q) = G (ix2 (0 : Fin 1) q)) :
    (dat1 V c).flushed 4 t = ((cfg1.win 4).blk t).view.read (Elt Ideal) G := by
  obtain ⟨-, -, -, -, -, -, e6, e7, e8, e9⟩ := block_positions1 t
  show (cfg1.win 4).cut (grid1.coords t) ((dat1 V c).after 4 t) = _
  rw [after1_4]
  funext j
  obtain ⟨z, q, rfl⟩ : ∃ (z : Fin 1) (q : Fin 128), j = ix2 z q := ⟨j 0, j 1, eq_ix2 j⟩
  obtain rfl : z = 0 := Subsingleton.elim _ _
  have he : ((cfg1.win 4).blk t).view.emb (ix2 (0 : Fin 1) q) = ix2 (0 : Fin 1) q := by
    funext a; apply Fin.ext
    match a with
    | ⟨0, _⟩ => show win1_4.index t (0 : Fin 2) * 1 + 1 * 0 = 0; omega
    | ⟨1, _⟩ => show win1_4.index t (1 : Fin 2) * 128 + 1 * q.val = q.val; omega
  rw [View.read_apply, he]
  exact hG q

/-- What the last point writes back: the totals over all rows. -/
theorem squares1_written_back (t : Fin cfg1.N) (hf : (cfg1.win 4).flush t = true) :
    (dat1 V c).flushed 4 t = ((cfg1.win 4).blk t).view.read (Elt Ideal) (Spec.colTotalSq (Spec.addRow (V c main_v47) (V c main_v48))) := by
  have hN : cfg1.N = 10 := N_1
  have h9 : t.val = 9 := by have := (flush1_4 t).mp hf; have := t.isLt; omega
  refine squares1_written_back_of V c (Spec.colTotalSq (Spec.addRow (V c main_v47) (V c main_v48))) t fun q => ?_
  unfold Spec.colTotalSq
  rw [squares1_upto V c q t.val t.isLt, h9, show (9 : ℕ) + 1 = 10 from rfl]
  have e := ten_tiles (fun s => rowOrZero (Spec.addRow (V c main_v47) (V c main_v48)) q s * rowOrZero (Spec.addRow (V c main_v47) (V c main_v48)) q s)
  beta_reduce at e
  refine e.trans (Finset.sum_congr rfl fun s _ => ?_)
  rw [rowOrZero_lt]

end Acc1

section Acc4

variable (V : (c : Dev nD) → (b : Ref sig .tc) → Buf (Elt Ideal) ((c : Thread nD τ).loc b)) (c : Dev nD)

/-! ### Output 3 -/

/-- After the first point the totals are those of the first tile of rows. -/
theorem totals4_at_first (t : Fin cfg4.N) (h0 : t.val % 10 = 0) (q : Fin 128) :
    (outsAt4 V c t.val t.isLt).2.1 (ix2 (0 : Fin 1) q)
      = ∑ p : Fin 10000, rowOrZero (Spec.addRow (V c main_v76) (V c main_v77)) q (10000 * t.val + p.val) := by
  have hN : t.val < 10 := lt_of_lt_of_eq t.isLt (show cfg4.N = 10 from N_4)
  rw [outsAt4_A V c t h0]
  dsimp only
  refine (congrFun (totals4_first (F := Ideal) c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t)) (ix2 (0 : Fin 1) q)).trans ?_
  refine (addTotals4_entry (iblk4 V c 0 t) (iblk4 V c 1 t) (k4_pay1 (F := Ideal)) q).trans ?_
  rw [zeroTotals4_entry, zero_add]
  refine Finset.sum_congr rfl fun p _ => ?_
  have hlt : 10000 * t.val + p.val < 100000 := by have := p.isLt; omega
  exact (entry_of_parts (V c main_v76) (V c main_v77) q (10000 * t.val + p.val) hlt (features4_block_entry V c t p q hlt) (row4_block_entry V c t q))

/-- Each later point adds its tile's totals to what the point before left. -/
theorem totals4_step (t : Fin cfg4.N) (h0 : ¬t.val % 10 = 0) (q : Fin 128) :
    (outsAt4 V c t.val t.isLt).2.1 (ix2 (0 : Fin 1) q)
      = (outsAt4 V c (t.val - 1) (Nat.lt_of_le_of_lt (Nat.sub_le _ _) t.isLt)).2.1 (ix2 (0 : Fin 1) q) + ∑ p : Fin 10000, rowOrZero (Spec.addRow (V c main_v76) (V c main_v77)) q (10000 * t.val + p.val) := by
  have hN : t.val < 10 := lt_of_lt_of_eq t.isLt (show cfg4.N = 10 from N_4)
  rw [outsAt4_B V c t h0]
  dsimp only
  refine (congrFun (totals4_later (F := Ideal) c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2) (ix2 (0 : Fin 1) q)).trans ?_
  refine (addTotals4_entry (iblk4 V c 0 t) (iblk4 V c 1 t) (outsAt4 V c (t.val - 1) (Nat.lt_of_le_of_lt (Nat.sub_le _ _) t.isLt)).2.1 q).trans ?_
  refine congrArg ((outsAt4 V c (t.val - 1) (Nat.lt_of_le_of_lt (Nat.sub_le _ _) t.isLt)).2.1 (ix2 (0 : Fin 1) q) + ·) (Finset.sum_congr rfl fun p _ => ?_)
  have hlt : 10000 * t.val + p.val < 100000 := by have := p.isLt; omega
  exact (entry_of_parts (V c main_v76) (V c main_v77) q (10000 * t.val + p.val) hlt (features4_block_entry V c t p q hlt) (row4_block_entry V c t q))

/-- After point n the accumulator holds the total over the first n + 1 tiles of rows. -/
theorem totals4_upto (q : Fin 128) : ∀ (n : ℕ) (hn : n < cfg4.N),
    (outsAt4 V c n hn).2.1 (ix2 (0 : Fin 1) q)
      = ∑ k ∈ Finset.range (n + 1), ∑ p : Fin 10000, rowOrZero (Spec.addRow (V c main_v76) (V c main_v77)) q (10000 * k + p.val)
  | 0, hn => by
    rw [Finset.sum_range_one]
    exact totals4_at_first V c ⟨0, hn⟩ rfl q
  | n + 1, hn => by
    have hN : cfg4.N = 10 := N_4
    have hB : ¬(⟨n + 1, hn⟩ : Fin cfg4.N).val % 10 = 0 := by dsimp only; omega
    rw [Finset.sum_range_succ _ (n + 1)]
    refine (totals4_step V c ⟨n + 1, hn⟩ hB q).trans ?_
    show (outsAt4 V c n _).2.1 (ix2 (0 : Fin 1) q) + _ = _
    rw [totals4_upto q n (Nat.lt_of_succ_lt hn)]

/-- What a point writes back to output 3 is its accumulator, whatever row G that is entry by entry: the window's one
    block is the whole 1 x 128 array. -/
theorem totals4_written_back_of (G : FVec Ideal S1x128 .f32) (t : Fin cfg4.N)
    (hG : ∀ q : Fin 128, (outsAt4 V c t.val t.isLt).2.1 (ix2 (0 : Fin 1) q) = G (ix2 (0 : Fin 1) q)) :
    (dat4 V c).flushed 3 t = ((cfg4.win 3).blk t).view.read (Elt Ideal) G := by
  obtain ⟨-, -, -, -, -, -, e6, e7, e8, e9⟩ := block_positions4 t
  show (cfg4.win 3).cut (grid4.coords t) ((dat4 V c).after 3 t) = _
  rw [after4_3]
  funext j
  obtain ⟨z, q, rfl⟩ : ∃ (z : Fin 1) (q : Fin 128), j = ix2 z q := ⟨j 0, j 1, eq_ix2 j⟩
  obtain rfl : z = 0 := Subsingleton.elim _ _
  have he : ((cfg4.win 3).blk t).view.emb (ix2 (0 : Fin 1) q) = ix2 (0 : Fin 1) q := by
    funext a; apply Fin.ext
    match a with
    | ⟨0, _⟩ => show win4_3.index t (0 : Fin 2) * 1 + 1 * 0 = 0; omega
    | ⟨1, _⟩ => show win4_3.index t (1 : Fin 2) * 128 + 1 * q.val = q.val; omega
  rw [View.read_apply, he]
  exact hG q

/-- What the last point writes back: the totals over all rows. -/
theorem totals4_written_back (t : Fin cfg4.N) (hf : (cfg4.win 3).flush t = true) :
    (dat4 V c).flushed 3 t = ((cfg4.win 3).blk t).view.read (Elt Ideal) (Spec.colTotal (Spec.addRow (V c main_v76) (V c main_v77))) := by
  have hN : cfg4.N = 10 := N_4
  have h9 : t.val = 9 := by have := (flush4_3 t).mp hf; have := t.isLt; omega
  refine totals4_written_back_of V c (Spec.colTotal (Spec.addRow (V c main_v76) (V c main_v77))) t fun q => ?_
  unfold Spec.colTotal
  rw [totals4_upto V c q t.val t.isLt, h9, show (9 : ℕ) + 1 = 10 from rfl]
  have e := ten_tiles (fun s => rowOrZero (Spec.addRow (V c main_v76) (V c main_v77)) q s)
  beta_reduce at e
  refine e.trans (Finset.sum_congr rfl fun s _ => ?_)
  rw [rowOrZero_lt]

/-! ### Output 4 -/

/-- After the first point the totals of squares are those of the first tile of rows. -/
theorem squares4_at_first (t : Fin cfg4.N) (h0 : t.val % 10 = 0) (q : Fin 128) :
    (outsAt4 V c t.val t.isLt).2.2 (ix2 (0 : Fin 1) q)
      = ∑ p : Fin 10000, rowOrZero (Spec.addRow (V c main_v76) (V c main_v77)) q (10000 * t.val + p.val) * rowOrZero (Spec.addRow (V c main_v76) (V c main_v77)) q (10000 * t.val + p.val) := by
  have hN : t.val < 10 := lt_of_lt_of_eq t.isLt (show cfg4.N = 10 from N_4)
  rw [outsAt4_A V c t h0]
  dsimp only
  refine (congrFun (squares4_first (F := Ideal) c (grid4.coords t) (ms4_0 t) (hs4_0 t) (ms4_1 t) (hs4_1 t) (ms4_2 t) (hs4_2 t) (ms4_3 t) (hs4_3 t) (ms4_4 t) (hs4_4 t) ((hcond4_0 t).mpr h0) (iblk4 V c 0 t) (iblk4 V c 1 t)) (ix2 (0 : Fin 1) q)).trans ?_
  refine (addSquares4_entry (iblk4 V c 0 t) (iblk4 V c 1 t) (k4_pay2 (F := Ideal)) q).trans ?_
  rw [zeroSquares4_entry, zero_add]
  refine Finset.sum_congr rfl fun p _ => ?_
  have hlt : 10000 * t.val + p.val < 100000 := by have := p.isLt; omega
  exact congrArg₂ (· * ·) (entry_of_parts (V c main_v76) (V c main_v77) q (10000 * t.val + p.val) hlt (features4_block_entry V c t p q hlt) (row4_block_entry V c t q)) (entry_of_parts (V c main_v76) (V c main_v77) q (10000 * t.val + p.val) hlt (features4_block_entry V c t p q hlt) (row4_block_entry V c t q))

/-- Each later point adds its tile's totals of squares to what the point before left. -/
theorem squares4_step (t : Fin cfg4.N) (h0 : ¬t.val % 10 = 0) (q : Fin 128) :
    (outsAt4 V c t.val t.isLt).2.2 (ix2 (0 : Fin 1) q)
      = (outsAt4 V c (t.val - 1) (Nat.lt_of_le_of_lt (Nat.sub_le _ _) t.isLt)).2.2 (ix2 (0 : Fin 1) q) + ∑ p : Fin 10000, rowOrZero (Spec.addRow (V c main_v76) (V c main_v77)) q (10000 * t.val + p.val) * rowOrZero (Spec.addRow (V c main_v76) (V c main_v77)) q (10000 * t.val + p.val) := by
  have hN : t.val < 10 := lt_of_lt_of_eq t.isLt (show cfg4.N = 10 from N_4)
  rw [outsAt4_B V c t h0]
  dsimp only
  refine (congrFun (squares4_later (F := Ideal) c (grid4.coords t) (ms4_0 t) (hs4_0 t) (ms4_1 t) (hs4_1 t) (ms4_2 t) (hs4_2 t) (ms4_3 t) (hs4_3 t) (ms4_4 t) (hs4_4 t) (fun h => h0 ((hcond4_0 t).mp h)) (iblk4 V c 0 t) (iblk4 V c 1 t) (outsAt4 V c (t.val - 1) (Nat.lt_of_le_of_lt (Nat.sub_le _ _) t.isLt)).2.1 (outsAt4 V c (t.val - 1) (Nat.lt_of_le_of_lt (Nat.sub_le _ _) t.isLt)).2.2) (ix2 (0 : Fin 1) q)).trans ?_
  refine (addSquares4_entry (iblk4 V c 0 t) (iblk4 V c 1 t) (outsAt4 V c (t.val - 1) (Nat.lt_of_le_of_lt (Nat.sub_le _ _) t.isLt)).2.2 q).trans ?_
  refine congrArg ((outsAt4 V c (t.val - 1) (Nat.lt_of_le_of_lt (Nat.sub_le _ _) t.isLt)).2.2 (ix2 (0 : Fin 1) q) + ·) (Finset.sum_congr rfl fun p _ => ?_)
  have hlt : 10000 * t.val + p.val < 100000 := by have := p.isLt; omega
  exact congrArg₂ (· * ·) (entry_of_parts (V c main_v76) (V c main_v77) q (10000 * t.val + p.val) hlt (features4_block_entry V c t p q hlt) (row4_block_entry V c t q)) (entry_of_parts (V c main_v76) (V c main_v77) q (10000 * t.val + p.val) hlt (features4_block_entry V c t p q hlt) (row4_block_entry V c t q))

/-- After point n the accumulator holds the total over the first n + 1 tiles of rows. -/
theorem squares4_upto (q : Fin 128) : ∀ (n : ℕ) (hn : n < cfg4.N),
    (outsAt4 V c n hn).2.2 (ix2 (0 : Fin 1) q)
      = ∑ k ∈ Finset.range (n + 1), ∑ p : Fin 10000, rowOrZero (Spec.addRow (V c main_v76) (V c main_v77)) q (10000 * k + p.val) * rowOrZero (Spec.addRow (V c main_v76) (V c main_v77)) q (10000 * k + p.val)
  | 0, hn => by
    rw [Finset.sum_range_one]
    exact squares4_at_first V c ⟨0, hn⟩ rfl q
  | n + 1, hn => by
    have hN : cfg4.N = 10 := N_4
    have hB : ¬(⟨n + 1, hn⟩ : Fin cfg4.N).val % 10 = 0 := by dsimp only; omega
    rw [Finset.sum_range_succ _ (n + 1)]
    refine (squares4_step V c ⟨n + 1, hn⟩ hB q).trans ?_
    show (outsAt4 V c n _).2.2 (ix2 (0 : Fin 1) q) + _ = _
    rw [squares4_upto q n (Nat.lt_of_succ_lt hn)]

/-- What a point writes back to output 4 is its accumulator, whatever row G that is entry by entry: the window's one
    block is the whole 1 x 128 array. -/
theorem squares4_written_back_of (G : FVec Ideal S1x128 .f32) (t : Fin cfg4.N)
    (hG : ∀ q : Fin 128, (outsAt4 V c t.val t.isLt).2.2 (ix2 (0 : Fin 1) q) = G (ix2 (0 : Fin 1) q)) :
    (dat4 V c).flushed 4 t = ((cfg4.win 4).blk t).view.read (Elt Ideal) G := by
  obtain ⟨-, -, -, -, -, -, e6, e7, e8, e9⟩ := block_positions4 t
  show (cfg4.win 4).cut (grid4.coords t) ((dat4 V c).after 4 t) = _
  rw [after4_4]
  funext j
  obtain ⟨z, q, rfl⟩ : ∃ (z : Fin 1) (q : Fin 128), j = ix2 z q := ⟨j 0, j 1, eq_ix2 j⟩
  obtain rfl : z = 0 := Subsingleton.elim _ _
  have he : ((cfg4.win 4).blk t).view.emb (ix2 (0 : Fin 1) q) = ix2 (0 : Fin 1) q := by
    funext a; apply Fin.ext
    match a with
    | ⟨0, _⟩ => show win4_4.index t (0 : Fin 2) * 1 + 1 * 0 = 0; omega
    | ⟨1, _⟩ => show win4_4.index t (1 : Fin 2) * 128 + 1 * q.val = q.val; omega
  rw [View.read_apply, he]
  exact hG q

/-- What the last point writes back: the totals over all rows. -/
theorem squares4_written_back (t : Fin cfg4.N) (hf : (cfg4.win 4).flush t = true) :
    (dat4 V c).flushed 4 t = ((cfg4.win 4).blk t).view.read (Elt Ideal) (Spec.colTotalSq (Spec.addRow (V c main_v76) (V c main_v77))) := by
  have hN : cfg4.N = 10 := N_4
  have h9 : t.val = 9 := by have := (flush4_4 t).mp hf; have := t.isLt; omega
  refine squares4_written_back_of V c (Spec.colTotalSq (Spec.addRow (V c main_v76) (V c main_v77))) t fun q => ?_
  unfold Spec.colTotalSq
  rw [squares4_upto V c q t.val t.isLt, h9, show (9 : ℕ) + 1 = 10 from rfl]
  have e := ten_tiles (fun s => rowOrZero (Spec.addRow (V c main_v76) (V c main_v77)) q s * rowOrZero (Spec.addRow (V c main_v76) (V c main_v77)) q s)
  beta_reduce at e
  refine e.trans (Finset.sum_congr rfl fun s _ => ?_)
  rw [rowOrZero_lt]

end Acc4

end Totals

section Statements

variable (V : (c : Dev nD) → (b : Ref sig .tc) → Buf (Elt Ideal) ((c : Thread nD τ).loc b)) (c : Dev nD)

/-- The array of column totals after the run of region 1: one block for the whole grid, written back after the last
    point, when it holds the totals over all ten tiles of rows. -/
theorem stats1_tot : (dat1 (F := Ideal) V c).arrAt 3 cfg1.N = Spec.colTotal (Spec.addRow (V c main_v47) (V c main_v48)) :=
  (dat1 V c).arrAt_eq_of_cover 3 (Spec.colTotal (Spec.addRow (V c main_v47) (V c main_v48))) (Totals.totals1_written_back V c) fun i => by
    obtain ⟨-, -, -, -, -, -, e6, e7, e8, e9⟩ := Totals.block_positions1 t1_9
    have hi0 : (i 0).val < 1 := (i 0).isLt
    have hi1 : (i 1).val < 128 := (i 1).isLt
    refine ⟨t1_9, (flush1_3 t1_9).mpr rfl, ?_⟩
    show i ∈ ((View.whole main_v49_1).slice (win1_3.rect t1_9)).set
    rw [View.set_slice_whole, Rect.mem_set_unit]
    intro a
    match a with
    | ⟨0, _⟩ => show win1_3.index t1_9 (0 : Fin 2) * 1 ≤ (i 0).val ∧ (i 0).val < win1_3.index t1_9 (0 : Fin 2) * 1 + 1; omega
    | ⟨1, _⟩ => show win1_3.index t1_9 (1 : Fin 2) * 128 ≤ (i 1).val ∧ (i 1).val < win1_3.index t1_9 (1 : Fin 2) * 128 + 128; omega

/-- The array of column totals of squares after the run of region 1. -/
theorem stats1_sq : (dat1 (F := Ideal) V c).arrAt 4 cfg1.N = Spec.colTotalSq (Spec.addRow (V c main_v47) (V c main_v48)) :=
  (dat1 V c).arrAt_eq_of_cover 4 (Spec.colTotalSq (Spec.addRow (V c main_v47) (V c main_v48))) (Totals.squares1_written_back V c) fun i => by
    obtain ⟨-, -, -, -, -, -, e6, e7, e8, e9⟩ := Totals.block_positions1 t1_9
    have hi0 : (i 0).val < 1 := (i 0).isLt
    have hi1 : (i 1).val < 128 := (i 1).isLt
    refine ⟨t1_9, (flush1_4 t1_9).mpr rfl, ?_⟩
    show i ∈ ((View.whole main_v49_2).slice (win1_4.rect t1_9)).set
    rw [View.set_slice_whole, Rect.mem_set_unit]
    intro a
    match a with
    | ⟨0, _⟩ => show win1_4.index t1_9 (0 : Fin 2) * 1 ≤ (i 0).val ∧ (i 0).val < win1_4.index t1_9 (0 : Fin 2) * 1 + 1; omega
    | ⟨1, _⟩ => show win1_4.index t1_9 (1 : Fin 2) * 128 ≤ (i 1).val ∧ (i 1).val < win1_4.index t1_9 (1 : Fin 2) * 128 + 128; omega

/-- The array of column totals after the run of region 4: one block for the whole grid, written back after the last
    point, when it holds the totals over all ten tiles of rows. -/
theorem stats4_tot : (dat4 (F := Ideal) V c).arrAt 3 cfg4.N = Spec.colTotal (Spec.addRow (V c main_v76) (V c main_v77)) :=
  (dat4 V c).arrAt_eq_of_cover 3 (Spec.colTotal (Spec.addRow (V c main_v76) (V c main_v77))) (Totals.totals4_written_back V c) fun i => by
    obtain ⟨-, -, -, -, -, -, e6, e7, e8, e9⟩ := Totals.block_positions4 t4_9
    have hi0 : (i 0).val < 1 := (i 0).isLt
    have hi1 : (i 1).val < 128 := (i 1).isLt
    refine ⟨t4_9, (flush4_3 t4_9).mpr rfl, ?_⟩
    show i ∈ ((View.whole main_v78_1).slice (win4_3.rect t4_9)).set
    rw [View.set_slice_whole, Rect.mem_set_unit]
    intro a
    match a with
    | ⟨0, _⟩ => show win4_3.index t4_9 (0 : Fin 2) * 1 ≤ (i 0).val ∧ (i 0).val < win4_3.index t4_9 (0 : Fin 2) * 1 + 1; omega
    | ⟨1, _⟩ => show win4_3.index t4_9 (1 : Fin 2) * 128 ≤ (i 1).val ∧ (i 1).val < win4_3.index t4_9 (1 : Fin 2) * 128 + 128; omega

/-- The array of column totals of squares after the run of region 4. -/
theorem stats4_sq : (dat4 (F := Ideal) V c).arrAt 4 cfg4.N = Spec.colTotalSq (Spec.addRow (V c main_v76) (V c main_v77)) :=
  (dat4 V c).arrAt_eq_of_cover 4 (Spec.colTotalSq (Spec.addRow (V c main_v76) (V c main_v77))) (Totals.squares4_written_back V c) fun i => by
    obtain ⟨-, -, -, -, -, -, e6, e7, e8, e9⟩ := Totals.block_positions4 t4_9
    have hi0 : (i 0).val < 1 := (i 0).isLt
    have hi1 : (i 1).val < 128 := (i 1).isLt
    refine ⟨t4_9, (flush4_4 t4_9).mpr rfl, ?_⟩
    show i ∈ ((View.whole main_v78_2).slice (win4_4.rect t4_9)).set
    rw [View.set_slice_whole, Rect.mem_set_unit]
    intro a
    match a with
    | ⟨0, _⟩ => show win4_4.index t4_9 (0 : Fin 2) * 1 ≤ (i 0).val ∧ (i 0).val < win4_4.index t4_9 (0 : Fin 2) * 1 + 1; omega
    | ⟨1, _⟩ => show win4_4.index t4_9 (1 : Fin 2) * 128 ≤ (i 1).val ∧ (i 1).val < win4_4.index t4_9 (1 : Fin 2) * 128 + 128; omega

end Statements

end Cert.KernelIdeal.Regions
end
-- ==== Proof.TotalsRows.lean ====
/-
  The third window of the two bias-and-totals passes: the rows with the bias row added.

  Each of the two passes walks ten blocks of 10000 rows.  At every block, whichever of its two control cases applies,
  the body stores whole to the third window's block the sum of the first window's block (10000 rows of 128 entries)
  and the second window's one row of 128 entries laid over those rows.  The first and third windows' block at a grid
  point is that point's stretch of rows; the second window's block never moves.  So the third window's array ends
  holding, at row r and column q, the first array's entry plus the row's entry in column q: block r / 10000 covers row
  r, and what each block writes back is that block of the row-added array.
-/
import proofs.«113069_j27908697489551_1_alg».proof.Proof.Spec
import proofs.«113069_j27908697489551_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Regions

open Cert.KernelIdeal Cert.KernelIdeal.Gen Idealize.ShloMosaic Idealize.ShloMosaic.ValueIdx
open Idealize.ShloMosaic.TcCoe Idealize.SL.Sem
open Idealize.ShloMosaic.Pipeline (Dat)

/-- The zero offsets of a whole-block load or store, however they are spelt. -/
theorem zeroOffsets : (![0, 0] : Fin 2 → Nat) = fun _ => 0 := funext fun a => by fin_cases a <;> rfl

/-- A sum of an entry and a row's entry, read where the row-added array's index says. -/
theorem addRow_at (a : FVec Ideal S100000x128 .f32) (r : FVec Ideal S1x128 .f32) (i i' : S100000x128.Idx) (k : S1x128.Idx)
    (hi : i' = i) (hk : k = ix2 (0 : Fin 1) (i 1)) : a i' + r k = Spec.addRow a r i := by
  subst hi hk; rfl

/-! ## Region 1: the rows with the row of window 1 added -/

section Generic
variable {F : FTy → Type} [FloatOps F]

/-- At the first grid point the body leaves, in the third window's buffer, the input block with the row added: its
    one covering store's payload, whose loads read the whole input buffers. -/
theorem stored1_first (c : Dev nD) (i : grid1.Coords) (a1 : Memref sig .tc .vmem S10000x128 .f32) (h1 : a1.IsWhole)
    (a2 : Memref sig .tc .vmem S1x128 .f32) (h2 : a2.IsWhole) (a3 : Memref sig .tc .vmem S10000x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S10000x128 .f32) (x1 : Vec F S1x128 .f32) :
    out1_A_2 c i a1 h1 a2 h2 a3 h3 a4 h4 a5 h5 hc x0 x1 = k1_pay3 x0 x1 := by
  unfold out1_A_2
  rw [View.read_writes_eq_canon _ _ _ (cover1_A_2 c i a1 h1 a2 h2 a3 h3 a4 h4 a5 h5 hc x0 x1)]
  unfold kernelRun1_A
  dsimp only
  rw [View.canon_unit_zero zeroOffsets]
  simp only [View.readAt_eq_ld, h1.read_unread, h2.read_unread, View.ld_unit_zero (S := S10000x128) zeroOffsets,
    View.ld_unit_zero (S := S1x128) zeroOffsets]

/-- At every later grid point the body leaves the same, whatever the two carried buffers hold. -/
theorem stored1_later (c : Dev nD) (i : grid1.Coords) (a1 : Memref sig .tc .vmem S10000x128 .f32) (h1 : a1.IsWhole)
    (a2 : Memref sig .tc .vmem S1x128 .f32) (h2 : a2.IsWhole) (a3 : Memref sig .tc .vmem S10000x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S10000x128 .f32) (x1 : Vec F S1x128 .f32) (xo3 xo4 : Vec F S1x128 .f32) :
    out1_B_2 c i a1 h1 a2 h2 a3 h3 a4 h4 a5 h5 hc x0 x1 xo3 xo4 = k1_pay3 x0 x1 := by
  unfold out1_B_2
  rw [View.read_writes_eq_canon _ _ _ (cover1_B_2 c i a1 h1 a2 h2 a3 h3 a4 h4 a5 h5 hc x0 x1 xo3 xo4)]
  unfold kernelRun1_B
  dsimp only
  rw [View.canon_unit_zero zeroOffsets]
  simp only [View.readAt_eq_ld, h1.read_unread, h2.read_unread, View.ld_unit_zero (S := S10000x128) zeroOffsets,
    View.ld_unit_zero (S := S1x128) zeroOffsets]

/-- The payload is the block plus the row laid over its rows. -/
theorem payload1_eq (x : Vec F S10000x128 .f32) (b : Vec F S1x128 .f32) :
    k1_pay3 x b = addf x (broadcastTo S10000x128 b broadcasts_S1x128_S10000x128) := by
  unfold k1_pay3
  simp only [shapeCast_self]

variable (V : (c : Dev nD) → (b : Ref sig .tc) → Buf (Elt F) ((c : Thread nD τ).loc b)) (c : Dev nD)

/-- So after every grid point the third window's buffer holds the payload of that point's two input blocks. -/
theorem stored1_at_point (t : Fin cfg1.N) :
    (outsAt1 V c t.val t.isLt).1 = k1_pay3 (iblk1 V c 0 t) (iblk1 V c 1 t) := by
  by_cases h0 : t.val % 10 = 0
  · rw [outsAt1_A V c t h0]
    dsimp only
    exact stored1_first c (grid1.coords t) (ms1_0 t) (hs1_0 t) (ms1_1 t) (hs1_1 t) (ms1_2 t) (hs1_2 t) (ms1_3 t) (hs1_3 t)
      (ms1_4 t) (hs1_4 t) ((hcond1_0 t).mpr h0) (iblk1 V c 0 t) (iblk1 V c 1 t)
  · rw [outsAt1_B V c t h0]
    dsimp only
    exact stored1_later c (grid1.coords t) (ms1_0 t) (hs1_0 t) (ms1_1 t) (hs1_1 t) (ms1_2 t) (hs1_2 t) (ms1_3 t) (hs1_3 t)
      (ms1_4 t) (hs1_4 t) (fun h => h0 ((hcond1_0 t).mp h)) (iblk1 V c 0 t) (iblk1 V c 1 t)
      (outsAt1 V c (t.val - 1) (Nat.lt_of_le_of_lt (Nat.sub_le _ _) t.isLt)).2.1
      (outsAt1 V c (t.val - 1) (Nat.lt_of_le_of_lt (Nat.sub_le _ _) t.isLt)).2.2

end Generic

/-- Entry (p, q) of the payload: the block's entry plus the row's entry in column q. -/
theorem payload1_entry (x : Vec Ideal S10000x128 .f32) (b : Vec Ideal S1x128 .f32) (p : Fin 10000) (q : Fin 128) :
    k1_pay3 x b (ix2 p q) = x (ix2 p q) + b (ix2 (0 : Fin 1) q) :=
  (congrFun (payload1_eq x b) (ix2 p q)).trans
    (congrArg (x (ix2 p q) + ·) (broadcastTo_1b_ab_apply b broadcasts_S1x128_S10000x128 p q))

/-- The same at any index of the block. -/
theorem payload1_at (x : Vec Ideal S10000x128 .f32) (b : Vec Ideal S1x128 .f32) (j : S10000x128.Idx) :
    k1_pay3 x b j = x j + b (ix2 (0 : Fin 1) (j 1)) :=
  (congrArg (k1_pay3 x b) (eq_ix2 j)).trans
    ((payload1_entry x b (j 0) (j 1)).trans (congrArg (fun i => x i + b (ix2 (0 : Fin 1) (j 1))) (eq_ix2 j).symm))

/-- The windows' index maps over the grid: the first and third windows' block is the point's, in the one block of
    columns; the second window's block never moves. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section AtIdeal
variable (V : (c : Dev nD) → (b : Ref sig .tc) → Buf (Elt Ideal) ((c : Thread nD τ).loc b)) (c : Dev nD)

/-- What grid point t writes back is block t of the array with the row added. -/
theorem writtenBack1 (t : Fin cfg1.N) :
    (dat1 (F := Ideal) V c).flushed 2 t
      = ((cfg1.win 2).blk t).view.read (Elt Ideal) (Spec.addRow (V c main_v47) (V c main_v48)) := by
  show (cfg1.win 2).cut (grid1.coords t) ((dat1 V c).after 2 t) = _
  rw [after1_2, stored1_at_point]
  obtain ⟨e00, e01, e10, e11, e20, e21⟩ := blockIndex1 t
  funext j
  refine (payload1_at (iblk1 V c 0 t) (iblk1 V c 1 t) j).trans ?_
  have hj0 : (j 0).val < 10000 := (j 0).isLt
  have hj1 : (j 1).val < 128 := (j 1).isLt
  have k0 : (((cfg1.win 0).blk t).view.emb j : S100000x128.Idx) = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  have k1 : (((cfg1.win 1).blk t).view.emb (ix2 (0 : Fin 1) (j 1)) : S1x128.Idx)
      = ix2 (0 : Fin 1) (((((cfg1.win 2).blk t).view.emb j : S100000x128.Idx)) 1) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  exact addRow_at (V c main_v47) (V c main_v48) (((cfg1.win 2).blk t).view.emb j) (((cfg1.win 0).blk t).view.emb j)
    (((cfg1.win 1).blk t).view.emb (ix2 (0 : Fin 1) (j 1))) k0 k1

/-- An index of the array is in point t's block iff each coordinate is in the block's range on its axis. -/
theorem mem_block1 (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v49_0).slice (win1_2.rect t)).set ↔ _
  rw [View.set_slice_whole, Rect.mem_set_unit]
  exact Iff.rfl

/-- Row r of the array is in the block of point r / 10000. -/
theorem rows_covered1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 10 := N_1
  have ht : (i 0).val / 10000 < cfg1.N := by rw [hN]; omega
  obtain ⟨-, -, -, -, e20, e21⟩ := blockIndex1 ⟨(i 0).val / 10000, ht⟩
  dsimp only at e20
  refine ⟨⟨(i 0).val / 10000, ht⟩, flush1_2 _, ?_⟩
  rw [mem_block1]
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    omega
  | ⟨1, _⟩ =>
    show win1_2.index ⟨(i 0).val / 10000, ht⟩ (1 : Fin 2) * 128 ≤ (i 1).val
      ∧ (i 1).val < win1_2.index ⟨(i 0).val / 10000, ht⟩ (1 : Fin 2) * 128 + 128
    omega

/-- The third window's array after the region: the first window's array with the second's row added to every row. -/
theorem stats1_h : (dat1 (F := Ideal) V c).arrAt 2 cfg1.N = Spec.addRow (V c main_v47) (V c main_v48) :=
  (dat1 (F := Ideal) V c).arrAt_eq_of_cover 2 (Spec.addRow (V c main_v47) (V c main_v48))
    (fun t _ => writtenBack1 V c t) (rows_covered1)

end AtIdeal

/-! ## Region 4: the rows with the row of window 1 added -/

section Generic
variable {F : FTy → Type} [FloatOps F]

/-- At the first grid point the body leaves, in the third window's buffer, the input block with the row added: its
    one covering store's payload, whose loads read the whole input buffers. -/
theorem stored4_first (c : Dev nD) (i : grid4.Coords) (a1 : Memref sig .tc .vmem S10000x128 .f32) (h1 : a1.IsWhole)
    (a2 : Memref sig .tc .vmem S1x128 .f32) (h2 : a2.IsWhole) (a3 : Memref sig .tc .vmem S10000x128 .f32) (h3 : a3.IsWhole)
    (a4 : Memref sig .tc .vmem S1x128 .f32) (h4 : a4.IsWhole) (a5 : Memref sig .tc .vmem S1x128 .f32) (h5 : a5.IsWhole)
    (hc : cond4_0 i) (x0 : Vec F S10000x128 .f32) (x1 : Vec F S1x128 .f32) :
    out4_A_2 c i a1 h1 a2 h2 a3 h3 a4 h4 a5 h5 hc x0 x1 = k4_pay3 x0 x1 := by
  unfold out4_A_2
  rw [View.read_writes_eq_canon _ _ _ (cover4_A_2 c i a1 h1 a2 h2 a3 h3 a4 h4 a5 h5 hc x0 x1)]
  unfold kernelRun4_A
  dsimp only
  rw [View.canon_unit_zero zeroOffsets]
  simp only [View.readAt_eq_ld, h1.read_unread, h2.read_unread, View.ld_unit_zero (S := S10000x128) zeroOffsets,
    View.ld_unit_zero (S := S1x128) zeroOffsets]

/-- At every later grid point the body leaves the same, whatever the two carried buffers hold. -/
theorem stored4_later (c : Dev nD) (i : grid4.Coords) (a1 : Memref sig .tc .vmem S10000x128 .f32) (h1 : a1.IsWhole)
    (a2 : Memref sig .tc .vmem S1x128 .f32) (h2 : a2.IsWhole) (a3 : Memref sig .tc .vmem S10000x128 .f32) (h3 : a3.IsWhole)
    (a4 : Memref sig .tc .vmem S1x128 .f32) (h4 : a4.IsWhole) (a5 : Memref sig .tc .vmem S1x128 .f32) (h5 : a5.IsWhole)
    (hc : ¬cond4_0 i) (x0 : Vec F S10000x128 .f32) (x1 : Vec F S1x128 .f32) (xo3 xo4 : Vec F S1x128 .f32) :
    out4_B_2 c i a1 h1 a2 h2 a3 h3 a4 h4 a5 h5 hc x0 x1 xo3 xo4 = k4_pay3 x0 x1 := by
  unfold out4_B_2
  rw [View.read_writes_eq_canon _ _ _ (cover4_B_2 c i a1 h1 a2 h2 a3 h3 a4 h4 a5 h5 hc x0 x1 xo3 xo4)]
  unfold kernelRun4_B
  dsimp only
  rw [View.canon_unit_zero zeroOffsets]
  simp only [View.readAt_eq_ld, h1.read_unread, h2.read_unread, View.ld_unit_zero (S := S10000x128) zeroOffsets,
    View.ld_unit_zero (S := S1x128) zeroOffsets]

/-- The payload is the block plus the row laid over its rows. -/
theorem payload4_eq (x : Vec F S10000x128 .f32) (b : Vec F S1x128 .f32) :
    k4_pay3 x b = addf x (broadcastTo S10000x128 b broadcasts_S1x128_S10000x128) := by
  unfold k4_pay3
  simp only [shapeCast_self]

variable (V : (c : Dev nD) → (b : Ref sig .tc) → Buf (Elt F) ((c : Thread nD τ).loc b)) (c : Dev nD)

/-- So after every grid point the third window's buffer holds the payload of that point's two input blocks. -/
theorem stored4_at_point (t : Fin cfg4.N) :
    (outsAt4 V c t.val t.isLt).1 = k4_pay3 (iblk4 V c 0 t) (iblk4 V c 1 t) := by
  by_cases h0 : t.val % 10 = 0
  · rw [outsAt4_A V c t h0]
    dsimp only
    exact stored4_first c (grid4.coords t) (ms4_0 t) (hs4_0 t) (ms4_1 t) (hs4_1 t) (ms4_2 t) (hs4_2 t) (ms4_3 t) (hs4_3 t)
      (ms4_4 t) (hs4_4 t) ((hcond4_0 t).mpr h0) (iblk4 V c 0 t) (iblk4 V c 1 t)
  · rw [outsAt4_B V c t h0]
    dsimp only
    exact stored4_later c (grid4.coords t) (ms4_0 t) (hs4_0 t) (ms4_1 t) (hs4_1 t) (ms4_2 t) (hs4_2 t) (ms4_3 t) (hs4_3 t)
      (ms4_4 t) (hs4_4 t) (fun h => h0 ((hcond4_0 t).mp h)) (iblk4 V c 0 t) (iblk4 V c 1 t)
      (outsAt4 V c (t.val - 1) (Nat.lt_of_le_of_lt (Nat.sub_le _ _) t.isLt)).2.1
      (outsAt4 V c (t.val - 1) (Nat.lt_of_le_of_lt (Nat.sub_le _ _) t.isLt)).2.2

end Generic

/-- Entry (p, q) of the payload: the block's entry plus the row's entry in column q. -/
theorem payload4_entry (x : Vec Ideal S10000x128 .f32) (b : Vec Ideal S1x128 .f32) (p : Fin 10000) (q : Fin 128) :
    k4_pay3 x b (ix2 p q) = x (ix2 p q) + b (ix2 (0 : Fin 1) q) :=
  (congrFun (payload4_eq x b) (ix2 p q)).trans
    (congrArg (x (ix2 p q) + ·) (broadcastTo_1b_ab_apply b broadcasts_S1x128_S10000x128 p q))

/-- The same at any index of the block. -/
theorem payload4_at (x : Vec Ideal S10000x128 .f32) (b : Vec Ideal S1x128 .f32) (j : S10000x128.Idx) :
    k4_pay3 x b j = x j + b (ix2 (0 : Fin 1) (j 1)) :=
  (congrArg (k4_pay3 x b) (eq_ix2 j)).trans
    ((payload4_entry x b (j 0) (j 1)).trans (congrArg (fun i => x i + b (ix2 (0 : Fin 1) (j 1))) (eq_ix2 j).symm))

/-- The windows' index maps over the grid: the first and third windows' block is the point's, in the one block of
    columns; the second window's block never moves. -/
theorem blockIndex4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

section AtIdeal
variable (V : (c : Dev nD) → (b : Ref sig .tc) → Buf (Elt Ideal) ((c : Thread nD τ).loc b)) (c : Dev nD)

/-- What grid point t writes back is block t of the array with the row added. -/
theorem writtenBack4 (t : Fin cfg4.N) :
    (dat4 (F := Ideal) V c).flushed 2 t
      = ((cfg4.win 2).blk t).view.read (Elt Ideal) (Spec.addRow (V c main_v76) (V c main_v77)) := by
  show (cfg4.win 2).cut (grid4.coords t) ((dat4 V c).after 2 t) = _
  rw [after4_2, stored4_at_point]
  obtain ⟨e00, e01, e10, e11, e20, e21⟩ := blockIndex4 t
  funext j
  refine (payload4_at (iblk4 V c 0 t) (iblk4 V c 1 t) j).trans ?_
  have hj0 : (j 0).val < 10000 := (j 0).isLt
  have hj1 : (j 1).val < 128 := (j 1).isLt
  have k0 : (((cfg4.win 0).blk t).view.emb j : S100000x128.Idx) = ((cfg4.win 2).blk t).view.emb j := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 128 + 1 * (j 1).val = win4_2.index t (1 : Fin 2) * 128 + 1 * (j 1).val; omega
  have k1 : (((cfg4.win 1).blk t).view.emb (ix2 (0 : Fin 1) (j 1)) : S1x128.Idx)
      = ix2 (0 : Fin 1) (((((cfg4.win 2).blk t).view.emb j : S100000x128.Idx)) 1) := by
    funext a; apply Fin.ext
    match a with
    | ⟨0, _⟩ => show win4_1.index t (0 : Fin 2) * 1 + 1 * 0 = 0; omega
    | ⟨1, _⟩ => show win4_1.index t (1 : Fin 2) * 128 + 1 * (j 1).val = win4_2.index t (1 : Fin 2) * 128 + 1 * (j 1).val; omega
  exact addRow_at (V c main_v76) (V c main_v77) (((cfg4.win 2).blk t).view.emb j) (((cfg4.win 0).blk t).view.emb j)
    (((cfg4.win 1).blk t).view.emb (ix2 (0 : Fin 1) (j 1))) k0 k1

/-- An index of the array is in point t's block iff each coordinate is in the block's range on its axis. -/
theorem mem_block4 (t : Fin cfg4.N) (i : S100000x128.Idx) :
    i ∈ ((cfg4.win 2).blk t).view.set ↔ ∀ a : Fin 2, win4_2.index t a * S10000x128.size a ≤ (i a).val
      ∧ (i a).val < win4_2.index t a * S10000x128.size a + S10000x128.size a := by
  show i ∈ ((View.whole main_v78_0).slice (win4_2.rect t)).set ↔ _
  rw [View.set_slice_whole, Rect.mem_set_unit]
  exact Iff.rfl

/-- Row r of the array is in the block of point r / 10000. -/
theorem rows_covered4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 10 := N_4
  have ht : (i 0).val / 10000 < cfg4.N := by rw [hN]; omega
  obtain ⟨-, -, -, -, e20, e21⟩ := blockIndex4 ⟨(i 0).val / 10000, ht⟩
  dsimp only at e20
  refine ⟨⟨(i 0).val / 10000, ht⟩, flush4_2 _, ?_⟩
  rw [mem_block4]
  intro a
  match a with
  | ⟨0, _⟩ =>
    show win4_2.index ⟨(i 0).val / 10000, ht⟩ (0 : Fin 2) * 10000 ≤ (i 0).val
      ∧ (i 0).val < win4_2.index ⟨(i 0).val / 10000, ht⟩ (0 : Fin 2) * 10000 + 10000
    omega
  | ⟨1, _⟩ =>
    show win4_2.index ⟨(i 0).val / 10000, ht⟩ (1 : Fin 2) * 128 ≤ (i 1).val
      ∧ (i 1).val < win4_2.index ⟨(i 0).val / 10000, ht⟩ (1 : Fin 2) * 128 + 128
    omega

/-- The third window's array after the region: the first window's array with the second's row added to every row. -/
theorem stats4_h : (dat4 (F := Ideal) V c).arrAt 2 cfg4.N = Spec.addRow (V c main_v76) (V c main_v77) :=
  (dat4 (F := Ideal) V c).arrAt_eq_of_cover 2 (Spec.addRow (V c main_v76) (V c main_v77))
    (fun t _ => writtenBack4 V c t) (rows_covered4)

end AtIdeal

end Cert.KernelIdeal.Regions

end
-- ==== Proof.LibHostPieces.lean ====
/-
  Straight lines of host operations cut into pieces: a line run after another is their concatenation run as one, the
  buffer contents after a concatenation are the contents after the second piece from the contents after the first, and a
  property of every operation of two pieces holds of every operation of their concatenation.
-/
import Idealize.ShloMosaic.Lib.StableHlo.Run

noncomputable section

namespace Idealize.ShloMosaic.StableHlo

open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

/-- The buffer contents after two pieces in a row: the second piece's fold over the first's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A line, then a program that is itself a line: one line. -/
theorem seq_bind_eq (a R : List (HloOp τ sig Val)) (k : Prog (TpuEff nD τ sig Val Λ .tc) PUnit) (h : k = seq R) :
    (seq a >>= fun _ => k) = seq (a ++ R) := by rw [h, seq_append]

/-- What holds of every operation of two pieces holds of every operation of their concatenation. -/
theorem forall_mem_append {P : HloOp τ sig Val → Prop} {a b : List (HloOp τ sig Val)}
    (ha : ∀ op ∈ a, P op) (hb : ∀ op ∈ b, P op) : ∀ op ∈ a ++ b, P op :=
  fun op h => (List.mem_append.1 h).elim (ha op) (hb op)

end Idealize.ShloMosaic.StableHlo

end
-- ==== Proof.HostStages.lean ====
/-
  Every stretch of host operations of the tiled program, read as a stage of the network of the buffers it starts from.

  The tiled program runs the same operations as the plain one around its dense passes: before the first pass it builds
  the two edge lists (sources and targets, self-loops appended) and every edge's coefficient; before a convolution's
  pass it carries the rows along the edges and adds them up at the targets; before a normalisation's pass it turns the
  column totals into means and variances; after the last pass it carries the single column and adds the bias.  Each
  statement holds from any buffer contents and for any float instance; a buffer a stretch does not write keeps its
  contents.
-/
import proofs.«113069_j27908697489551_1_alg».proof.Proof.Spec
import proofs.«113069_j27908697489551_1_alg».proof.Proof.LibHostPieces
import proofs.«113069_j27908697489551_1_alg».proof.Proof.Gen.KernelIdeal.Launch
import proofs.«113069_j27908697489551_1_alg».proof.Proof.Gen.KernelIdeal
import Idealize.ShloMosaic.Lib.StableHlo.Run

set_option maxRecDepth 4096

noncomputable section

namespace Cert.KernelIdeal.HostStages

open Cert.KernelIdeal Cert.KernelIdeal.Gen Idealize.ShloMosaic

variable {F : FTy → Type} [FloatOps F] (W : Idealize.ShloMosaic.Valuation τ sig (Elt F))

local notation "R" => Proc.devRef (τ := τ) (sig := sig) Proc.tc

/-! ## Buffers a stretch leaves alone -/

/-- A reference of a list, as a device buffer, is in the list's image. -/
theorem single_sub {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.2 (List.mem_toFinset.2 (List.mem_map_of_mem h))

/-- Every buffer written before the first dense pass. -/
def preWrites : List (Ref sig .tc) :=
  [
   main_v0, main_v1, main_v2, main_v3, main_v4, main_v5, main_v6, main_cst, main_v7, main_v8,
   main_cst_0, main_v9, main_v10, main_v11, main_cst_1, main_v12, main_v13, main_cst_2, main_v14, main_v15,
   main_v16, main_cst_3, main_call0_v0, main_call0_v1, main_v17, main_c, main_v18, main_v19, main_c_4, main_v20,
   main_v21, main_v22, main_v23, main_v24, main_v25, main_c_5, main_v26, main_v27, main_c_6, main_v28,
   main_v29, main_v30, main_v31, main_v32, main_v33 ]

/-- Every buffer written between the first dense pass and the second. -/
def s1Writes : List (Ref sig .tc) :=
  [
   main_c_7, main_v35, main_v36, main_c_8, main_v37, main_v38, main_v39, main_v40, main_v41, main_v42,
   main_v43, main_v44, main_cst_9, main_v45, main_v46, main_v47, main_v48 ]

/-- Every buffer written between the second dense pass and the third. -/
def s2Writes : List (Ref sig .tc) :=
  [
   main_v50, main_cst_10, main_v51, main_v52, main_v53, main_cst_11, main_v54, main_v55, main_v56, main_v57,
   main_v58, main_v59, main_v60, main_v61 ]

/-- Every buffer written between the fourth dense pass and the fifth. -/
def s4Writes : List (Ref sig .tc) :=
  [
   main_c_12, main_v64, main_v65, main_c_13, main_v66, main_v67, main_v68, main_v69, main_v70, main_v71,
   main_v72, main_v73, main_cst_14, main_v74, main_v75, main_v76, main_v77 ]

/-- Every buffer written between the fifth dense pass and the sixth. -/
def s5Writes : List (Ref sig .tc) :=
  [
   main_v79, main_cst_15, main_v80, main_v81, main_v82, main_cst_16, main_v83, main_v84, main_v85, main_v86,
   main_v87, main_v88, main_v89, main_v90 ]

/-- Every buffer written after the last dense pass. -/
def s7Writes : List (Ref sig .tc) :=
  [
   main_c_17, main_v93, main_v94, main_c_18, main_v95, main_v96, main_v97, main_v98, main_v99, main_v100,
   main_v101, main_cst_19, main_v102, main_v103, main_v104, main_v105, main_v106, main_v107 ]

section Stages

/-! ## Before the first dense pass: the edge lists and the edge coefficients -/

/-- The buffer contents when the first dense pass is entered. -/
abbrev pre : Valuation τ sig (Elt F) :=
  StableHlo.after (hostOps0_2 (F := F)) (StableHlo.after (hostOps0_1 (F := F)) (StableHlo.after (hostOps0 (F := F)) W))

theorem pre_src : pre W (R main_v3) = Spec.src (W (R main_arg1)) := by
  show StableHlo.after hostOps0_2 (StableHlo.after hostOps0_1 (StableHlo.after hostOps0 W)) (Proc.devRef .tc main_v3) = _
  after_results_simp
  rfl

theorem pre_dst : pre W (R main_v6) = Spec.dst (W (R main_arg1)) := by
  show StableHlo.after hostOps0_2 (StableHlo.after hostOps0_1 (StableHlo.after hostOps0 W)) (Proc.devRef .tc main_v6) = _
  after_results_simp
  rfl

theorem pre_nrm : pre W (R main_v33) = Spec.nrm (F := F) (W (R main_arg1)) (W (R main_arg2)) := by
  show StableHlo.after hostOps0_2 (StableHlo.after hostOps0_1 (StableHlo.after hostOps0 W)) (Proc.devRef .tc main_v33) = _
  after_results_simp
  rfl

theorem pre_keep (b : Ref sig .tc) (hb : b ∉ preWrites) : pre W (R b) = W (R b) := by
  have h0 : StableHlo.after (hostOps0 (F := F)) W (R b) = W (R b) := by
    refine StableHlo.after_of_writes_sub (W := preWrites) _ _ ?_ hb
    simp only [hostOps0, List.Forall, StableHlo.nullary_writes, StableHlo.unary_writes, StableHlo.binary_writes,
      StableHlo.ternary_writes, StableHlo.reshape_writes]
    repeat' apply And.intro
    all_goals exact single_sub (by decide)
  have h1 : ∀ V : Valuation τ sig (Elt F), StableHlo.after (hostOps0_1 (F := F)) V (R b) = V (R b) := by
    intro V
    refine StableHlo.after_of_writes_sub (W := preWrites) _ _ ?_ hb
    simp only [hostOps0_1, StableHlo.TRef.unary, StableHlo.TRef.ternary, List.Forall, StableHlo.nullary_writes, StableHlo.unary_writes, StableHlo.binary_writes,
      StableHlo.ternary_writes, StableHlo.reshape_writes]
    repeat' apply And.intro
    all_goals exact single_sub (by decide)
  have h2 : ∀ V : Valuation τ sig (Elt F), StableHlo.after (hostOps0_2 (F := F)) V (R b) = V (R b) := by
    intro V
    refine StableHlo.after_of_writes_sub (W := preWrites) _ _ ?_ hb
    simp only [hostOps0_2, List.Forall, StableHlo.nullary_writes, StableHlo.unary_writes, StableHlo.binary_writes,
      StableHlo.ternary_writes, StableHlo.reshape_writes]
    repeat' apply And.intro
    all_goals exact single_sub (by decide)
  exact (h2 _).trans ((h1 _).trans h0)

/-! ## Before the second and the fifth dense pass: rows carried along the edges, and the bias as a row -/

theorem s1_agg :
    StableHlo.after (hostOps1 (F := F)) W (R main_v47) = Spec.agg (W (R main_v34)) (W (R main_v3)) (W (R main_v6)) (W (R main_v33)) := by
  show StableHlo.after hostOps1 W (Proc.devRef .tc main_v47) = _
  after_results_simp
  rfl

theorem s1_row :
    StableHlo.after (hostOps1 (F := F)) W (R main_v48) = Spec.asRow (W (R main_arg4)) := by
  show StableHlo.after hostOps1 W (Proc.devRef .tc main_v48) = _
  after_results_simp
  rfl

theorem s1_keep (b : Ref sig .tc) (hb : b ∉ s1Writes) : StableHlo.after (hostOps1 (F := F)) W (R b) = W (R b) := by
  refine StableHlo.after_of_writes_sub (W := s1Writes) _ _ ?_ hb
  simp only [hostOps1, List.Forall, StableHlo.nullary_writes, StableHlo.unary_writes, StableHlo.binary_writes,
    StableHlo.ternary_writes, StableHlo.reshape_writes]
  repeat' apply And.intro
  all_goals exact single_sub (by decide)

theorem s4_agg :
    StableHlo.after (hostOps4 (F := F)) W (R main_v76) = Spec.agg (W (R main_v63)) (W (R main_v3)) (W (R main_v6)) (W (R main_v33)) := by
  show StableHlo.after hostOps4 W (Proc.devRef .tc main_v76) = _
  after_results_simp
  rfl

theorem s4_row :
    StableHlo.after (hostOps4 (F := F)) W (R main_v77) = Spec.asRow (W (R main_arg8)) := by
  show StableHlo.after hostOps4 W (Proc.devRef .tc main_v77) = _
  after_results_simp
  rfl

theorem s4_keep (b : Ref sig .tc) (hb : b ∉ s4Writes) : StableHlo.after (hostOps4 (F := F)) W (R b) = W (R b) := by
  refine StableHlo.after_of_writes_sub (W := s4Writes) _ _ ?_ hb
  simp only [hostOps4, List.Forall, StableHlo.nullary_writes, StableHlo.unary_writes, StableHlo.binary_writes,
    StableHlo.ternary_writes, StableHlo.reshape_writes]
  repeat' apply And.intro
  all_goals exact single_sub (by decide)

/-! ## Before the third and the sixth dense pass: mean and variance of every column from its totals, scale and shift as rows -/

theorem s2_mean :
    StableHlo.after (hostOps2 (F := F)) W (R main_v58) = Spec.asRow (Spec.perNode (W (R main_v49_1))) := by
  show StableHlo.after hostOps2 W (Proc.devRef .tc main_v58) = _
  after_results_simp
  rfl

theorem s2_var :
    StableHlo.after (hostOps2 (F := F)) W (R main_v59) = Spec.asRow (Spec.varOfTotals (W (R main_v49_1)) (W (R main_v49_2))) := by
  show StableHlo.after hostOps2 W (Proc.devRef .tc main_v59) = _
  after_results_simp
  rfl

theorem s2_gamma :
    StableHlo.after (hostOps2 (F := F)) W (R main_v60) = Spec.asRow (W (R main_arg5)) := by
  show StableHlo.after hostOps2 W (Proc.devRef .tc main_v60) = _
  after_results_simp
  rfl

theorem s2_beta :
    StableHlo.after (hostOps2 (F := F)) W (R main_v61) = Spec.asRow (W (R main_arg6)) := by
  show StableHlo.after hostOps2 W (Proc.devRef .tc main_v61) = _
  after_results_simp
  rfl

theorem s2_keep (b : Ref sig .tc) (hb : b ∉ s2Writes) : StableHlo.after (hostOps2 (F := F)) W (R b) = W (R b) := by
  refine StableHlo.after_of_writes_sub (W := s2Writes) _ _ ?_ hb
  simp only [hostOps2, List.Forall, StableHlo.nullary_writes, StableHlo.unary_writes, StableHlo.binary_writes,
    StableHlo.ternary_writes, StableHlo.reshape_writes]
  repeat' apply And.intro
  all_goals exact single_sub (by decide)

theorem s5_mean :
    StableHlo.after (hostOps5 (F := F)) W (R main_v87) = Spec.asRow (Spec.perNode (W (R main_v78_1))) := by
  show StableHlo.after hostOps5 W (Proc.devRef .tc main_v87) = _
  after_results_simp
  rfl

theorem s5_var :
    StableHlo.after (hostOps5 (F := F)) W (R main_v88) = Spec.asRow (Spec.varOfTotals (W (R main_v78_1)) (W (R main_v78_2))) := by
  show StableHlo.after hostOps5 W (Proc.devRef .tc main_v88) = _
  after_results_simp
  rfl

theorem s5_gamma :
    StableHlo.after (hostOps5 (F := F)) W (R main_v89) = Spec.asRow (W (R main_arg9)) := by
  show StableHlo.after hostOps5 W (Proc.devRef .tc main_v89) = _
  after_results_simp
  rfl

theorem s5_beta :
    StableHlo.after (hostOps5 (F := F)) W (R main_v90) = Spec.asRow (W (R main_arg10)) := by
  show StableHlo.after hostOps5 W (Proc.devRef .tc main_v90) = _
  after_results_simp
  rfl

theorem s5_keep (b : Ref sig .tc) (hb : b ∉ s5Writes) : StableHlo.after (hostOps5 (F := F)) W (R b) = W (R b) := by
  refine StableHlo.after_of_writes_sub (W := s5Writes) _ _ ?_ hb
  simp only [hostOps5, List.Forall, StableHlo.nullary_writes, StableHlo.unary_writes, StableHlo.binary_writes,
    StableHlo.ternary_writes, StableHlo.reshape_writes]
  repeat' apply And.intro
  all_goals exact single_sub (by decide)

/-! ## After the last dense pass: one column carried along the edges, and its bias -/

theorem s7_out :
    StableHlo.after (hostOps7 (F := F)) W (R main_v107) = Spec.fin (W (R main_v92)) (W (R main_v3)) (W (R main_v6)) (W (R main_v33)) (W (R main_arg12)) := by
  show StableHlo.after hostOps7 W (Proc.devRef .tc main_v107) = _
  after_results_simp
  rfl

theorem s7_keep (b : Ref sig .tc) (hb : b ∉ s7Writes) : StableHlo.after (hostOps7 (F := F)) W (R b) = W (R b) := by
  refine StableHlo.after_of_writes_sub (W := s7Writes) _ _ ?_ hb
  simp only [hostOps7, List.Forall, StableHlo.nullary_writes, StableHlo.unary_writes, StableHlo.binary_writes,
    StableHlo.ternary_writes, StableHlo.reshape_writes]
  repeat' apply And.intro
  all_goals exact single_sub (by decide)

end Stages

example : main_v3 ∉ s1Writes := by decide
example : main_arg1 ∉ preWrites := by decide

end Cert.KernelIdeal.HostStages

end
-- ==== Proof.Chain.lean ====
/-
  The tiled program's result buffer, segment by segment.

  Between the launch and the return the program's buffers pass through fifteen boundaries.  The edge lists, the edge
  coefficients and the arguments are written once, in the prefix, and kept by everything after it; each dense pass
  leaves its output array at a stage of the specification applied to what it found, each stretch of host operations
  likewise; composing them, the result buffer at the last boundary is the network in its tiled form, of the
  arguments as launched.
-/
import proofs.«113069_j27908697489551_1_alg».proof.Proof.Tiled
import proofs.«113069_j27908697489551_1_alg».proof.Proof.Gen.KernelIdeal.Frame
import proofs.«113069_j27908697489551_1_alg».proof.Proof.Matmul
import proofs.«113069_j27908697489551_1_alg».proof.Proof.NormPass
import proofs.«113069_j27908697489551_1_alg».proof.Proof.Totals
import proofs.«113069_j27908697489551_1_alg».proof.Proof.TotalsRows
import proofs.«113069_j27908697489551_1_alg».proof.Proof.HostStages
import Idealize.ShloMosaic.PureOps.Ideal
import Idealize.ShloMosaic.Lib.StableHlo.Run

set_option maxRecDepth 16384

noncomputable section

namespace Cert.KernelIdeal.Chain

open Cert.KernelIdeal Cert.KernelIdeal.Gen Cert.KernelIdeal.Regions Cert.KernelIdeal.HostStages
open Idealize.ShloMosaic Idealize.ShloMosaic.TcCoe Idealize.SL.Sem

variable (m : (ℓ : Loc nD τ sig) → Buf (Elt Ideal) ℓ) (ρ : Dev nD → PrngReg) (c : Dev nD)

/-- The buffers no dense pass and no host operation after the prefix writes: the edge lists, the edge coefficients, the arguments. -/
abbrev persistent : List (Ref sig .tc) :=
  [main_v3, main_v6, main_v33, main_arg0, main_arg1, main_arg2, main_arg3, main_arg4, main_arg5, main_arg6, main_arg7, main_arg8,
   main_arg9, main_arg10, main_arg11, main_arg12]

/-! ## What is kept across each segment -/

theorem keep4 (b : Ref sig .tc) (hb : b ∈ persistent) : W4 m ρ c (Proc.devRef .tc b) = W3 m ρ c (Proc.devRef .tc b) := by
  simp only [persistent, List.mem_cons, List.not_mem_nil, or_false] at hb
  rcases hb with rfl | rfl | rfl | rfl | rfl | rfl | rfl | rfl | rfl | rfl | rfl | rfl | rfl | rfl | rfl | rfl
  all_goals first
    | exact W4_of_ne m ρ c _ (by decide)
    | exact (W4_arr m ρ c 0).trans (((dat0 (V3 m ρ) c).arrAt_in 0 rfl _).trans (A_eq0 (V3 m ρ) c 0))
    | exact (W4_arr m ρ c 1).trans (((dat0 (V3 m ρ) c).arrAt_in 1 rfl _).trans (A_eq0 (V3 m ρ) c 1))

theorem keep5 (b : Ref sig .tc) (hb : b ∈ persistent) : W5 m ρ c (Proc.devRef .tc b) = W4 m ρ c (Proc.devRef .tc b) := by
  simp only [persistent, List.mem_cons, List.not_mem_nil, or_false] at hb
  rcases hb with rfl | rfl | rfl | rfl | rfl | rfl | rfl | rfl | rfl | rfl | rfl | rfl | rfl | rfl | rfl | rfl
  all_goals exact s1_keep (W4 m ρ c) _ (by decide)

theorem keep6 (b : Ref sig .tc) (hb : b ∈ persistent) : W6 m ρ c (Proc.devRef .tc b) = W5 m ρ c (Proc.devRef .tc b) := by
  simp only [persistent, List.mem_cons, List.not_mem_nil, or_false] at hb
  rcases hb with rfl | rfl | rfl | rfl | rfl | rfl | rfl | rfl | rfl | rfl | rfl | rfl | rfl | rfl | rfl | rfl
  all_goals first
    | exact W6_of_ne m ρ c _ (by decide)

theorem keep7 (b : Ref sig .tc) (hb : b ∈ persistent) : W7 m ρ c (Proc.devRef .tc b) = W6 m ρ c (Proc.devRef .tc b) := by
  simp only [persistent, List.mem_cons, List.not_mem_nil, or_false] at hb
  rcases hb with rfl | rfl | rfl | rfl | rfl | rfl | rfl | rfl | rfl | rfl | rfl | rfl | rfl | rfl | rfl | rfl
  all_goals exact s2_keep (W6 m ρ c) _ (by decide)

theorem keep8 (b : Ref sig .tc) (hb : b ∈ persistent) : W8 m ρ c (Proc.devRef .tc b) = W7 m ρ c (Proc.devRef .tc b) := by
  simp only [persistent, List.mem_cons, List.not_mem_nil, or_false] at hb
  rcases hb with rfl | rfl | rfl | rfl | rfl | rfl | rfl | rfl | rfl | rfl | rfl | rfl | rfl | rfl | rfl | rfl
  all_goals first
    | exact W8_of_ne m ρ c _ (by decide)

theorem keep9 (b : Ref sig .tc) (hb : b ∈ persistent) : W9 m ρ c (Proc.devRef .tc b) = W8 m ρ c (Proc.devRef .tc b) := by
  simp only [persistent, List.mem_cons, List.not_mem_nil, or_false] at hb
  rcases hb with rfl | rfl | rfl | rfl | rfl | rfl | rfl | rfl | rfl | rfl | rfl | rfl | rfl | rfl | rfl | rfl
  all_goals first
    | exact W9_of_ne m ρ c _ (by decide)
    | exact (W9_arr m ρ c 1).trans (((dat3 (V8 m ρ) c).arrAt_in 1 rfl _).trans (A_eq3 (V8 m ρ) c 1))

theorem keep10 (b : Ref sig .tc) (hb : b ∈ persistent) : W10 m ρ c (Proc.devRef .tc b) = W9 m ρ c (Proc.devRef .tc b) := by
  simp only [persistent, List.mem_cons, List.not_mem_nil, or_false] at hb
  rcases hb with rfl | rfl | rfl | rfl | rfl | rfl | rfl | rfl | rfl | rfl | rfl | rfl | rfl | rfl | rfl | rfl
  all_goals exact s4_keep (W9 m ρ c) _ (by decide)

theorem keep11 (b : Ref sig .tc) (hb : b ∈ persistent) : W11 m ρ c (Proc.devRef .tc b) = W10 m ρ c (Proc.devRef .tc b) := by
  simp only [persistent, List.mem_cons, List.not_mem_nil, or_false] at hb
  rcases hb with rfl | rfl | rfl | rfl | rfl | rfl | rfl | rfl | rfl | rfl | rfl | rfl | rfl | rfl | rfl | rfl
  all_goals first
    | exact W11_of_ne m ρ c _ (by decide)

theorem keep12 (b : Ref sig .tc) (hb : b ∈ persistent) : W12 m ρ c (Proc.devRef .tc b) = W11 m ρ c (Proc.devRef .tc b) := by
  simp only [persistent, List.mem_cons, List.not_mem_nil, or_false] at hb
  rcases hb with rfl | rfl | rfl | rfl | rfl | rfl | rfl | rfl | rfl | rfl | rfl | rfl | rfl | rfl | rfl | rfl
  all_goals exact s5_keep (W11 m ρ c) _ (by decide)

theorem keep13 (b : Ref sig .tc) (hb : b ∈ persistent) : W13 m ρ c (Proc.devRef .tc b) = W12 m ρ c (Proc.devRef .tc b) := by
  simp only [persistent, List.mem_cons, List.not_mem_nil, or_false] at hb
  rcases hb with rfl | rfl | rfl | rfl | rfl | rfl | rfl | rfl | rfl | rfl | rfl | rfl | rfl | rfl | rfl | rfl
  all_goals first
    | exact W13_of_ne m ρ c _ (by decide)

theorem keep14 (b : Ref sig .tc) (hb : b ∈ persistent) : W14 m ρ c (Proc.devRef .tc b) = W13 m ρ c (Proc.devRef .tc b) := by
  simp only [persistent, List.mem_cons, List.not_mem_nil, or_false] at hb
  rcases hb with rfl | rfl | rfl | rfl | rfl | rfl | rfl | rfl | rfl | rfl | rfl | rfl | rfl | rfl | rfl | rfl
  all_goals first
    | exact W14_of_ne m ρ c _ (by decide)
    | exact (W14_arr m ρ c 1).trans (((dat6 (V13 m ρ) c).arrAt_in 1 rfl _).trans (A_eq6 (V13 m ρ) c 1))

theorem persist4 (b : Ref sig .tc) (hb : b ∈ persistent) : W4 m ρ c (Proc.devRef .tc b) = W3 m ρ c (Proc.devRef .tc b) := keep4 m ρ c b hb
theorem persist5 (b : Ref sig .tc) (hb : b ∈ persistent) : W5 m ρ c (Proc.devRef .tc b) = W3 m ρ c (Proc.devRef .tc b) := (keep5 m ρ c b hb).trans (persist4 m ρ c b hb)
theorem persist6 (b : Ref sig .tc) (hb : b ∈ persistent) : W6 m ρ c (Proc.devRef .tc b) = W3 m ρ c (Proc.devRef .tc b) := (keep6 m ρ c b hb).trans (persist5 m ρ c b hb)
theorem persist7 (b : Ref sig .tc) (hb : b ∈ persistent) : W7 m ρ c (Proc.devRef .tc b) = W3 m ρ c (Proc.devRef .tc b) := (keep7 m ρ c b hb).trans (persist6 m ρ c b hb)
theorem persist8 (b : Ref sig .tc) (hb : b ∈ persistent) : W8 m ρ c (Proc.devRef .tc b) = W3 m ρ c (Proc.devRef .tc b) := (keep8 m ρ c b hb).trans (persist7 m ρ c b hb)
theorem persist9 (b : Ref sig .tc) (hb : b ∈ persistent) : W9 m ρ c (Proc.devRef .tc b) = W3 m ρ c (Proc.devRef .tc b) := (keep9 m ρ c b hb).trans (persist8 m ρ c b hb)
theorem persist10 (b : Ref sig .tc) (hb : b ∈ persistent) : W10 m ρ c (Proc.devRef .tc b) = W3 m ρ c (Proc.devRef .tc b) := (keep10 m ρ c b hb).trans (persist9 m ρ c b hb)
theorem persist11 (b : Ref sig .tc) (hb : b ∈ persistent) : W11 m ρ c (Proc.devRef .tc b) = W3 m ρ c (Proc.devRef .tc b) := (keep11 m ρ c b hb).trans (persist10 m ρ c b hb)
theorem persist12 (b : Ref sig .tc) (hb : b ∈ persistent) : W12 m ρ c (Proc.devRef .tc b) = W3 m ρ c (Proc.devRef .tc b) := (keep12 m ρ c b hb).trans (persist11 m ρ c b hb)
theorem persist13 (b : Ref sig .tc) (hb : b ∈ persistent) : W13 m ρ c (Proc.devRef .tc b) = W3 m ρ c (Proc.devRef .tc b) := (keep13 m ρ c b hb).trans (persist12 m ρ c b hb)
theorem persist14 (b : Ref sig .tc) (hb : b ∈ persistent) : W14 m ρ c (Proc.devRef .tc b) = W3 m ρ c (Proc.devRef .tc b) := (keep14 m ρ c b hb).trans (persist13 m ρ c b hb)

/-! ## The prefix: edge lists and coefficients from the arguments -/

/-- An argument as launched. -/
abbrev A (b : Ref sig .tc) : Buf (Elt Ideal) ((c : Thread nD τ).loc b) := m ((c : Thread nD τ).loc b)

theorem at3_src : W3 m ρ c (Proc.devRef .tc main_v3) = Spec.src (A m c main_arg1) := pre_src (W0 m ρ c)
theorem at3_dst : W3 m ρ c (Proc.devRef .tc main_v6) = Spec.dst (A m c main_arg1) := pre_dst (W0 m ρ c)
theorem at3_nrm : W3 m ρ c (Proc.devRef .tc main_v33) = Spec.nrm (F := Ideal) (A m c main_arg1) (A m c main_arg2) := pre_nrm (W0 m ρ c)
theorem at3_arg0 : W3 m ρ c (Proc.devRef .tc main_arg0) = (A m c main_arg0) := pre_keep (W0 m ρ c) main_arg0 (by decide)
theorem at3_arg1 : W3 m ρ c (Proc.devRef .tc main_arg1) = (A m c main_arg1) := pre_keep (W0 m ρ c) main_arg1 (by decide)
theorem at3_arg2 : W3 m ρ c (Proc.devRef .tc main_arg2) = (A m c main_arg2) := pre_keep (W0 m ρ c) main_arg2 (by decide)
theorem at3_arg3 : W3 m ρ c (Proc.devRef .tc main_arg3) = (A m c main_arg3) := pre_keep (W0 m ρ c) main_arg3 (by decide)
theorem at3_arg4 : W3 m ρ c (Proc.devRef .tc main_arg4) = (A m c main_arg4) := pre_keep (W0 m ρ c) main_arg4 (by decide)
theorem at3_arg5 : W3 m ρ c (Proc.devRef .tc main_arg5) = (A m c main_arg5) := pre_keep (W0 m ρ c) main_arg5 (by decide)
theorem at3_arg6 : W3 m ρ c (Proc.devRef .tc main_arg6) = (A m c main_arg6) := pre_keep (W0 m ρ c) main_arg6 (by decide)
theorem at3_arg7 : W3 m ρ c (Proc.devRef .tc main_arg7) = (A m c main_arg7) := pre_keep (W0 m ρ c) main_arg7 (by decide)
theorem at3_arg8 : W3 m ρ c (Proc.devRef .tc main_arg8) = (A m c main_arg8) := pre_keep (W0 m ρ c) main_arg8 (by decide)
theorem at3_arg9 : W3 m ρ c (Proc.devRef .tc main_arg9) = (A m c main_arg9) := pre_keep (W0 m ρ c) main_arg9 (by decide)
theorem at3_arg10 : W3 m ρ c (Proc.devRef .tc main_arg10) = (A m c main_arg10) := pre_keep (W0 m ρ c) main_arg10 (by decide)
theorem at3_arg11 : W3 m ρ c (Proc.devRef .tc main_arg11) = (A m c main_arg11) := pre_keep (W0 m ρ c) main_arg11 (by decide)
theorem at3_arg12 : W3 m ρ c (Proc.devRef .tc main_arg12) = (A m c main_arg12) := pre_keep (W0 m ρ c) main_arg12 (by decide)

/-! ## Layer 1 -/

theorem val_v34 : W4 m ρ c (Proc.devRef .tc main_v34) = Spec.mm (F := Ideal) (A m c main_arg0) (A m c main_arg3) := by
  refine (W4_arr m ρ c 2).trans ((mm0 (V3 m ρ) c).trans ?_)
  show Spec.mm (F := Ideal) (W3 m ρ c (Proc.devRef .tc main_arg0)) (W3 m ρ c (Proc.devRef .tc main_arg3)) = _
  rw [at3_arg0, at3_arg3]

theorem val_v47 : W5 m ρ c (Proc.devRef .tc main_v47) = Spec.agg (F := Ideal) (Spec.mm (F := Ideal) (A m c main_arg0) (A m c main_arg3)) (Spec.src (A m c main_arg1)) (Spec.dst (A m c main_arg1)) (Spec.nrm (F := Ideal) (A m c main_arg1) (A m c main_arg2)) := by
  refine (s1_agg (W4 m ρ c)).trans ?_
  rw [val_v34, ((persist4 m ρ c main_v3 (by decide)).trans (at3_src m ρ c)), ((persist4 m ρ c main_v6 (by decide)).trans (at3_dst m ρ c)), ((persist4 m ρ c main_v33 (by decide)).trans (at3_nrm m ρ c))]

theorem val_v48 : W5 m ρ c (Proc.devRef .tc main_v48) = Spec.asRow (F := Ideal) (A m c main_arg4) := by
  refine (s1_row (W4 m ρ c)).trans ?_
  rw [((persist4 m ρ c main_arg4 (by decide)).trans (at3_arg4 m ρ c))]

/-- The first layer's pre-activation. -/
abbrev pre1 : FVec Ideal Cert.ReferenceIdeal.S100000x128 .f32 := Spec.preT (A m c main_arg0) (A m c main_arg3) (A m c main_arg4) (A m c main_arg1) (A m c main_arg2)

theorem val_v49_0 : W6 m ρ c (Proc.devRef .tc main_v49_0) = pre1 m c := by
  refine (W6_arr m ρ c 2).trans ((stats1_h (V5 m ρ) c).trans ?_)
  show Spec.addRow (W5 m ρ c (Proc.devRef .tc main_v47)) (W5 m ρ c (Proc.devRef .tc main_v48)) = _
  rw [val_v47, val_v48]; rfl

theorem val_v49_1 : W6 m ρ c (Proc.devRef .tc main_v49_1) = Spec.colTotal (pre1 m c) := by
  refine (W6_arr m ρ c 3).trans ((stats1_tot (V5 m ρ) c).trans ?_)
  show Spec.colTotal (Spec.addRow (W5 m ρ c (Proc.devRef .tc main_v47)) (W5 m ρ c (Proc.devRef .tc main_v48))) = _
  rw [val_v47, val_v48]; rfl

theorem val_v49_2 : W6 m ρ c (Proc.devRef .tc main_v49_2) = Spec.colTotalSq (pre1 m c) := by
  refine (W6_arr m ρ c 4).trans ((stats1_sq (V5 m ρ) c).trans ?_)
  show Spec.colTotalSq (Spec.addRow (W5 m ρ c (Proc.devRef .tc main_v47)) (W5 m ρ c (Proc.devRef .tc main_v48))) = _
  rw [val_v47, val_v48]; rfl

theorem val_v62 : W8 m ρ c (Proc.devRef .tc main_v62) = Spec.layerT (A m c main_arg0) (A m c main_arg3) (A m c main_arg4) (A m c main_arg5) (A m c main_arg6) (A m c main_arg1) (A m c main_arg2) := by
  refine (W8_arr m ρ c 5).trans ((norm2 (V7 m ρ) c).trans ?_)
  show Spec.normReluRows (W7 m ρ c (Proc.devRef .tc main_v49_0)) (W7 m ρ c (Proc.devRef .tc main_v58)) (W7 m ρ c (Proc.devRef .tc main_v59))
    (W7 m ρ c (Proc.devRef .tc main_v60)) (W7 m ρ c (Proc.devRef .tc main_v61)) = _
  rw [show W7 m ρ c (Proc.devRef .tc main_v49_0) = W6 m ρ c (Proc.devRef .tc main_v49_0) from s2_keep (W6 m ρ c) main_v49_0 (by decide),
    show W7 m ρ c (Proc.devRef .tc main_v58) = _ from s2_mean (W6 m ρ c), show W7 m ρ c (Proc.devRef .tc main_v59) = _ from s2_var (W6 m ρ c),
    show W7 m ρ c (Proc.devRef .tc main_v60) = _ from s2_gamma (W6 m ρ c), show W7 m ρ c (Proc.devRef .tc main_v61) = _ from s2_beta (W6 m ρ c),
    val_v49_0, val_v49_1, val_v49_2, ((persist6 m ρ c main_arg5 (by decide)).trans (at3_arg5 m ρ c)), ((persist6 m ρ c main_arg6 (by decide)).trans (at3_arg6 m ρ c))]
  rfl

/-! ## Layer 2 -/

/-- The first hidden layer's output. -/
abbrev hid1 : FVec Ideal Cert.ReferenceIdeal.S100000x128 .f32 := Spec.layerT (A m c main_arg0) (A m c main_arg3) (A m c main_arg4) (A m c main_arg5) (A m c main_arg6) (A m c main_arg1) (A m c main_arg2)

theorem val_v63 : W9 m ρ c (Proc.devRef .tc main_v63) = Spec.mm (F := Ideal) (hid1 m c) (A m c main_arg7) := by
  refine (W9_arr m ρ c 2).trans ((mm3 (V8 m ρ) c).trans ?_)
  show Spec.mm (F := Ideal) (W8 m ρ c (Proc.devRef .tc main_v62)) (W8 m ρ c (Proc.devRef .tc main_arg7)) = _
  rw [val_v62, ((persist8 m ρ c main_arg7 (by decide)).trans (at3_arg7 m ρ c))]

theorem val_v76 : W10 m ρ c (Proc.devRef .tc main_v76) = Spec.agg (F := Ideal) (Spec.mm (F := Ideal) (hid1 m c) (A m c main_arg7)) (Spec.src (A m c main_arg1)) (Spec.dst (A m c main_arg1)) (Spec.nrm (F := Ideal) (A m c main_arg1) (A m c main_arg2)) := by
  refine (s4_agg (W9 m ρ c)).trans ?_
  rw [val_v63, ((persist9 m ρ c main_v3 (by decide)).trans (at3_src m ρ c)), ((persist9 m ρ c main_v6 (by decide)).trans (at3_dst m ρ c)), ((persist9 m ρ c main_v33 (by decide)).trans (at3_nrm m ρ c))]

theorem val_v77 : W10 m ρ c (Proc.devRef .tc main_v77) = Spec.asRow (F := Ideal) (A m c main_arg8) := by
  refine (s4_row (W9 m ρ c)).trans ?_
  rw [((persist9 m ρ c main_arg8 (by decide)).trans (at3_arg8 m ρ c))]

/-- The second layer's pre-activation. -/
abbrev pre2 : FVec Ideal Cert.ReferenceIdeal.S100000x128 .f32 := Spec.preT (hid1 m c) (A m c main_arg7) (A m c main_arg8) (A m c main_arg1) (A m c main_arg2)

theorem val_v78_0 : W11 m ρ c (Proc.devRef .tc main_v78_0) = pre2 m c := by
  refine (W11_arr m ρ c 2).trans ((stats4_h (V10 m ρ) c).trans ?_)
  show Spec.addRow (W10 m ρ c (Proc.devRef .tc main_v76)) (W10 m ρ c (Proc.devRef .tc main_v77)) = _
  rw [val_v76, val_v77]; rfl

theorem val_v78_1 : W11 m ρ c (Proc.devRef .tc main_v78_1) = Spec.colTotal (pre2 m c) := by
  refine (W11_arr m ρ c 3).trans ((stats4_tot (V10 m ρ) c).trans ?_)
  show Spec.colTotal (Spec.addRow (W10 m ρ c (Proc.devRef .tc main_v76)) (W10 m ρ c (Proc.devRef .tc main_v77))) = _
  rw [val_v76, val_v77]; rfl

theorem val_v78_2 : W11 m ρ c (Proc.devRef .tc main_v78_2) = Spec.colTotalSq (pre2 m c) := by
  refine (W11_arr m ρ c 4).trans ((stats4_sq (V10 m ρ) c).trans ?_)
  show Spec.colTotalSq (Spec.addRow (W10 m ρ c (Proc.devRef .tc main_v76)) (W10 m ρ c (Proc.devRef .tc main_v77))) = _
  rw [val_v76, val_v77]; rfl

theorem val_v91 : W13 m ρ c (Proc.devRef .tc main_v91) = Spec.layerT (hid1 m c) (A m c main_arg7) (A m c main_arg8) (A m c main_arg9) (A m c main_arg10) (A m c main_arg1) (A m c main_arg2) := by
  refine (W13_arr m ρ c 5).trans ((norm5 (V12 m ρ) c).trans ?_)
  show Spec.normReluRows (W12 m ρ c (Proc.devRef .tc main_v78_0)) (W12 m ρ c (Proc.devRef .tc main_v87)) (W12 m ρ c (Proc.devRef .tc main_v88))
    (W12 m ρ c (Proc.devRef .tc main_v89)) (W12 m ρ c (Proc.devRef .tc main_v90)) = _
  rw [show W12 m ρ c (Proc.devRef .tc main_v78_0) = W11 m ρ c (Proc.devRef .tc main_v78_0) from s5_keep (W11 m ρ c) main_v78_0 (by decide),
    show W12 m ρ c (Proc.devRef .tc main_v87) = _ from s5_mean (W11 m ρ c), show W12 m ρ c (Proc.devRef .tc main_v88) = _ from s5_var (W11 m ρ c),
    show W12 m ρ c (Proc.devRef .tc main_v89) = _ from s5_gamma (W11 m ρ c), show W12 m ρ c (Proc.devRef .tc main_v90) = _ from s5_beta (W11 m ρ c),
    val_v78_0, val_v78_1, val_v78_2, ((persist11 m ρ c main_arg9 (by decide)).trans (at3_arg9 m ρ c)), ((persist11 m ρ c main_arg10 (by decide)).trans (at3_arg10 m ρ c))]
  rfl

/-! ## Layer 3 and the result -/

/-- The second hidden layer's output. -/
abbrev hid2 : FVec Ideal Cert.ReferenceIdeal.S100000x128 .f32 := Spec.layerT (hid1 m c) (A m c main_arg7) (A m c main_arg8) (A m c main_arg9) (A m c main_arg10) (A m c main_arg1) (A m c main_arg2)

theorem val_v92 : W14 m ρ c (Proc.devRef .tc main_v92) = Spec.mm1 (F := Ideal) (hid2 m c) (A m c main_arg11) := by
  refine (W14_arr m ρ c 2).trans ((mm6 (V13 m ρ) c).trans ?_)
  show Spec.mm1 (F := Ideal) (W13 m ρ c (Proc.devRef .tc main_v91)) (W13 m ρ c (Proc.devRef .tc main_arg11)) = _
  rw [val_v91, ((persist13 m ρ c main_arg11 (by decide)).trans (at3_arg11 m ρ c))]

/-- The result buffer at the last boundary: the network in the tiled form, of the arguments as launched. -/
theorem result : W15 m ρ c (Proc.devRef .tc main_v107) = Spec.outT (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) := by
  refine (s7_out (W14 m ρ c)).trans ?_
  rw [val_v92, ((persist14 m ρ c main_v3 (by decide)).trans (at3_src m ρ c)), ((persist14 m ρ c main_v6 (by decide)).trans (at3_dst m ρ c)), ((persist14 m ρ c main_v33 (by decide)).trans (at3_nrm m ρ c)), ((persist14 m ρ c main_arg12 (by decide)).trans (at3_arg12 m ρ c))]
  rfl

end Cert.KernelIdeal.Chain

end
-- ==== Proof.Finite.lean ====
import proofs.«113069_j27908697489551_1_alg».proof.Pre_finite_inputs
import proofs.«113069_j27908697489551_1_alg».proof.Proof.Gen.Pre_finite_inputs
import proofs.«113069_j27908697489551_1_alg».proof.Proof.LibRealEntries
import Idealize.ShloMosaic.PureOps.Ideal
import Idealize.ShloMosaic.Lib.ValueIdx
import Idealize.ShloMosaic.Lib.ReduceAll

/-!
From the precondition to "every float input holds real numbers".

The precondition is the conjunction, over the twelve float inputs, of "every entry's absolute value is below the
positive infinity". At the ideal values an entry is an extended real and the absolute value of `a` is `max a (-a)`,
which is the top element exactly when `a` is one of the two infinities; so an entry passing the comparison is a real
number. The conjunction over an array is a reduction by `and` into a scalar, which is true only if every entry
compared true.
-/

noncomputable section

namespace Cert.Finite

open Cert.Pre_finite_inputs Idealize.ShloMosaic Cert.Lib.RealEntries

/-- The pattern of the positive infinity denotes the top of the extended reals. -/
theorem ofBits_inf : Ideal.ofBits .f32 0x7F800000#32 = (⊤ : EReal) := by
  simp [Ideal.ofBits, Ideal.ieee]

/-- An extended real whose absolute value is below the top is a real number. -/
theorem isReal_of_abs_lt_top (a : EReal) (h : max a (-a) < (⊤ : EReal)) : IsReal a := by
  induction a using EReal.rec with
  | bot => exact absurd h (by simp)
  | coe r => exact ⟨r, rfl⟩
  | top => exact absurd h (by simp)

/-- An array whose every entry's absolute value compares below the splat of the infinity holds real numbers. -/
theorem isRealV_of_abs_lt_inf {s : Shape} (hb : S_.BroadcastsInDim s (![] : Fin 0 → Fin s.rank)) (x : FVec Ideal s .f32)
    (h : ∀ i, cmpf .olt (Host.absf x) (broadcastInDim s ![] hb (constant (F := Ideal) S_ .f32 0x7F800000#32)) i = 1#1) :
    IsRealV x := by
  intro i
  have e : BitVec.ofBool (decide (max (x i) (-(x i)) < Ideal.ofBits .f32 0x7F800000#32)) = 1#1 := h i
  rw [ofBits_inf] at e
  by_cases hlt : max (x i) (-(x i)) < (⊤ : EReal)
  · exact isReal_of_abs_lt_top _ hlt
  · rw [decide_eq_false hlt] at e
    exact absurd e (by decide)

/-- The shape of a scalar has one index. -/
instance subsingleton_scalar_idx : Subsingleton S_.Idx := ⟨fun a b => funext fun d => d.elim0⟩

/-- An array over which the conjunction of "the absolute value is below the infinity" came out true holds real numbers. -/
theorem isRealV_of_all {s : Shape} {axes : List (Fin s.rank)} (hb : S_.BroadcastsInDim s (![] : Fin 0 → Fin s.rank))
    (hr : s.ReducesTo axes S_) (hu : 0 < S_.numel) (x : FVec Ideal s .f32) (j : S_.Idx)
    (h : Host.reduce IntOp.andi
        (cmpf .olt (Host.absf x) (broadcastInDim s ![] hb (constant (F := Ideal) S_ .f32 0x7F800000#32)))
        (constantI S_ 1 1#1) hr hu j = 1#1) :
    IsRealV x :=
  isRealV_of_abs_lt_inf hb x fun i => Host.reduce_andi_all _ _ hr hu j h i

/-- The precondition read back: each of the twelve float inputs holds real numbers. -/
theorem real_of_pre [Cert.Pre_finite_inputs.Facts]
    (a0 : FVec Ideal S100000x128 .f32) (a1 : IVec S2x1600000 32) (a2 : FVec Ideal S1600000 .f32) (a3 : FVec Ideal S128x128 .f32)
    (a4 a5 a6 : FVec Ideal S128 .f32) (a7 : FVec Ideal S128x128 .f32) (a8 a9 a10 : FVec Ideal S128 .f32)
    (a11 : FVec Ideal S128x1 .f32) (a12 : FVec Ideal S1 .f32)
    (h : Cert.Pre_finite_inputs.fn (F := Ideal) a0 a1 a2 a3 a4 a5 a6 a7 a8 a9 a10 a11 a12 = fun _ => 1#1) :
    IsRealV a0 ∧ IsRealV a2 ∧ IsRealV a3 ∧ IsRealV a4 ∧ IsRealV a5 ∧ IsRealV a6 ∧ IsRealV a7 ∧ IsRealV a8 ∧ IsRealV a9
      ∧ IsRealV a10 ∧ IsRealV a11 ∧ IsRealV a12 := by
  have e := congrFun h ValueIdx.ix0
  dsimp only [Cert.Pre_finite_inputs.fn, fn_part1, fn_part2, fn_part3] at e
  simp only [andi, IntOp.andi_eq_one] at e
  obtain ⟨⟨⟨⟨⟨⟨⟨⟨⟨⟨⟨h0, h2⟩, h3⟩, h4⟩, h5⟩, h6⟩, h7⟩, h8⟩, h9⟩, h10⟩, h11⟩, h12⟩ := e
  exact ⟨isRealV_of_all _ _ _ a0 _ h0, isRealV_of_all _ _ _ a2 _ h2, isRealV_of_all _ _ _ a3 _ h3,
    isRealV_of_all _ _ _ a4 _ h4, isRealV_of_all _ _ _ a5 _ h5, isRealV_of_all _ _ _ a6 _ h6,
    isRealV_of_all _ _ _ a7 _ h7, isRealV_of_all _ _ _ a8 _ h8, isRealV_of_all _ _ _ a9 _ h9,
    isRealV_of_all _ _ _ a10 _ h10, isRealV_of_all _ _ _ a11 _ h11, isRealV_of_all _ _ _ a12 _ h12⟩

end Cert.Finite

end
-- ==== Proof.lean ====
/-
  A three-layer graph convolution network on 100000 nodes, its dense passes tiled: the certificate that the tiled
  program and the plain one compute the same function on the extended reals, from finite inputs.

  Both programs build the same edge lists and edge coefficients, multiply the node features by a weight matrix, carry
  the rows along the edges and add them up at the targets.  They differ in how a hidden layer is normalised: the plain
  program takes each column's variance as the mean of the squared distances to the column's mean, the tiled one keeps
  the column totals of the values and of their squares (accumulated block by block) and takes the mean of the squares
  less the square of the mean.  On the extended reals these agree exactly when the column's entries are real numbers —
  which they are when the inputs are finite, every stage keeping real entries real —, and that is where the
  precondition is used.  The tiled matrix products, the block-wise totals and the block-wise normalisation are each
  the whole-array operation, index by index; the host operations around them are the same in both programs.

  The three frames: the two tiled programs' by the generated frame, the plain program's by its run.  The idealization
  rewrote nothing, so it is preserved trivially.
-/
import proofs.«113069_j27908697489551_1_alg».proof.Defs
import proofs.«113069_j27908697489551_1_alg».proof.Proof.Gen.Kernel
import proofs.«113069_j27908697489551_1_alg».proof.Proof.Gen.Kernel.Skeleton
import proofs.«113069_j27908697489551_1_alg».proof.Proof.Gen.Kernel.Launch
import proofs.«113069_j27908697489551_1_alg».proof.Proof.Gen.Kernel.Points
import proofs.«113069_j27908697489551_1_alg».proof.Proof.Gen.Kernel.Frame
import proofs.«113069_j27908697489551_1_alg».proof.Proof.Gen.KernelIdeal
import proofs.«113069_j27908697489551_1_alg».proof.Proof.Gen.KernelIdeal.Skeleton
import proofs.«113069_j27908697489551_1_alg».proof.Proof.Gen.KernelIdeal.Launch
import proofs.«113069_j27908697489551_1_alg».proof.Proof.Gen.KernelIdeal.Points
import proofs.«113069_j27908697489551_1_alg».proof.Proof.Gen.KernelIdeal.Frame
import proofs.«113069_j27908697489551_1_alg».proof.Proof.Gen.ReferenceIdeal
import proofs.«113069_j27908697489551_1_alg».proof.Proof.Gen.Pre_finite_inputs
import proofs.«113069_j27908697489551_1_alg».proof.Proof.RefValue
import proofs.«113069_j27908697489551_1_alg».proof.Proof.KernelRun
import proofs.«113069_j27908697489551_1_alg».proof.Proof.Chain
import proofs.«113069_j27908697489551_1_alg».proof.Proof.Finite
import proofs.«113069_j27908697489551_1_alg».proof.Proof.Tiled
import Idealize.ShloMosaic.Adequacy
import Idealize.ShloMosaic.Init

noncomputable section

namespace Cert.Proof

open Idealize.ShloMosaic Idealize.SL.Sem

/-- The word-level tiled program runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The plain program is a straight line of host operations: its run, the result forgotten. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From finite inputs both programs end with the network's value `Spec.out` of the arguments: the tiled one by its
    buffers followed from boundary to boundary and the agreement of the two forms on real entries, the plain one by
    its run. -/
theorem algebraic : Cert.algebraic_KernelIdeal_ReferenceIdeal := by
  intro m ρ m' ρ' hpre hagree
  refine ⟨fun c => Cert.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun r h c => ⟨(h c).1.trans ?_, (h c).2⟩) (Cert.KernelIdeal.KernelRun.run m ρ)
    rw [Cert.KernelIdeal.Chain.result m ρ c]
    obtain ⟨h0, h2, h3, h4, h5, h6, h7, h8, -, -, -, -⟩ := Cert.Finite.real_of_pre _ _ _ _ _ _ _ _ _ _ _ _ _ (hpre c)
    exact Cert.Spec.outT_eq h0 h2 h3 h4 h5 h6 h7 h8 _ _
  · refine (θ_run Cert.ReferenceIdeal.defs _ _).mono (fun r h c => ⟨(h c).1.trans ?_, (h c).2⟩) (Cert.ReferenceIdeal.RefValue.run m' ρ')
    obtain ⟨e0, e1, e2, e3, e4, e5, e6, e7, e8, e9, e10, e11, e12⟩ := hagree c
    rw [e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
